-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v560) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7x256 : Shape := ⟨3, ![4096, 7, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S4096x7x256 : S_.BroadcastsInDim S4096x7x256 (![] : Fin 0 → Fin S4096x7x256.rank)
  reducesTo_S4096x7x256_S_d0_1_2 : S4096x7x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256 .f32) (main_arg5 : FVec F S128x256 .f32) (main_arg6 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4096x7x256 .f32) (main_arg1 : FVec F S256x256 .f32) (main_arg2 : FVec F S256 .f32) (main_arg3 : FVec F S256x256 .f32) (main_arg4 : FVec F S256 .f32) (main_arg5 : FVec F S128x256 .f32) (main_arg6 : FVec F S128 .f32) : IVec S_ 1 :=
  let main_v0 : FVec F S4096x7x256 .f32 := Host.absf main_arg0
  let main_cst : FVec F S_ .f32 := constant S_ .f32 0x7F800000#32
  let main_v1 : FVec F S4096x7x256 .f32 := broadcastInDim S4096x7x256 ![] bcast_S_S4096x7x256 main_cst
  let main_v2 : IVec S4096x7x256 1 := cmpf .olt main_v0 main_v1
  let main_c : IVec S_ 1 := constantI S_ 1 1#1
  let main_v3 : IVec S_ 1 := (fun x v => Host.reduce IntOp.andi x v reducesTo_S4096x7x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4096x7x256 : Shape := ⟨3, ![4096, 7, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S7x4096x256 : Shape := ⟨3, ![7, 4096, 256]⟩
abbrev S1x256 : Shape := ⟨2, ![1, 256]⟩
abbrev S1x128 : Shape := ⟨2, ![1, 128]⟩
abbrev S13x4096x128 : Shape := ⟨3, ![13, 4096, 128]⟩
abbrev S7x1024x256 : Shape := ⟨3, ![7, 1024, 256]⟩
abbrev S13x1024x128 : Shape := ⟨3, ![13, 1024, 128]⟩
abbrev S1x512x256 : Shape := ⟨3, ![1, 512, 256]⟩
abbrev S512x256 : Shape := ⟨2, ![512, 256]⟩
abbrev S512x128 : Shape := ⟨2, ![512, 128]⟩
abbrev S1x512x128 : Shape := ⟨3, ![1, 512, 128]⟩

abbrev nBuf : Space → Nat
  | .hbm => 12
  | .vmem => 10
  | .smem => 0
  | _ => 0

abbrev bufTy : (tb : Table) → Fin (tcTables nBuf tb) → BufTy
  | .hbm, ⟨0, _⟩ => ⟨S4096x7x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S7x4096x256, .f32⟩
  | .hbm, ⟨8, _⟩ => ⟨S1x256, .f32⟩
  | .hbm, ⟨9, _⟩ => ⟨S1x256, .f32⟩
  | .hbm, ⟨10, _⟩ => ⟨S1x128, .f32⟩
  | .hbm, ⟨11, _⟩ => ⟨S13x4096x128, .f32⟩
  | .local _ .vmem, ⟨0, _⟩ => ⟨S7x1024x256, .f32⟩
  | .local _ .vmem, ⟨1, _⟩ => ⟨S7x1024x256, .f32⟩
  | .local _ .vmem, ⟨2, _⟩ => ⟨S256x256, .f32⟩
  | .local _ .vmem, ⟨3, _⟩ => ⟨S256x256, .f32⟩
  | .local _ .vmem, ⟨4, _⟩ => ⟨S128x256, .f32⟩
  | .local _ .vmem, ⟨5, _⟩ => ⟨S1x256, .f32⟩
  | .local _ .vmem, ⟨6, _⟩ => ⟨S1x256, .f32⟩
  | .local _ .vmem, ⟨7, _⟩ => ⟨S1x128, .f32⟩
  | .local _ .vmem, ⟨8, _⟩ => ⟨S13x1024x128, .f32⟩
  | .local _ .vmem, ⟨9, _⟩ => ⟨S13x1024x128, .f32⟩
  | _, _ => ⟨S4096x7x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S13x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x7x256_S7x4096x256_1_0_2 : S4096x7x256.Transposes [1, 0, 2] S7x4096x256
  shapeCasts_S256_S1x256 : S256.ShapeCasts S1x256
  shapeCasts_S128_S1x128 : S128.ShapeCasts S1x128
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S7x1024x256_S1x512x256_0_0_0 : ∀ a, (![0, 0, 0] : Fin 3 → Nat) a + S1x512x256.size a ≤ S7x1024x256.size a
  h_S1x512x256 : 0 < S1x512x256.numel
  shapeCasts_S1x512x256_S512x256 : S1x512x256.ShapeCasts S512x256
  inb_S7x1024x256_S1x512x256_1_0_0 : ∀ a, (![1, 0, 0] : Fin 3 → Nat) a + S1x512x256.size a ≤ S7x1024x256.size a
  inb_S7x1024x256_S1x512x256_2_0_0 : ∀ a, (![2, 0, 0] : Fin 3 → Nat) a + S1x512x256.size a ≤ S7x1024x256.size a
  inb_S7x1024x256_S1x512x256_3_0_0 : ∀ a, (![3, 0, 0] : Fin 3 → Nat) a + S1x512x256.size a ≤ S7x1024x256.size a
  inb_S7x1024x256_S1x512x256_4_0_0 : ∀ a, (![4, 0, 0] : Fin 3 → Nat) a + S1x512x256.size a ≤ S7x1024x256.size a
  inb_S7x1024x256_S1x512x256_5_0_0 : ∀ a, (![5, 0, 0] : Fin 3 → Nat) a + S1x512x256.size a ≤ S7x1024x256.size a
  inb_S7x1024x256_S1x512x256_6_0_0 : ∀ a, (![6, 0, 0] : Fin 3 → Nat) a + S1x512x256.size a ≤ S7x1024x256.size a
  inb_S7x1024x256_S1x512x256_0_512_0 : ∀ a, (![0, 512, 0] : Fin 3 → Nat) a + S1x512x256.size a ≤ S7x1024x256.size a
  inb_S7x1024x256_S1x512x256_1_512_0 : ∀ a, (![1, 512, 0] : Fin 3 → Nat) a + S1x512x256.size a ≤ S7x1024x256.size a
  inb_S7x1024x256_S1x512x256_2_512_0 : ∀ a, (![2, 512, 0] : Fin 3 → Nat) a + S1x512x256.size a ≤ S7x1024x256.size a
  inb_S7x1024x256_S1x512x256_3_512_0 : ∀ a, (![3, 512, 0] : Fin 3 → Nat) a + S1x512x256.size a ≤ S7x1024x256.size a
  inb_S7x1024x256_S1x512x256_4_512_0 : ∀ a, (![4, 512, 0] : Fin 3 → Nat) a + S1x512x256.size a ≤ S7x1024x256.size a
  inb_S7x1024x256_S1x512x256_5_512_0 : ∀ a, (![5, 512, 0] : Fin 3 → Nat) a + S1x512x256.size a ≤ S7x1024x256.size a
  inb_S7x1024x256_S1x512x256_6_512_0 : ∀ a, (![6, 512, 0] : Fin 3 → Nat) a + S1x512x256.size a ≤ S7x1024x256.size a
  broadcasts_S1x128_S512x128 : S1x128.Broadcasts S512x128
  inb_S13x1024x128_S1x512x128_0_0_0 : ∀ a, (![0, 0, 0] : Fin 3 → Nat) a + S1x512x128.size a ≤ S13x1024x128.size a
  h_S1x512x128 : 0 < S1x512x128.numel
  shapeCasts_S1x512x128_S512x128 : S1x512x128.ShapeCasts S512x128
  shapeCasts_S512x128_S1x512x128 : S512x128.ShapeCasts S1x512x128
  inb_S13x1024x128_S1x512x128_0_512_0 : ∀ a, (![0, 512, 0] : Fin 3 → Nat) a + S1x512x128.size a ≤ S13x1024x128.size a
  broadcasts_S1x256_S512x256 : S1x256.Broadcasts S512x256
  inb_S13x1024x128_S1x512x128_1_0_0 : ∀ a, (![1, 0, 0] : Fin 3 → Nat) a + S1x512x128.size a ≤ S13x1024x128.size a
  inb_S13x1024x128_S1x512x128_1_512_0 : ∀ a, (![1, 512, 0] : Fin 3 → Nat) a + S1x512x128.size a ≤ S13x1024x128.size a
  inb_S13x1024x128_S1x512x128_2_0_0 : ∀ a, (![2, 0, 0] : Fin 3 → Nat) a + S1x512x128.size a ≤ S13x1024x128.size a
  inb_S13x1024x128_S1x512x128_2_512_0 : ∀ a, (![2, 512, 0] : Fin 3 → Nat) a + S1x512x128.size a ≤ S13x1024x128.size a
  inb_S13x1024x128_S1x512x128_3_0_0 : ∀ a, (![3, 0, 0] : Fin 3 → Nat) a + S1x512x128.size a ≤ S13x1024x128.size a
  inb_S13x1024x128_S1x512x128_3_512_0 : ∀ a, (![3, 512, 0] : Fin 3 → Nat) a + S1x512x128.size a ≤ S13x1024x128.size a
  inb_S13x1024x128_S1x512x128_4_0_0 : ∀ a, (![4, 0, 0] : Fin 3 → Nat) a + S1x512x128.size a ≤ S13x1024x128.size a
  inb_S13x1024x128_S1x512x128_4_512_0 : ∀ a, (![4, 512, 0] : Fin 3 → Nat) a + S1x512x128.size a ≤ S13x1024x128.size a
  inb_S13x1024x128_S1x512x128_5_0_0 : ∀ a, (![5, 0, 0] : Fin 3 → Nat) a + S1x512x128.size a ≤ S13x1024x128.size a
  inb_S13x1024x128_S1x512x128_5_512_0 : ∀ a, (![5, 512, 0] : Fin 3 → Nat) a + S1x512x128.size a ≤ S13x1024x128.size a
  inb_S13x1024x128_S1x512x128_6_0_0 : ∀ a, (![6, 0, 0] : Fin 3 → Nat) a + S1x512x128.size a ≤ S13x1024x128.size a
  inb_S13x1024x128_S1x512x128_6_512_0 : ∀ a, (![6, 512, 0] : Fin 3 → Nat) a + S1x512x128.size a ≤ S13x1024x128.size a
  inb_S13x1024x128_S1x512x128_7_0_0 : ∀ a, (![7, 0, 0] : Fin 3 → Nat) a + S1x512x128.size a ≤ S13x1024x128.size a
  inb_S13x1024x128_S1x512x128_7_512_0 : ∀ a, (![7, 512, 0] : Fin 3 → Nat) a + S1x512x128.size a ≤ S13x1024x128.size a
  inb_S13x1024x128_S1x512x128_8_0_0 : ∀ a, (![8, 0, 0] : Fin 3 → Nat) a + S1x512x128.size a ≤ S13x1024x128.size a
  inb_S13x1024x128_S1x512x128_8_512_0 : ∀ a, (![8, 512, 0] : Fin 3 → Nat) a + S1x512x128.size a ≤ S13x1024x128.size a
  inb_S13x1024x128_S1x512x128_9_0_0 : ∀ a, (![9, 0, 0] : Fin 3 → Nat) a + S1x512x128.size a ≤ S13x1024x128.size a
  inb_S13x1024x128_S1x512x128_9_512_0 : ∀ a, (![9, 512, 0] : Fin 3 → Nat) a + S1x512x128.size a ≤ S13x1024x128.size a
  inb_S13x1024x128_S1x512x128_10_0_0 : ∀ a, (![10, 0, 0] : Fin 3 → Nat) a + S1x512x128.size a ≤ S13x1024x128.size a
  inb_S13x1024x128_S1x512x128_10_512_0 : ∀ a, (![10, 512, 0] : Fin 3 → Nat) a + S1x512x128.size a ≤ S13x1024x128.size a
  inb_S13x1024x128_S1x512x128_11_0_0 : ∀ a, (![11, 0, 0] : Fin 3 → Nat) a + S1x512x128.size a ≤ S13x1024x128.size a
  inb_S13x1024x128_S1x512x128_11_512_0 : ∀ a, (![11, 512, 0] : Fin 3 → Nat) a + S1x512x128.size a ≤ S13x1024x128.size a
  inb_S13x1024x128_S1x512x128_12_0_0 : ∀ a, (![12, 0, 0] : Fin 3 → Nat) a + S1x512x128.size a ≤ S13x1024x128.size a
  inb_S13x1024x128_S1x512x128_12_512_0 : ∀ a, (![12, 512, 0] : Fin 3 → Nat) a + S1x512x128.size a ≤ S13x1024x128.size a
  dot_S512x256_S128x256_S512x128_1_1_0_0_n_n_wf : DotDims.WF S512x256 S128x256 S512x128 [1] [1] [0] [0] [] []
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x1024x256.size a ≤ S7x4096x256.size a
  hwx0_0 : ∀ i : grid0.Coords, EltTy.bits .f32 = 32 ∨ (Rect.block (s := S7x4096x256) S7x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S13x1024x128.size a ≤ S13x4096x128.size a
  hwx0_7 : ∀ i : grid0.Coords, EltTy.bits .f32 = 32 ∨ (Rect.block (s := S13x4096x128) S13x1024x128.size (cc0_transform_7 i) (hinb0_7 i)).WholeWords (EltTy.packing .f32)

variable [Facts₀]

def dot_S512x256_S128x256_S512x128_1_1_0_0_n_n : DotDims S512x256 S128x256 S512x128 where
  lhsContracting := [1]
  rhsContracting := [1]
  lhsNonContracting := [0]
  rhsNonContracting := [0]
  lhsBatch := []
  rhsBatch := []
  wf := dot_S512x256_S128x256_S512x128_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_v0) S7x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S13x1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x7x256 : Shape := ⟨3, ![4096, 7, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S4096x1x256 : Shape := ⟨3, ![4096, 1, 256]⟩
abbrev S4096x256 : Shape := ⟨2, ![4096, 256]⟩
abbrev S256x128 : Shape := ⟨2, ![256, 128]⟩
abbrev S4096x128 : Shape := ⟨2, ![4096, 128]⟩
abbrev S1x128 : Shape := ⟨2, ![1, 128]⟩
abbrev S1x256 : Shape := ⟨2, ![1, 256]⟩
abbrev S_ : Shape := ⟨0, ![]⟩
abbrev S1 : Shape := ⟨1, ![1]⟩
abbrev S1x4096x128 : Shape := ⟨3, ![1, 4096, 128]⟩
abbrev S13x4096x128 : Shape := ⟨3, ![13, 4096, 128]⟩

abbrev nBuf : Space → Nat
  | .hbm => 604
  | .vmem => 0
  | .smem => 0
  | _ => 0

abbrev hbmTy0_0 (i : Nat) : BufTy := match i % 128 with
  | 0 => ⟨S4096x7x256, .f32⟩
  | 1 => ⟨S256x256, .f32⟩
  | 2 => ⟨S256, .f32⟩
  | 3 => ⟨S256x256, .f32⟩
  | 4 => ⟨S256, .f32⟩
  | 5 => ⟨S128x256, .f32⟩
  | 6 => ⟨S128, .f32⟩
  | 7 => ⟨S4096x1x256, .f32⟩
  | 8 => ⟨S4096x256, .f32⟩
  | 9 => ⟨S256x128, .f32⟩
  | 10 => ⟨S4096x128, .f32⟩
  | 11 => ⟨S1x128, .f32⟩
  | 12 => ⟨S4096x128, .f32⟩
  | 13 => ⟨S4096x128, .f32⟩
  | 14 => ⟨S4096x1x256, .f32⟩
  | 15 => ⟨S4096x256, .f32⟩
  | 16 => ⟨S256x256, .f32⟩
  | 17 => ⟨S4096x256, .f32⟩
  | 18 => ⟨S1x256, .f32⟩
  | 19 => ⟨S4096x256, .f32⟩
  | 20 => ⟨S4096x256, .f32⟩
  | 21 => ⟨S4096x1x256, .f32⟩
  | 22 => ⟨S4096x256, .f32⟩
  | 23 => ⟨S256x256, .f32⟩
  | 24 => ⟨S4096x256, .f32⟩
  | 25 => ⟨S1x256, .f32⟩
  | 26 => ⟨S4096x256, .f32⟩
  | 27 => ⟨S4096x256, .f32⟩
  | 28 => ⟨S4096x256, .f32⟩
  | 29 => ⟨S4096x256, .f32⟩
  | 30 => ⟨S_, .i32⟩
  | 31 => ⟨S1, .i32⟩
  | 32 => ⟨S4096x7x256, .f32⟩
  | 33 => ⟨S4096x1x256, .f32⟩
  | 34 => ⟨S4096x256, .f32⟩
  | 35 => ⟨S256x256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S_, .i32⟩
  | 42 => ⟨S1, .i32⟩
  | 43 => ⟨S4096x7x256, .f32⟩
  | 44 => ⟨S4096x1x256, .f32⟩
  | 45 => ⟨S4096x256, .f32⟩
  | 46 => ⟨S256x256, .f32⟩
  | 47 => ⟨S4096x256, .f32⟩
  | 48 => ⟨S1x256, .f32⟩
  | 49 => ⟨S4096x256, .f32⟩
  | 50 => ⟨S4096x256, .f32⟩
  | 51 => ⟨S4096x256, .f32⟩
  | 52 => ⟨S_, .i32⟩
  | 53 => ⟨S1, .i32⟩
  | 54 => ⟨S4096x7x256, .f32⟩
  | 55 => ⟨S4096x1x256, .f32⟩
  | 56 => ⟨S4096x256, .f32⟩
  | 57 => ⟨S256x128, .f32⟩
  | 58 => ⟨S4096x128, .f32⟩
  | 59 => ⟨S1x128, .f32⟩
  | 60 => ⟨S4096x128, .f32⟩
  | 61 => ⟨S4096x128, .f32⟩
  | 62 => ⟨S4096x1x256, .f32⟩
  | 63 => ⟨S4096x256, .f32⟩
  | 64 => ⟨S256x256, .f32⟩
  | 65 => ⟨S4096x256, .f32⟩
  | 66 => ⟨S1x256, .f32⟩
  | 67 => ⟨S4096x256, .f32⟩
  | 68 => ⟨S4096x256, .f32⟩
  | 69 => ⟨S4096x1x256, .f32⟩
  | 70 => ⟨S4096x256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S_, .i32⟩
  | 79 => ⟨S1, .i32⟩
  | 80 => ⟨S4096x7x256, .f32⟩
  | 81 => ⟨S4096x1x256, .f32⟩
  | 82 => ⟨S4096x256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S_, .i32⟩
  | 90 => ⟨S1, .i32⟩
  | 91 => ⟨S4096x7x256, .f32⟩
  | 92 => ⟨S4096x1x256, .f32⟩
  | 93 => ⟨S4096x256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S_, .i32⟩
  | 101 => ⟨S1, .i32⟩
  | 102 => ⟨S4096x7x256, .f32⟩
  | 103 => ⟨S4096x1x256, .f32⟩
  | 104 => ⟨S4096x256, .f32⟩
  | 105 => ⟨S256x128, .f32⟩
  | 106 => ⟨S4096x128, .f32⟩
  | 107 => ⟨S1x128, .f32⟩
  | 108 => ⟨S4096x128, .f32⟩
  | 109 => ⟨S4096x128, .f32⟩
  | 110 => ⟨S4096x1x256, .f32⟩
  | 111 => ⟨S4096x256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x1x256, .f32⟩
  | 118 => ⟨S4096x256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S4096x256, .f32⟩
  | 126 => ⟨S_, .i32⟩
  | 127 => ⟨S1, .i32⟩
  | _ => ⟨S4096x7x256, .f32⟩

abbrev hbmTy0_1 (i : Nat) : BufTy := match i % 128 with
  | 0 => ⟨S4096x7x256, .f32⟩
  | 1 => ⟨S4096x1x256, .f32⟩
  | 2 => ⟨S4096x256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S_, .i32⟩
  | 10 => ⟨S1, .i32⟩
  | 11 => ⟨S4096x7x256, .f32⟩
  | 12 => ⟨S4096x1x256, .f32⟩
  | 13 => ⟨S4096x256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S_, .i32⟩
  | 21 => ⟨S1, .i32⟩
  | 22 => ⟨S4096x7x256, .f32⟩
  | 23 => ⟨S4096x1x256, .f32⟩
  | 24 => ⟨S4096x256, .f32⟩
  | 25 => ⟨S256x128, .f32⟩
  | 26 => ⟨S4096x128, .f32⟩
  | 27 => ⟨S1x128, .f32⟩
  | 28 => ⟨S4096x128, .f32⟩
  | 29 => ⟨S4096x128, .f32⟩
  | 30 => ⟨S4096x1x256, .f32⟩
  | 31 => ⟨S4096x256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S4096x1x256, .f32⟩
  | 38 => ⟨S4096x256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S_, .i32⟩
  | 47 => ⟨S1, .i32⟩
  | 48 => ⟨S4096x7x256, .f32⟩
  | 49 => ⟨S4096x1x256, .f32⟩
  | 50 => ⟨S4096x256, .f32⟩
  | 51 => ⟨S256x256, .f32⟩
  | 52 => ⟨S4096x256, .f32⟩
  | 53 => ⟨S1x256, .f32⟩
  | 54 => ⟨S4096x256, .f32⟩
  | 55 => ⟨S4096x256, .f32⟩
  | 56 => ⟨S4096x256, .f32⟩
  | 57 => ⟨S_, .i32⟩
  | 58 => ⟨S1, .i32⟩
  | 59 => ⟨S4096x7x256, .f32⟩
  | 60 => ⟨S4096x1x256, .f32⟩
  | 61 => ⟨S4096x256, .f32⟩
  | 62 => ⟨S256x256, .f32⟩
  | 63 => ⟨S4096x256, .f32⟩
  | 64 => ⟨S1x256, .f32⟩
  | 65 => ⟨S4096x256, .f32⟩
  | 66 => ⟨S4096x256, .f32⟩
  | 67 => ⟨S4096x256, .f32⟩
  | 68 => ⟨S_, .i32⟩
  | 69 => ⟨S1, .i32⟩
  | 70 => ⟨S4096x7x256, .f32⟩
  | 71 => ⟨S4096x1x256, .f32⟩
  | 72 => ⟨S4096x256, .f32⟩
  | 73 => ⟨S256x128, .f32⟩
  | 74 => ⟨S4096x128, .f32⟩
  | 75 => ⟨S1x128, .f32⟩
  | 76 => ⟨S4096x128, .f32⟩
  | 77 => ⟨S4096x128, .f32⟩
  | 78 => ⟨S4096x1x256, .f32⟩
  | 79 => ⟨S4096x256, .f32⟩
  | 80 => ⟨S256x256, .f32⟩
  | 81 => ⟨S4096x256, .f32⟩
  | 82 => ⟨S1x256, .f32⟩
  | 83 => ⟨S4096x256, .f32⟩
  | 84 => ⟨S4096x256, .f32⟩
  | 85 => ⟨S4096x1x256, .f32⟩
  | 86 => ⟨S4096x256, .f32⟩
  | 87 => ⟨S256x256, .f32⟩
  | 88 => ⟨S4096x256, .f32⟩
  | 89 => ⟨S1x256, .f32⟩
  | 90 => ⟨S4096x256, .f32⟩
  | 91 => ⟨S4096x256, .f32⟩
  | 92 => ⟨S4096x256, .f32⟩
  | 93 => ⟨S4096x256, .f32⟩
  | 94 => ⟨S_, .i32⟩
  | 95 => ⟨S1, .i32⟩
  | 96 => ⟨S4096x7x256, .f32⟩
  | 97 => ⟨S4096x1x256, .f32⟩
  | 98 => ⟨S4096x256, .f32⟩
  | 99 => ⟨S256x256, .f32⟩
  | 100 => ⟨S4096x256, .f32⟩
  | 101 => ⟨S1x256, .f32⟩
  | 102 => ⟨S4096x256, .f32⟩
  | 103 => ⟨S4096x256, .f32⟩
  | 104 => ⟨S4096x256, .f32⟩
  | 105 => ⟨S_, .i32⟩
  | 106 => ⟨S1, .i32⟩
  | 107 => ⟨S4096x7x256, .f32⟩
  | 108 => ⟨S4096x1x256, .f32⟩
  | 109 => ⟨S4096x256, .f32⟩
  | 110 => ⟨S256x256, .f32⟩
  | 111 => ⟨S4096x256, .f32⟩
  | 112 => ⟨S1x256, .f32⟩
  | 113 => ⟨S4096x256, .f32⟩
  | 114 => ⟨S4096x256, .f32⟩
  | 115 => ⟨S4096x256, .f32⟩
  | 116 => ⟨S_, .i32⟩
  | 117 => ⟨S1, .i32⟩
  | 118 => ⟨S4096x7x256, .f32⟩
  | 119 => ⟨S4096x1x256, .f32⟩
  | 120 => ⟨S4096x256, .f32⟩
  | 121 => ⟨S256x128, .f32⟩
  | 122 => ⟨S4096x128, .f32⟩
  | 123 => ⟨S1x128, .f32⟩
  | 124 => ⟨S4096x128, .f32⟩
  | 125 => ⟨S4096x128, .f32⟩
  | 126 => ⟨S4096x1x256, .f32⟩
  | 127 => ⟨S4096x256, .f32⟩
  | _ => ⟨S4096x7x256, .f32⟩

abbrev hbmTy0_2 (i : Nat) : BufTy := match i % 128 with
  | 0 => ⟨S256x256, .f32⟩
  | 1 => ⟨S4096x256, .f32⟩
  | 2 => ⟨S1x256, .f32⟩
  | 3 => ⟨S4096x256, .f32⟩
  | 4 => ⟨S4096x256, .f32⟩
  | 5 => ⟨S4096x1x256, .f32⟩
  | 6 => ⟨S4096x256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S_, .i32⟩
  | 15 => ⟨S1, .i32⟩
  | 16 => ⟨S4096x7x256, .f32⟩
  | 17 => ⟨S4096x1x256, .f32⟩
  | 18 => ⟨S4096x256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S4096x256, .f32⟩
  | 25 => ⟨S_, .i32⟩
  | 26 => ⟨S1, .i32⟩
  | 27 => ⟨S4096x7x256, .f32⟩
  | 28 => ⟨S4096x1x256, .f32⟩
  | 29 => ⟨S4096x256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S_, .i32⟩
  | 37 => ⟨S1, .i32⟩
  | 38 => ⟨S4096x7x256, .f32⟩
  | 39 => ⟨S4096x1x256, .f32⟩
  | 40 => ⟨S4096x256, .f32⟩
  | 41 => ⟨S256x128, .f32⟩
  | 42 => ⟨S4096x128, .f32⟩
  | 43 => ⟨S1x128, .f32⟩
  | 44 => ⟨S4096x128, .f32⟩
  | 45 => ⟨S4096x128, .f32⟩
  | 46 => ⟨S4096x1x256, .f32⟩
  | 47 => ⟨S4096x256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x1x256, .f32⟩
  | 54 => ⟨S4096x256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S4096x256, .f32⟩
  | 61 => ⟨S4096x256, .f32⟩
  | 62 => ⟨S_, .i32⟩
  | 63 => ⟨S1, .i32⟩
  | 64 => ⟨S4096x7x256, .f32⟩
  | 65 => ⟨S4096x1x256, .f32⟩
  | 66 => ⟨S4096x256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S_, .i32⟩
  | 74 => ⟨S1, .i32⟩
  | 75 => ⟨S4096x7x256, .f32⟩
  | 76 => ⟨S4096x1x256, .f32⟩
  | 77 => ⟨S4096x256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S_, .i32⟩
  | 85 => ⟨S1, .i32⟩
  | 86 => ⟨S4096x7x256, .f32⟩
  | 87 => ⟨S4096x1x256, .f32⟩
  | 88 => ⟨S4096x256, .f32⟩
  | 89 => ⟨S256x128, .f32⟩
  | 90 => ⟨S4096x128, .f32⟩
  | 91 => ⟨S1x128, .f32⟩
  | 92 => ⟨S4096x128, .f32⟩
  | 93 => ⟨S4096x128, .f32⟩
  | 94 => ⟨S4096x1x256, .f32⟩
  | 95 => ⟨S4096x256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S4096x1x256, .f32⟩
  | 102 => ⟨S4096x256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S_, .i32⟩
  | 111 => ⟨S1, .i32⟩
  | 112 => ⟨S4096x7x256, .f32⟩
  | 113 => ⟨S4096x1x256, .f32⟩
  | 114 => ⟨S4096x256, .f32⟩
  | 115 => ⟨S256x256, .f32⟩
  | 116 => ⟨S4096x256, .f32⟩
  | 117 => ⟨S1x256, .f32⟩
  | 118 => ⟨S4096x256, .f32⟩
  | 119 => ⟨S4096x256, .f32⟩
  | 120 => ⟨S4096x256, .f32⟩
  | 121 => ⟨S_, .i32⟩
  | 122 => ⟨S1, .i32⟩
  | 123 => ⟨S4096x7x256, .f32⟩
  | 124 => ⟨S4096x1x256, .f32⟩
  | 125 => ⟨S4096x256, .f32⟩
  | 126 => ⟨S256x256, .f32⟩
  | 127 => ⟨S4096x256, .f32⟩
  | _ => ⟨S4096x7x256, .f32⟩

abbrev hbmTy0_3 (i : Nat) : BufTy := match i % 128 with
  | 0 => ⟨S1x256, .f32⟩
  | 1 => ⟨S4096x256, .f32⟩
  | 2 => ⟨S4096x256, .f32⟩
  | 3 => ⟨S4096x256, .f32⟩
  | 4 => ⟨S_, .i32⟩
  | 5 => ⟨S1, .i32⟩
  | 6 => ⟨S4096x7x256, .f32⟩
  | 7 => ⟨S4096x1x256, .f32⟩
  | 8 => ⟨S4096x256, .f32⟩
  | 9 => ⟨S256x128, .f32⟩
  | 10 => ⟨S4096x128, .f32⟩
  | 11 => ⟨S1x128, .f32⟩
  | 12 => ⟨S4096x128, .f32⟩
  | 13 => ⟨S4096x128, .f32⟩
  | 14 => ⟨S4096x1x256, .f32⟩
  | 15 => ⟨S4096x256, .f32⟩
  | 16 => ⟨S256x256, .f32⟩
  | 17 => ⟨S4096x256, .f32⟩
  | 18 => ⟨S1x256, .f32⟩
  | 19 => ⟨S4096x256, .f32⟩
  | 20 => ⟨S4096x256, .f32⟩
  | 21 => ⟨S4096x1x256, .f32⟩
  | 22 => ⟨S4096x256, .f32⟩
  | 23 => ⟨S256x256, .f32⟩
  | 24 => ⟨S4096x256, .f32⟩
  | 25 => ⟨S1x256, .f32⟩
  | 26 => ⟨S4096x256, .f32⟩
  | 27 => ⟨S4096x256, .f32⟩
  | 28 => ⟨S4096x256, .f32⟩
  | 29 => ⟨S4096x256, .f32⟩
  | 30 => ⟨S_, .i32⟩
  | 31 => ⟨S1, .i32⟩
  | 32 => ⟨S4096x7x256, .f32⟩
  | 33 => ⟨S4096x1x256, .f32⟩
  | 34 => ⟨S4096x256, .f32⟩
  | 35 => ⟨S256x256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S_, .i32⟩
  | 42 => ⟨S1, .i32⟩
  | 43 => ⟨S4096x7x256, .f32⟩
  | 44 => ⟨S4096x1x256, .f32⟩
  | 45 => ⟨S4096x256, .f32⟩
  | 46 => ⟨S256x256, .f32⟩
  | 47 => ⟨S4096x256, .f32⟩
  | 48 => ⟨S1x256, .f32⟩
  | 49 => ⟨S4096x256, .f32⟩
  | 50 => ⟨S4096x256, .f32⟩
  | 51 => ⟨S4096x256, .f32⟩
  | 52 => ⟨S_, .i32⟩
  | 53 => ⟨S1, .i32⟩
  | 54 => ⟨S4096x7x256, .f32⟩
  | 55 => ⟨S4096x1x256, .f32⟩
  | 56 => ⟨S4096x256, .f32⟩
  | 57 => ⟨S256x128, .f32⟩
  | 58 => ⟨S4096x128, .f32⟩
  | 59 => ⟨S1x128, .f32⟩
  | 60 => ⟨S4096x128, .f32⟩
  | 61 => ⟨S4096x128, .f32⟩
  | 62 => ⟨S4096x1x256, .f32⟩
  | 63 => ⟨S4096x256, .f32⟩
  | 64 => ⟨S256x256, .f32⟩
  | 65 => ⟨S4096x256, .f32⟩
  | 66 => ⟨S1x256, .f32⟩
  | 67 => ⟨S4096x256, .f32⟩
  | 68 => ⟨S4096x256, .f32⟩
  | 69 => ⟨S4096x1x256, .f32⟩
  | 70 => ⟨S4096x256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S_, .i32⟩
  | 79 => ⟨S1, .i32⟩
  | 80 => ⟨S4096x7x256, .f32⟩
  | 81 => ⟨S4096x1x256, .f32⟩
  | 82 => ⟨S4096x256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S_, .i32⟩
  | 90 => ⟨S1, .i32⟩
  | 91 => ⟨S4096x7x256, .f32⟩
  | 92 => ⟨S4096x1x256, .f32⟩
  | 93 => ⟨S4096x256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S_, .i32⟩
  | 101 => ⟨S1, .i32⟩
  | 102 => ⟨S4096x7x256, .f32⟩
  | 103 => ⟨S4096x1x256, .f32⟩
  | 104 => ⟨S4096x256, .f32⟩
  | 105 => ⟨S256x128, .f32⟩
  | 106 => ⟨S4096x128, .f32⟩
  | 107 => ⟨S1x128, .f32⟩
  | 108 => ⟨S4096x128, .f32⟩
  | 109 => ⟨S4096x128, .f32⟩
  | 110 => ⟨S4096x1x256, .f32⟩
  | 111 => ⟨S4096x256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x1x256, .f32⟩
  | 118 => ⟨S4096x256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S4096x256, .f32⟩
  | 126 => ⟨S_, .i32⟩
  | 127 => ⟨S1, .i32⟩
  | _ => ⟨S4096x7x256, .f32⟩

abbrev hbmTy0_4 (i : Nat) : BufTy := match i % 128 with
  | 0 => ⟨S4096x7x256, .f32⟩
  | 1 => ⟨S4096x1x256, .f32⟩
  | 2 => ⟨S4096x256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S_, .i32⟩
  | 10 => ⟨S1, .i32⟩
  | 11 => ⟨S4096x7x256, .f32⟩
  | 12 => ⟨S4096x1x256, .f32⟩
  | 13 => ⟨S4096x256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S_, .i32⟩
  | 21 => ⟨S1, .i32⟩
  | 22 => ⟨S4096x7x256, .f32⟩
  | 23 => ⟨S4096x1x256, .f32⟩
  | 24 => ⟨S4096x256, .f32⟩
  | 25 => ⟨S256x128, .f32⟩
  | 26 => ⟨S4096x128, .f32⟩
  | 27 => ⟨S1x128, .f32⟩
  | 28 => ⟨S4096x128, .f32⟩
  | 29 => ⟨S4096x128, .f32⟩
  | 30 => ⟨S4096x1x256, .f32⟩
  | 31 => ⟨S4096x256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S4096x1x256, .f32⟩
  | 38 => ⟨S4096x256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S_, .i32⟩
  | 47 => ⟨S1, .i32⟩
  | 48 => ⟨S4096x7x256, .f32⟩
  | 49 => ⟨S4096x1x256, .f32⟩
  | 50 => ⟨S4096x256, .f32⟩
  | 51 => ⟨S256x256, .f32⟩
  | 52 => ⟨S4096x256, .f32⟩
  | 53 => ⟨S1x256, .f32⟩
  | 54 => ⟨S4096x256, .f32⟩
  | 55 => ⟨S4096x256, .f32⟩
  | 56 => ⟨S4096x256, .f32⟩
  | 57 => ⟨S_, .i32⟩
  | 58 => ⟨S1, .i32⟩
  | 59 => ⟨S4096x7x256, .f32⟩
  | 60 => ⟨S4096x1x256, .f32⟩
  | 61 => ⟨S4096x256, .f32⟩
  | 62 => ⟨S256x256, .f32⟩
  | 63 => ⟨S4096x256, .f32⟩
  | 64 => ⟨S1x256, .f32⟩
  | 65 => ⟨S4096x256, .f32⟩
  | 66 => ⟨S4096x256, .f32⟩
  | 67 => ⟨S4096x256, .f32⟩
  | 68 => ⟨S_, .i32⟩
  | 69 => ⟨S1, .i32⟩
  | 70 => ⟨S4096x7x256, .f32⟩
  | 71 => ⟨S4096x1x256, .f32⟩
  | 72 => ⟨S4096x256, .f32⟩
  | 73 => ⟨S256x128, .f32⟩
  | 74 => ⟨S4096x128, .f32⟩
  | 75 => ⟨S1x128, .f32⟩
  | 76 => ⟨S4096x128, .f32⟩
  | 77 => ⟨S4096x128, .f32⟩
  | 78 => ⟨S1x4096x128, .f32⟩
  | 79 => ⟨S1x4096x128, .f32⟩
  | 80 => ⟨S1x4096x128, .f32⟩
  | 81 => ⟨S1x4096x128, .f32⟩
  | 82 => ⟨S1x4096x128, .f32⟩
  | 83 => ⟨S1x4096x128, .f32⟩
  | 84 => ⟨S1x4096x128, .f32⟩
  | 85 => ⟨S1x4096x128, .f32⟩
  | 86 => ⟨S1x4096x128, .f32⟩
  | 87 => ⟨S1x4096x128, .f32⟩
  | 88 => ⟨S1x4096x128, .f32⟩
  | 89 => ⟨S1x4096x128, .f32⟩
  | 90 => ⟨S1x4096x128, .f32⟩
  | 91 => ⟨S13x4096x128, .f32⟩
  | _ => ⟨S4096x7x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x7x256, .f32⟩

abbrev bufTy : (tb : Table) → Fin (tcTables nBuf tb) → BufTy
  | .hbm, ⟨i, _⟩ => hbmTy i
  | _, _ => ⟨S4096x7x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_1 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_c_2 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_c_3 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_c_4 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_c_5 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_c_6 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_c_7 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_c_8 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_c_9 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_c_10 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_c_11 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_c_12 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_c_13 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_c_14 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_c_15 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_c_16 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_c_17 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_c_18 : Ref sig .tc := ⟨.hbm, 329, rfl⟩
abbrev main_v303 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_v308 : Ref sig .tc := ⟨.hbm, 335, rfl⟩
abbrev main_v309 : Ref sig .tc := ⟨.hbm, 336, rfl⟩
abbrev main_v310 : Ref sig .tc := ⟨.hbm, 337, rfl⟩
abbrev main_v311 : Ref sig .tc := ⟨.hbm, 338, rfl⟩
abbrev main_v312 : Ref sig .tc := ⟨.hbm, 339, rfl⟩
abbrev main_c_19 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_v334 : Ref sig .tc := ⟨.hbm, 362, rfl⟩
abbrev main_v335 : Ref sig .tc := ⟨.hbm, 363, rfl⟩
abbrev main_v336 : Ref sig .tc := ⟨.hbm, 364, rfl⟩
abbrev main_v337 : Ref sig .tc := ⟨.hbm, 365, rfl⟩
abbrev main_c_20 : Ref sig .tc := ⟨.hbm, 366, rfl⟩
abbrev main_v338 : Ref sig .tc := ⟨.hbm, 367, rfl⟩
abbrev main_v339 : Ref sig .tc := ⟨.hbm, 368, rfl⟩
abbrev main_v340 : Ref sig .tc := ⟨.hbm, 369, rfl⟩
abbrev main_v341 : Ref sig .tc := ⟨.hbm, 370, rfl⟩
abbrev main_v342 : Ref sig .tc := ⟨.hbm, 371, rfl⟩
abbrev main_v343 : Ref sig .tc := ⟨.hbm, 372, rfl⟩
abbrev main_v344 : Ref sig .tc := ⟨.hbm, 373, rfl⟩
abbrev main_v345 : Ref sig .tc := ⟨.hbm, 374, rfl⟩
abbrev main_v346 : Ref sig .tc := ⟨.hbm, 375, rfl⟩
abbrev main_v347 : Ref sig .tc := ⟨.hbm, 376, rfl⟩
abbrev main_c_21 : Ref sig .tc := ⟨.hbm, 377, rfl⟩
abbrev main_v348 : Ref sig .tc := ⟨.hbm, 378, rfl⟩
abbrev main_v349 : Ref sig .tc := ⟨.hbm, 379, rfl⟩
abbrev main_v350 : Ref sig .tc := ⟨.hbm, 380, rfl⟩
abbrev main_v351 : Ref sig .tc := ⟨.hbm, 381, rfl⟩
abbrev main_v352 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_v357 : Ref sig .tc := ⟨.hbm, 387, rfl⟩
abbrev main_c_22 : Ref sig .tc := ⟨.hbm, 388, rfl⟩
abbrev main_v358 : Ref sig .tc := ⟨.hbm, 389, rfl⟩
abbrev main_v359 : Ref sig .tc := ⟨.hbm, 390, rfl⟩
abbrev main_v360 : Ref sig .tc := ⟨.hbm, 391, rfl⟩
abbrev main_v361 : Ref sig .tc := ⟨.hbm, 392, rfl⟩
abbrev main_v362 : Ref sig .tc := ⟨.hbm, 393, rfl⟩
abbrev main_v363 : Ref sig .tc := ⟨.hbm, 394, rfl⟩
abbrev main_v364 : Ref sig .tc := ⟨.hbm, 395, rfl⟩
abbrev main_v365 : Ref sig .tc := ⟨.hbm, 396, rfl⟩
abbrev main_v366 : Ref sig .tc := ⟨.hbm, 397, rfl⟩
abbrev main_v367 : Ref sig .tc := ⟨.hbm, 398, rfl⟩
abbrev main_v368 : Ref sig .tc := ⟨.hbm, 399, rfl⟩
abbrev main_v369 : Ref sig .tc := ⟨.hbm, 400, rfl⟩
abbrev main_v370 : Ref sig .tc := ⟨.hbm, 401, rfl⟩
abbrev main_v371 : Ref sig .tc := ⟨.hbm, 402, rfl⟩
abbrev main_v372 : Ref sig .tc := ⟨.hbm, 403, rfl⟩
abbrev main_v373 : Ref sig .tc := ⟨.hbm, 404, rfl⟩
abbrev main_v374 : Ref sig .tc := ⟨.hbm, 405, rfl⟩
abbrev main_v375 : Ref sig .tc := ⟨.hbm, 406, rfl⟩
abbrev main_v376 : Ref sig .tc := ⟨.hbm, 407, rfl⟩
abbrev main_v377 : Ref sig .tc := ⟨.hbm, 408, rfl⟩
abbrev main_v378 : Ref sig .tc := ⟨.hbm, 409, rfl⟩
abbrev main_v379 : Ref sig .tc := ⟨.hbm, 410, rfl⟩
abbrev main_v380 : Ref sig .tc := ⟨.hbm, 411, rfl⟩
abbrev main_v381 : Ref sig .tc := ⟨.hbm, 412, rfl⟩
abbrev main_v382 : Ref sig .tc := ⟨.hbm, 413, rfl⟩
abbrev main_c_23 : Ref sig .tc := ⟨.hbm, 414, rfl⟩
abbrev main_v383 : Ref sig .tc := ⟨.hbm, 415, rfl⟩
abbrev main_v384 : Ref sig .tc := ⟨.hbm, 416, rfl⟩
abbrev main_v385 : Ref sig .tc := ⟨.hbm, 417, rfl⟩
abbrev main_v386 : Ref sig .tc := ⟨.hbm, 418, rfl⟩
abbrev main_v387 : Ref sig .tc := ⟨.hbm, 419, rfl⟩
abbrev main_v388 : Ref sig .tc := ⟨.hbm, 420, rfl⟩
abbrev main_v389 : Ref sig .tc := ⟨.hbm, 421, rfl⟩
abbrev main_v390 : Ref sig .tc := ⟨.hbm, 422, rfl⟩
abbrev main_v391 : Ref sig .tc := ⟨.hbm, 423, rfl⟩
abbrev main_v392 : Ref sig .tc := ⟨.hbm, 424, rfl⟩
abbrev main_c_24 : Ref sig .tc := ⟨.hbm, 425, rfl⟩
abbrev main_v393 : Ref sig .tc := ⟨.hbm, 426, rfl⟩
abbrev main_v394 : Ref sig .tc := ⟨.hbm, 427, rfl⟩
abbrev main_v395 : Ref sig .tc := ⟨.hbm, 428, rfl⟩
abbrev main_v396 : Ref sig .tc := ⟨.hbm, 429, rfl⟩
abbrev main_v397 : Ref sig .tc := ⟨.hbm, 430, rfl⟩
abbrev main_v398 : Ref sig .tc := ⟨.hbm, 431, rfl⟩
abbrev main_v399 : Ref sig .tc := ⟨.hbm, 432, rfl⟩
abbrev main_v400 : Ref sig .tc := ⟨.hbm, 433, rfl⟩
abbrev main_v401 : Ref sig .tc := ⟨.hbm, 434, rfl⟩
abbrev main_v402 : Ref sig .tc := ⟨.hbm, 435, rfl⟩
abbrev main_c_25 : Ref sig .tc := ⟨.hbm, 436, rfl⟩
abbrev main_v403 : Ref sig .tc := ⟨.hbm, 437, rfl⟩
abbrev main_v404 : Ref sig .tc := ⟨.hbm, 438, rfl⟩
abbrev main_v405 : Ref sig .tc := ⟨.hbm, 439, rfl⟩
abbrev main_v406 : Ref sig .tc := ⟨.hbm, 440, rfl⟩
abbrev main_v407 : Ref sig .tc := ⟨.hbm, 441, rfl⟩
abbrev main_v408 : Ref sig .tc := ⟨.hbm, 442, rfl⟩
abbrev main_v409 : Ref sig .tc := ⟨.hbm, 443, rfl⟩
abbrev main_v410 : Ref sig .tc := ⟨.hbm, 444, rfl⟩
abbrev main_v411 : Ref sig .tc := ⟨.hbm, 445, rfl⟩
abbrev main_v412 : Ref sig .tc := ⟨.hbm, 446, rfl⟩
abbrev main_v413 : Ref sig .tc := ⟨.hbm, 447, rfl⟩
abbrev main_v414 : Ref sig .tc := ⟨.hbm, 448, rfl⟩
abbrev main_v415 : Ref sig .tc := ⟨.hbm, 449, rfl⟩
abbrev main_v416 : Ref sig .tc := ⟨.hbm, 450, rfl⟩
abbrev main_v417 : Ref sig .tc := ⟨.hbm, 451, rfl⟩
abbrev main_v418 : Ref sig .tc := ⟨.hbm, 452, rfl⟩
abbrev main_v419 : Ref sig .tc := ⟨.hbm, 453, rfl⟩
abbrev main_v420 : Ref sig .tc := ⟨.hbm, 454, rfl⟩
abbrev main_v421 : Ref sig .tc := ⟨.hbm, 455, rfl⟩
abbrev main_v422 : Ref sig .tc := ⟨.hbm, 456, rfl⟩
abbrev main_v423 : Ref sig .tc := ⟨.hbm, 457, rfl⟩
abbrev main_v424 : Ref sig .tc := ⟨.hbm, 458, rfl⟩
abbrev main_v425 : Ref sig .tc := ⟨.hbm, 459, rfl⟩
abbrev main_v426 : Ref sig .tc := ⟨.hbm, 460, rfl⟩
abbrev main_v427 : Ref sig .tc := ⟨.hbm, 461, rfl⟩
abbrev main_c_26 : Ref sig .tc := ⟨.hbm, 462, rfl⟩
abbrev main_v428 : Ref sig .tc := ⟨.hbm, 463, rfl⟩
abbrev main_v429 : Ref sig .tc := ⟨.hbm, 464, rfl⟩
abbrev main_v430 : Ref sig .tc := ⟨.hbm, 465, rfl⟩
abbrev main_v431 : Ref sig .tc := ⟨.hbm, 466, rfl⟩
abbrev main_v432 : Ref sig .tc := ⟨.hbm, 467, rfl⟩
abbrev main_v433 : Ref sig .tc := ⟨.hbm, 468, rfl⟩
abbrev main_v434 : Ref sig .tc := ⟨.hbm, 469, rfl⟩
abbrev main_v435 : Ref sig .tc := ⟨.hbm, 470, rfl⟩
abbrev main_v436 : Ref sig .tc := ⟨.hbm, 471, rfl⟩
abbrev main_v437 : Ref sig .tc := ⟨.hbm, 472, rfl⟩
abbrev main_c_27 : Ref sig .tc := ⟨.hbm, 473, rfl⟩
abbrev main_v438 : Ref sig .tc := ⟨.hbm, 474, rfl⟩
abbrev main_v439 : Ref sig .tc := ⟨.hbm, 475, rfl⟩
abbrev main_v440 : Ref sig .tc := ⟨.hbm, 476, rfl⟩
abbrev main_v441 : Ref sig .tc := ⟨.hbm, 477, rfl⟩
abbrev main_v442 : Ref sig .tc := ⟨.hbm, 478, rfl⟩
abbrev main_v443 : Ref sig .tc := ⟨.hbm, 479, rfl⟩
abbrev main_v444 : Ref sig .tc := ⟨.hbm, 480, rfl⟩
abbrev main_v445 : Ref sig .tc := ⟨.hbm, 481, rfl⟩
abbrev main_v446 : Ref sig .tc := ⟨.hbm, 482, rfl⟩
abbrev main_v447 : Ref sig .tc := ⟨.hbm, 483, rfl⟩
abbrev main_c_28 : Ref sig .tc := ⟨.hbm, 484, rfl⟩
abbrev main_v448 : Ref sig .tc := ⟨.hbm, 485, rfl⟩
abbrev main_v449 : Ref sig .tc := ⟨.hbm, 486, rfl⟩
abbrev main_v450 : Ref sig .tc := ⟨.hbm, 487, rfl⟩
abbrev main_v451 : Ref sig .tc := ⟨.hbm, 488, rfl⟩
abbrev main_v452 : Ref sig .tc := ⟨.hbm, 489, rfl⟩
abbrev main_v453 : Ref sig .tc := ⟨.hbm, 490, rfl⟩
abbrev main_v454 : Ref sig .tc := ⟨.hbm, 491, rfl⟩
abbrev main_v455 : Ref sig .tc := ⟨.hbm, 492, rfl⟩
abbrev main_v456 : Ref sig .tc := ⟨.hbm, 493, rfl⟩
abbrev main_v457 : Ref sig .tc := ⟨.hbm, 494, rfl⟩
abbrev main_v458 : Ref sig .tc := ⟨.hbm, 495, rfl⟩
abbrev main_v459 : Ref sig .tc := ⟨.hbm, 496, rfl⟩
abbrev main_v460 : Ref sig .tc := ⟨.hbm, 497, rfl⟩
abbrev main_v461 : Ref sig .tc := ⟨.hbm, 498, rfl⟩
abbrev main_v462 : Ref sig .tc := ⟨.hbm, 499, rfl⟩
abbrev main_v463 : Ref sig .tc := ⟨.hbm, 500, rfl⟩
abbrev main_v464 : Ref sig .tc := ⟨.hbm, 501, rfl⟩
abbrev main_v465 : Ref sig .tc := ⟨.hbm, 502, rfl⟩
abbrev main_v466 : Ref sig .tc := ⟨.hbm, 503, rfl⟩
abbrev main_v467 : Ref sig .tc := ⟨.hbm, 504, rfl⟩
abbrev main_v468 : Ref sig .tc := ⟨.hbm, 505, rfl⟩
abbrev main_v469 : Ref sig .tc := ⟨.hbm, 506, rfl⟩
abbrev main_v470 : Ref sig .tc := ⟨.hbm, 507, rfl⟩
abbrev main_v471 : Ref sig .tc := ⟨.hbm, 508, rfl⟩
abbrev main_v472 : Ref sig .tc := ⟨.hbm, 509, rfl⟩
abbrev main_c_29 : Ref sig .tc := ⟨.hbm, 510, rfl⟩
abbrev main_v473 : Ref sig .tc := ⟨.hbm, 511, rfl⟩
abbrev main_v474 : Ref sig .tc := ⟨.hbm, 512, rfl⟩
abbrev main_v475 : Ref sig .tc := ⟨.hbm, 513, rfl⟩
abbrev main_v476 : Ref sig .tc := ⟨.hbm, 514, rfl⟩
abbrev main_v477 : Ref sig .tc := ⟨.hbm, 515, rfl⟩
abbrev main_v478 : Ref sig .tc := ⟨.hbm, 516, rfl⟩
abbrev main_v479 : Ref sig .tc := ⟨.hbm, 517, rfl⟩
abbrev main_v480 : Ref sig .tc := ⟨.hbm, 518, rfl⟩
abbrev main_v481 : Ref sig .tc := ⟨.hbm, 519, rfl⟩
abbrev main_v482 : Ref sig .tc := ⟨.hbm, 520, rfl⟩
abbrev main_c_30 : Ref sig .tc := ⟨.hbm, 521, rfl⟩
abbrev main_v483 : Ref sig .tc := ⟨.hbm, 522, rfl⟩
abbrev main_v484 : Ref sig .tc := ⟨.hbm, 523, rfl⟩
abbrev main_v485 : Ref sig .tc := ⟨.hbm, 524, rfl⟩
abbrev main_v486 : Ref sig .tc := ⟨.hbm, 525, rfl⟩
abbrev main_v487 : Ref sig .tc := ⟨.hbm, 526, rfl⟩
abbrev main_v488 : Ref sig .tc := ⟨.hbm, 527, rfl⟩
abbrev main_v489 : Ref sig .tc := ⟨.hbm, 528, rfl⟩
abbrev main_v490 : Ref sig .tc := ⟨.hbm, 529, rfl⟩
abbrev main_v491 : Ref sig .tc := ⟨.hbm, 530, rfl⟩
abbrev main_v492 : Ref sig .tc := ⟨.hbm, 531, rfl⟩
abbrev main_c_31 : Ref sig .tc := ⟨.hbm, 532, rfl⟩
abbrev main_v493 : Ref sig .tc := ⟨.hbm, 533, rfl⟩
abbrev main_v494 : Ref sig .tc := ⟨.hbm, 534, rfl⟩
abbrev main_v495 : Ref sig .tc := ⟨.hbm, 535, rfl⟩
abbrev main_v496 : Ref sig .tc := ⟨.hbm, 536, rfl⟩
abbrev main_v497 : Ref sig .tc := ⟨.hbm, 537, rfl⟩
abbrev main_v498 : Ref sig .tc := ⟨.hbm, 538, rfl⟩
abbrev main_v499 : Ref sig .tc := ⟨.hbm, 539, rfl⟩
abbrev main_v500 : Ref sig .tc := ⟨.hbm, 540, rfl⟩
abbrev main_v501 : Ref sig .tc := ⟨.hbm, 541, rfl⟩
abbrev main_v502 : Ref sig .tc := ⟨.hbm, 542, rfl⟩
abbrev main_v503 : Ref sig .tc := ⟨.hbm, 543, rfl⟩
abbrev main_v504 : Ref sig .tc := ⟨.hbm, 544, rfl⟩
abbrev main_v505 : Ref sig .tc := ⟨.hbm, 545, rfl⟩
abbrev main_v506 : Ref sig .tc := ⟨.hbm, 546, rfl⟩
abbrev main_v507 : Ref sig .tc := ⟨.hbm, 547, rfl⟩
abbrev main_v508 : Ref sig .tc := ⟨.hbm, 548, rfl⟩
abbrev main_v509 : Ref sig .tc := ⟨.hbm, 549, rfl⟩
abbrev main_v510 : Ref sig .tc := ⟨.hbm, 550, rfl⟩
abbrev main_v511 : Ref sig .tc := ⟨.hbm, 551, rfl⟩
abbrev main_v512 : Ref sig .tc := ⟨.hbm, 552, rfl⟩
abbrev main_v513 : Ref sig .tc := ⟨.hbm, 553, rfl⟩
abbrev main_v514 : Ref sig .tc := ⟨.hbm, 554, rfl⟩
abbrev main_v515 : Ref sig .tc := ⟨.hbm, 555, rfl⟩
abbrev main_v516 : Ref sig .tc := ⟨.hbm, 556, rfl⟩
abbrev main_v517 : Ref sig .tc := ⟨.hbm, 557, rfl⟩
abbrev main_c_32 : Ref sig .tc := ⟨.hbm, 558, rfl⟩
abbrev main_v518 : Ref sig .tc := ⟨.hbm, 559, rfl⟩
abbrev main_v519 : Ref sig .tc := ⟨.hbm, 560, rfl⟩
abbrev main_v520 : Ref sig .tc := ⟨.hbm, 561, rfl⟩
abbrev main_v521 : Ref sig .tc := ⟨.hbm, 562, rfl⟩
abbrev main_v522 : Ref sig .tc := ⟨.hbm, 563, rfl⟩
abbrev main_v523 : Ref sig .tc := ⟨.hbm, 564, rfl⟩
abbrev main_v524 : Ref sig .tc := ⟨.hbm, 565, rfl⟩
abbrev main_v525 : Ref sig .tc := ⟨.hbm, 566, rfl⟩
abbrev main_v526 : Ref sig .tc := ⟨.hbm, 567, rfl⟩
abbrev main_v527 : Ref sig .tc := ⟨.hbm, 568, rfl⟩
abbrev main_c_33 : Ref sig .tc := ⟨.hbm, 569, rfl⟩
abbrev main_v528 : Ref sig .tc := ⟨.hbm, 570, rfl⟩
abbrev main_v529 : Ref sig .tc := ⟨.hbm, 571, rfl⟩
abbrev main_v530 : Ref sig .tc := ⟨.hbm, 572, rfl⟩
abbrev main_v531 : Ref sig .tc := ⟨.hbm, 573, rfl⟩
abbrev main_v532 : Ref sig .tc := ⟨.hbm, 574, rfl⟩
abbrev main_v533 : Ref sig .tc := ⟨.hbm, 575, rfl⟩
abbrev main_v534 : Ref sig .tc := ⟨.hbm, 576, rfl⟩
abbrev main_v535 : Ref sig .tc := ⟨.hbm, 577, rfl⟩
abbrev main_v536 : Ref sig .tc := ⟨.hbm, 578, rfl⟩
abbrev main_v537 : Ref sig .tc := ⟨.hbm, 579, rfl⟩
abbrev main_c_34 : Ref sig .tc := ⟨.hbm, 580, rfl⟩
abbrev main_v538 : Ref sig .tc := ⟨.hbm, 581, rfl⟩
abbrev main_v539 : Ref sig .tc := ⟨.hbm, 582, rfl⟩
abbrev main_v540 : Ref sig .tc := ⟨.hbm, 583, rfl⟩
abbrev main_v541 : Ref sig .tc := ⟨.hbm, 584, rfl⟩
abbrev main_v542 : Ref sig .tc := ⟨.hbm, 585, rfl⟩
abbrev main_v543 : Ref sig .tc := ⟨.hbm, 586, rfl⟩
abbrev main_v544 : Ref sig .tc := ⟨.hbm, 587, rfl⟩
abbrev main_v545 : Ref sig .tc := ⟨.hbm, 588, rfl⟩
abbrev main_v546 : Ref sig .tc := ⟨.hbm, 589, rfl⟩
abbrev main_v547 : Ref sig .tc := ⟨.hbm, 590, rfl⟩
abbrev main_v548 : Ref sig .tc := ⟨.hbm, 591, rfl⟩
abbrev main_v549 : Ref sig .tc := ⟨.hbm, 592, rfl⟩
abbrev main_v550 : Ref sig .tc := ⟨.hbm, 593, rfl⟩
abbrev main_v551 : Ref sig .tc := ⟨.hbm, 594, rfl⟩
abbrev main_v552 : Ref sig .tc := ⟨.hbm, 595, rfl⟩
abbrev main_v553 : Ref sig .tc := ⟨.hbm, 596, rfl⟩
abbrev main_v554 : Ref sig .tc := ⟨.hbm, 597, rfl⟩
abbrev main_v555 : Ref sig .tc := ⟨.hbm, 598, rfl⟩
abbrev main_v556 : Ref sig .tc := ⟨.hbm, 599, rfl⟩
abbrev main_v557 : Ref sig .tc := ⟨.hbm, 600, rfl⟩
abbrev main_v558 : Ref sig .tc := ⟨.hbm, 601, rfl⟩
abbrev main_v559 : Ref sig .tc := ⟨.hbm, 602, rfl⟩
abbrev main_v560 : Ref sig .tc := ⟨.hbm, 603, rfl⟩

abbrev nD : Nat := 1
abbrev τ : Topo := Topo.v7x

variable {F : FTy → Type} [FloatOps F]

class Facts₀ : Prop where
  slices_S4096x7x256_S4096x1x256_0_0_0 : S4096x7x256.Slices ![0, 0, 0] S4096x1x256
  shapeCasts_S4096x1x256_S4096x256 : S4096x1x256.ShapeCasts S4096x256
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  slices_S4096x7x256_S4096x1x256_0_1_0 : S4096x7x256.Slices ![0, 1, 0] S4096x1x256
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S1 : S_.BroadcastsInDim S1 (![] : Fin 0 → Fin S1.rank)
  slices_S4096x7x256_S4096x1x256_0_3_0 : S4096x7x256.Slices ![0, 3, 0] S4096x1x256
  slices_S4096x7x256_S4096x1x256_0_4_0 : S4096x7x256.Slices ![0, 4, 0] S4096x1x256
  slices_S4096x7x256_S4096x1x256_0_2_0 : S4096x7x256.Slices ![0, 2, 0] S4096x1x256
  slices_S4096x7x256_S4096x1x256_0_5_0 : S4096x7x256.Slices ![0, 5, 0] S4096x1x256
  slices_S4096x7x256_S4096x1x256_0_6_0 : S4096x7x256.Slices ![0, 6, 0] S4096x1x256
  bcast_S4096x128_S1x4096x128_1_2 : S4096x128.BroadcastsInDim S1x4096x128 (![1, 2] : Fin 2 → Fin S1x4096x128.rank)
  concatenates_S1x4096x128_S1x4096x128_S1x4096x128_S1x4096x128_S1x4096x128_S1x4096x128_S1x4096x128_S1x4096x128_S1x4096x128_S1x4096x128_S1x4096x128_S1x4096x128_S1x4096x128_S13x4096x128_d0 : Shape.Concatenates [S1x4096x128, S1x4096x128, S1x4096x128, S1x4096x128, S1x4096x128, S1x4096x128, S1x4096x128, S1x4096x128, S1x4096x128, S1x4096x128, S1x4096x128, S1x4096x128, S1x4096x128] S13x4096x128 0
  dot_S4096x256_S256x128_S4096x128_1_0_0_1_n_n_wf : DotDims.WF S4096x256 S256x128 S4096x128 [1] [0] [0] [1] [] []
  dot_S4096x256_S256x256_S4096x256_1_0_0_1_n_n_wf : DotDims.WF S4096x256 S256x256 S4096x256 [1] [0] [0] [1] [] []
  scatter_S4096x7x256_S1_S4096x256_01_1_1_0_wf : ScatterDims.WF S4096x7x256 S1 S4096x256 [0, 1] [1] [1] 0

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S4096x7x256_S1_S4096x256_01_1_1_0 : ScatterDims S4096x7x256 S1 S4096x256 where
  updateWindowDims := [0, 1]
  insertedWindowDims := [1]
  scatterDimsToOperandDims := [1]
  indexVectorDim := 0
  wf := scatter_S4096x7x256_S1_S4096x256_01_1_1_0_wf

class Facts : Prop extends Facts₀ where

variable [Facts]
-- ==== Proof.Spec.lean ====
/-
  The walk over a fixed tree of seven nodes, one row of the batch at a time.

  A row of the batch carries seven node states, each a vector of 256 extended reals.  A linear layer takes a
  state h to the vector whose entry j is the sum over k of h k · W j k.  An edge (u, v) replaces node u's state
  by tanh (Wu·h_u + bu + (Wm·h_v + bm)) and then refines it twice by tanh (Wu·h + bu); after the edge, the class
  scores of node u are read out as Wc·h_u + bc.  The walk visits twelve edges in a fixed order, reading out the
  root first and then the updated node after every edge: thirteen score vectors per row.

  The message step is written in two arrangements of the same four summands; they agree because addition of
  extended reals is commutative and associative (no finiteness is needed).
-/
import Idealize.ShloMosaic.PureOps.Ideal
import Idealize.ShloMosaic.Lib.ValueIdx

noncomputable section

namespace Cert.Walk

open Idealize.ShloMosaic Idealize.ShloMosaic.ValueIdx

/-- The weights and biases, by coordinates. -/
structure Params where
  Wm : Fin 256 → Fin 256 → EReal
  bm : Fin 256 → EReal
  Wu : Fin 256 → Fin 256 → EReal
  bu : Fin 256 → EReal
  Wc : Fin 128 → Fin 256 → EReal
  bc : Fin 128 → EReal

/-- A node state. -/
abbrev St := Fin 256 → EReal

/-- A linear layer without its bias: entry j of W·h. -/
def lin {o : Nat} (W : Fin o → Fin 256 → EReal) (h : St) (j : Fin o) : EReal := ∑ k : Fin 256, h k * W j k

/-- The message step, each product with its own bias: tanh ((Wu·hu + bu) + (Wm·hv + bm)). -/
def msgR (P : Params) (hu hv : St) : St := fun j => Ideal.tanh ((lin P.Wu hu j + P.bu j) + (lin P.Wm hv j + P.bm j))

/-- The message step, the products first and the two biases folded: tanh ((Wu·hu + Wm·hv) + (bm + bu)). -/
def msgK (P : Params) (hu hv : St) : St := fun j => Ideal.tanh ((lin P.Wu hu j + lin P.Wm hv j) + (P.bm j + P.bu j))

/-- The two arrangements are one function: (a + c) + (d + b) = (a + b) + (c + d) in a commutative monoid. -/
theorem msgK_eq_msgR (P : Params) (hu hv : St) : msgK P hu hv = msgR P hu hv := by
  funext j
  unfold msgK msgR
  congr 1
  rw [add_comm (P.bm j) (P.bu j), add_add_add_comm]

/-- One refinement: tanh (Wu·h + bu). -/
def refine (P : Params) (h : St) : St := fun j => Ideal.tanh (lin P.Wu h j + P.bu j)

theorem refine_def (P : Params) (h : St) : refine P h = fun j => Ideal.tanh (lin P.Wu h j + P.bu j) := rfl

theorem msgK_def (P : Params) (hu hv : St) :
    msgK P hu hv = fun j => Ideal.tanh ((lin P.Wu hu j + lin P.Wm hv j) + (P.bm j + P.bu j)) := rfl

theorem msgR_def (P : Params) (hu hv : St) :
    msgR P hu hv = fun j => Ideal.tanh ((lin P.Wu hu j + P.bu j) + (lin P.Wm hv j + P.bm j)) := rfl

/-- The class scores of a state: Wc·h + bc. -/
def readout (P : Params) (h : St) : Fin 128 → EReal := fun c => lin P.Wc h c + P.bc c

theorem readout_def (P : Params) (h : St) : readout P h = fun c => lin P.Wc h c + P.bc c := rfl

/-- Node u's state after the edge (u, v): the message step, refined twice. -/
def edge (P : Params) (h : Fin 7 → St) (u v : Fin 7) : St := refine P (refine P (msgR P (h u) (h v)))

/-- The seven states after the edge (u, v). -/
def step (P : Params) (h : Fin 7 → St) (u v : Fin 7) : Fin 7 → St := Function.update h u (edge P h u v)

/-- The node updated by the n-th edge of the walk. -/
def eU : Nat → Fin 7
  | 0 => 0 | 1 => 1 | 2 => 3 | 3 => 1 | 4 => 4 | 5 => 1 | 6 => 0 | 7 => 2 | 8 => 5 | 9 => 2 | 10 => 6 | 11 => 2 | _ => 0

/-- The node the n-th edge's message comes from. -/
def eV : Nat → Fin 7
  | 0 => 1 | 1 => 3 | 2 => 1 | 3 => 4 | 4 => 1 | 5 => 0 | 6 => 2 | 7 => 5 | 8 => 2 | 9 => 6 | 10 => 2 | 11 => 0 | _ => 0

/-- The seven states after the first n edges. -/
def stateAt (P : Params) (x : Fin 7 → St) : Nat → (Fin 7 → St)
  | 0 => x
  | n + 1 => step P (stateAt P x n) (eU n) (eV n)

/-- The n-th score vector of a row: the root's before any edge, then the updated node's after each edge. -/
def out (P : Params) (x : Fin 7 → St) : Nat → Fin 128 → EReal
  | 0 => readout P (x 0)
  | n + 1 => readout P (stateAt P x (n + 1) (eU n))

/-! ### The same walk with the message step in its other arrangement -/

/-- Node u's state after the edge (u, v), the message step with the biases folded. -/
def edgeK (P : Params) (h : Fin 7 → St) (u v : Fin 7) : St := refine P (refine P (msgK P (h u) (h v)))

def stepK (P : Params) (h : Fin 7 → St) (u v : Fin 7) : Fin 7 → St := Function.update h u (edgeK P h u v)

def stateAtK (P : Params) (x : Fin 7 → St) : Nat → (Fin 7 → St)
  | 0 => x
  | n + 1 => stepK P (stateAtK P x n) (eU n) (eV n)

def outK (P : Params) (x : Fin 7 → St) : Nat → Fin 128 → EReal
  | 0 => readout P (x 0)
  | n + 1 => readout P (stateAtK P x (n + 1) (eU n))

theorem edgeK_eq_edge (P : Params) (h : Fin 7 → St) (u v : Fin 7) : edgeK P h u v = edge P h u v := by
  unfold edgeK edge; rw [msgK_eq_msgR]

theorem stateAtK_eq_stateAt (P : Params) (x : Fin 7 → St) : ∀ n, stateAtK P x n = stateAt P x n
  | 0 => rfl
  | n + 1 => by
    show stepK P (stateAtK P x n) (eU n) (eV n) = step P (stateAt P x n) (eU n) (eV n)
    rw [stateAtK_eq_stateAt P x n]; unfold stepK step; rw [edgeK_eq_edge]

/-- Both arrangements give the same thirteen score vectors. -/
theorem outK_eq_out (P : Params) (x : Fin 7 → St) : ∀ n, outK P x n = out P x n
  | 0 => rfl
  | n + 1 => by
    show readout P (stateAtK P x (n + 1) (eU n)) = readout P (stateAt P x (n + 1) (eU n))
    rw [stateAtK_eq_stateAt]

/-- The parameters read off the six weight and bias arrays. -/
def paramsOf (wm : (⟨2, ![256, 256]⟩ : Shape).Idx → EReal) (bm : (⟨1, ![256]⟩ : Shape).Idx → EReal)
    (wu : (⟨2, ![256, 256]⟩ : Shape).Idx → EReal) (bu : (⟨1, ![256]⟩ : Shape).Idx → EReal)
    (wc : (⟨2, ![128, 256]⟩ : Shape).Idx → EReal) (bc : (⟨1, ![128]⟩ : Shape).Idx → EReal) : Params where
  Wm := fun j k => wm (ix2 j k)
  bm := fun j => bm (ix1 j)
  Wu := fun j k => wu (ix2 j k)
  bu := fun j => bu (ix1 j)
  Wc := fun c k => wc (ix2 c k)
  bc := fun c => bc (ix1 c)

/-- Row b of the batch: its seven node states. -/
def rowOf (x : (⟨3, ![4096, 7, 256]⟩ : Shape).Idx → EReal) (b : Fin 4096) : Fin 7 → St := fun n k => x (ix3 b n k)

/-- THE RESULT ARRAY as one function of the seven argument arrays: entry (e, b, c) is score c of the e-th readout
    of row b. -/
def G (x : (⟨3, ![4096, 7, 256]⟩ : Shape).Idx → EReal) (wm : (⟨2, ![256, 256]⟩ : Shape).Idx → EReal)
    (bm : (⟨1, ![256]⟩ : Shape).Idx → EReal) (wu : (⟨2, ![256, 256]⟩ : Shape).Idx → EReal)
    (bu : (⟨1, ![256]⟩ : Shape).Idx → EReal) (wc : (⟨2, ![128, 256]⟩ : Shape).Idx → EReal)
    (bc : (⟨1, ![128]⟩ : Shape).Idx → EReal) : (⟨3, ![13, 4096, 128]⟩ : Shape).Idx → EReal :=
  fun i => out (paramsOf wm bm wu bu wc bc) (rowOf x (i 1)) (i 0).val (i 2)

end Cert.Walk

end
-- ==== Proof.LibDotRows.lean ====
/-
  One-axis contractions of two matrices read at an entry, at the ideal values.

  A product of an [M, K] matrix with an [N, K] matrix contracted along the second axis of both, and a
  product of an [M, K] matrix with a [K, N] matrix contracted along axis 1 of the left and axis 0 of the
  right, are at entry (r, j) the sum over k of the left operand at (r, k) times the right operand's
  entry that pairs row/column j with k.  The dimension numbers are abstract: only what they contract,
  keep and batch is assumed.
-/
import Idealize.ShloMosaic.Lib.ValueIdx
import Idealize.ShloMosaic.PureOps.Ideal.Laws

noncomputable section

namespace Cert.Lib.DotRows

open Idealize.ShloMosaic Idealize.ShloMosaic.ValueIdx

variable {sl sr so : Shape}

/-- With no batch axis and one kept left axis, that axis of the left index is the result's axis 0. -/
theorem lhsIdx_val_kept (d : DotDims sl sr so) {a : Fin sl.rank} (hb : d.lhsBatch = [])
    (hn : d.lhsNonContracting = [a]) (h0 : 0 < so.rank) (j : so.Idx) (k : d.contr.Idx) :
    (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one kept left axis and one kept right axis, the kept axis of the right index is
    the result's axis 1. -/
theorem rhsIdx_val_kept (d : DotDims sl sr so) {a : Fin sr.rank} (hb : d.rhsBatch = []) (hlb : d.lhsBatch = [])
    {a' : Fin sl.rank} (hln : d.lhsNonContracting = [a'])
    (hn : d.rhsNonContracting = [a]) (h1 : 1 < so.rank) (j : so.Idx) (k : d.contr.Idx) :
    (d.rhsIdx j k a).val = (j ⟨1, h1⟩).val := by
  have hnb : a ∉ d.rhsBatch := by rw [hb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- The contraction shape of a one-axis contraction along left axis `c` has that axis's extent. -/
theorem contr_rank_one (d : DotDims sl sr so) {c : Fin sl.rank} (hc : d.lhsContracting = [c]) : d.contr.rank = 1 := by
  rw [d.rank_contr, hc]; rfl

theorem contr_size_one (d : DotDims sl sr so) {c : Fin sl.rank} (hc : d.lhsContracting = [c]) :
    d.contr.size ⟨0, by rw [contr_rank_one d hc]; exact Nat.one_pos⟩ = sl.size c := by
  have h := d.size_contr 0 (by rw [hc]; exact Nat.one_pos)
  simpa [hc] using h

variable {M K N : Nat}

/-- [M, K] against [N, K], both contracted along axis 1: entry (r, j) sums A(r, k) · W(j, k) over k. -/
theorem sum_contr_11 (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (hlc : d.lhsContracting = [1]) (hrc : d.rhsContracting = [1])
    (A : (⟨2, ![M, K]⟩ : Shape).Idx → EReal) (W : (⟨2, ![N, K]⟩ : Shape).Idx → EReal) (r : Fin M) (j : Fin N) :
    ∑ k : d.contr.Idx, A (d.lhsIdx (ix2 r j) k) * W (d.rhsIdx (ix2 r j) k) = ∑ k : Fin K, A (ix2 r k) * W (ix2 j k) := by
  have hr := contr_rank_one d hlc
  have hs : d.contr.size ⟨0, by omega⟩ = K := contr_size_one d hlc
  rw [← Equiv.sum_comp (contrEquiv1 d K hr hs).symm]
  refine Finset.sum_congr rfl fun k _ => ?_
  have e1 : d.lhsIdx (ix2 r j) ((contrEquiv1 d K hr hs).symm k) = ix2 r k := by
    funext a; apply Fin.ext
    match a with
    | ⟨0, _⟩ => exact lhsIdx_val_kept d hlb hln Nat.zero_lt_two _ _
    | ⟨1, _⟩ => exact (d.lhsIdx_val_of_single hlc _ _).trans (contrEquiv1_symm_val d K hr hs k)
  have e2 : d.rhsIdx (ix2 r j) ((contrEquiv1 d K hr hs).symm k) = ix2 j k := by
    funext a; apply Fin.ext
    match a with
    | ⟨0, _⟩ => exact rhsIdx_val_kept d hrb hlb hln hrn Nat.one_lt_two _ _
    | ⟨1, _⟩ => exact (d.rhsIdx_val_of_single hrc _ _).trans (contrEquiv1_symm_val d K hr hs k)
  rw [e1, e2]

/-- [M, K] against [K, N], contracted along axis 1 of the left and axis 0 of the right: entry (r, j) sums
    A(r, k) · W(k, j) over k. -/
theorem sum_contr_10 (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (hlc : d.lhsContracting = [1]) (hrc : d.rhsContracting = [0])
    (A : (⟨2, ![M, K]⟩ : Shape).Idx → EReal) (W : (⟨2, ![K, N]⟩ : Shape).Idx → EReal) (r : Fin M) (j : Fin N) :
    ∑ k : d.contr.Idx, A (d.lhsIdx (ix2 r j) k) * W (d.rhsIdx (ix2 r j) k) = ∑ k : Fin K, A (ix2 r k) * W (ix2 k j) := by
  have hr := contr_rank_one d hlc
  have hs : d.contr.size ⟨0, by omega⟩ = K := contr_size_one d hlc
  rw [← Equiv.sum_comp (contrEquiv1 d K hr hs).symm]
  refine Finset.sum_congr rfl fun k _ => ?_
  have e1 : d.lhsIdx (ix2 r j) ((contrEquiv1 d K hr hs).symm k) = ix2 r k := by
    funext a; apply Fin.ext
    match a with
    | ⟨0, _⟩ => exact lhsIdx_val_kept d hlb hln Nat.zero_lt_two _ _
    | ⟨1, _⟩ => exact (d.lhsIdx_val_of_single hlc _ _).trans (contrEquiv1_symm_val d K hr hs k)
  have e2 : d.rhsIdx (ix2 r j) ((contrEquiv1 d K hr hs).symm k) = ix2 k j := by
    funext a; apply Fin.ext
    match a with
    | ⟨0, _⟩ => exact (d.rhsIdx_val_of_single hrc _ _).trans (contrEquiv1_symm_val d K hr hs k)
    | ⟨1, _⟩ => exact rhsIdx_val_kept d hrb hlb hln hrn Nat.one_lt_two _ _
  rw [e1, e2]

/-- A `tpu.matmul` into the zero splat, both operands contracted along axis 1, at entry (r, j). -/
theorem matmul_11_apply (d : DotDims ⟨2, ![M, K]⟩ ⟨2, ![N, K]⟩ ⟨2, ![M, N]⟩) (prec : Option ContractPrecision)
    (hlb : d.lhsBatch = []) (hrb : d.rhsBatch = []) (hln : d.lhsNonContracting = [0]) (hrn : d.rhsNonContracting = [0])
    (hlc : d.lhsContracting = [1]) (hrc : d.rhsContracting = [1])
    (A : FVec Ideal ⟨2, ![M, K]⟩ .f32) (W : FVec Ideal ⟨2, ![N, K]⟩ .f32) (r : Fin M) (j : Fin N) :
    matmul d prec A W (constant ⟨2, ![M, N]⟩ .f32 0x00000000#32) (ix2 r j) = ∑ k : Fin K, A (ix2 r k) * W (ix2 j k) := by
  simp only [matmul]
  rw [Ideal.matmul_constant_zero_apply]
  exact sum_contr_11 d hlb hrb hln hrn hlc hrc A W r j

/-- The host's `dot_general` of an [M, K] matrix with the transpose of an [N, K] matrix, at entry (r, j):
    the same sum as the product contracted along axis 1 of both. -/
theorem dotGeneral_10_apply (d : DotDims ⟨2, ![M, K]⟩ ⟨2, ![K, N]⟩ ⟨2, ![M, N]⟩) (prec : Option ContractPrecision)
    (hlb : d.lhsBatch = []) (hrb : d.rhsBatch = []) (hln : d.lhsNonContracting = [0]) (hrn : d.rhsNonContracting = [1])
    (hlc : d.lhsContracting = [1]) (hrc : d.rhsContracting = [0])
    (A : FVec Ideal ⟨2, ![M, K]⟩ .f32) (W : FVec Ideal ⟨2, ![K, N]⟩ .f32) (r : Fin M) (j : Fin N) :
    Host.dotGeneral d prec A W (ix2 r j) = ∑ k : Fin K, A (ix2 r k) * W (ix2 k j) := by
  simp only [Host.dotGeneral]
  rw [Ideal.dotGeneral_apply]
  exact sum_contr_10 d hlb hrb hln hrn hlc hrc A W r j

end Cert.Lib.DotRows

end
-- ==== Proof.KernelRows.lean ====
/-
  The kernel body's operations read at one row of a block.

  The body works on blocks of 512 batch rows.  A product of a [512, 256] block with a weight matrix contracted
  along the feature axis of both is, at row r, the linear layer applied to row r of the block; a bias row
  broadcast down the block, the sum of two blocks and tanh act on each row by itself; a load of node n's half
  of the staged [7, 1024, 256] block is row (512 s + r) of node n.  With these, every value the body stores is
  read at a row as a term over the seven node states of that row.
-/
import proofs.«110702_g33526514713098_cont_8to1_b_1745_32_alg».proof.Proof.Gen.KernelIdeal.Frame
import proofs.«110702_g33526514713098_cont_8to1_b_1745_32_alg».proof.Proof.Spec
import proofs.«110702_g33526514713098_cont_8to1_b_1745_32_alg».proof.Proof.LibDotRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Rows

open Cert.KernelIdeal Cert.KernelIdeal.Gen Idealize.ShloMosaic Idealize.ShloMosaic.ValueIdx Cert.Walk

/-- The weights and biases as the body loads them: the biases are one-row matrices. -/
def blkParams (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) : Params where
  Wm := fun j k => x1 (ix2 j k)
  bm := fun j => x4 (ix2 (0 : Fin 1) j)
  Wu := fun j k => x2 (ix2 j k)
  bu := fun j => x5 (ix2 (0 : Fin 1) j)
  Wc := fun c k => x3 (ix2 c k)
  bc := fun c => x6 (ix2 (0 : Fin 1) c)

/-- The seven node states of row r of half s of a staged block. -/
def blkRow (x0 : Vec Ideal S7x1024x256 .f32) (s : Fin 2) (r : Fin 512) : Fin 7 → St :=
  fun n k => x0 (ix3 n ⟨512 * s.val + r.val, by have := s.isLt; have := r.isLt; omega⟩ k)

/-- The update product, at row r. -/
theorem mm256_apply (A : FVec Ideal S512x256 .f32) (W : FVec Ideal S256x256 .f32) (r : Fin 512) (j : Fin 256) :
    matmul dot_S512x256_S256x256_S512x256_1_1_0_0_n_n none A W (constant S512x256 .f32 0x00000000#32) (ix2 r j)
      = lin (fun j k => W (ix2 j k)) (fun k => A (ix2 r k)) j :=
  Cert.Lib.DotRows.matmul_11_apply _ none rfl rfl rfl rfl rfl rfl A W r j

/-- The readout product, at row r. -/
theorem mm128_apply (A : FVec Ideal S512x256 .f32) (W : FVec Ideal S128x256 .f32) (r : Fin 512) (j : Fin 128) :
    matmul dot_S512x256_S128x256_S512x128_1_1_0_0_n_n none A W (constant S512x128 .f32 0x00000000#32) (ix2 r j)
      = lin (fun j k => W (ix2 j k)) (fun k => A (ix2 r k)) j :=
  Cert.Lib.DotRows.matmul_11_apply _ none rfl rfl rfl rfl rfl rfl A W r j

theorem tanh_apply {s : Shape} (x : FVec Ideal s .f32) (i : s.Idx) : tanh x i = Ideal.tanh (x i) := rfl

theorem hz2 : (![0, 0] : Fin 2 → Nat) = fun _ => 0 := funext fun a => by fin_cases a <;> rfl

theorem ld_w256 (x : Vec Ideal S256x256 .f32) : View.ld x r0_0 = x := View.ld_unit_zero (S := S256x256) hz2 _ x
theorem ld_w128 (x : Vec Ideal S128x256 .f32) : View.ld x r0_1 = x := View.ld_unit_zero (S := S128x256) hz2 _ x
theorem ld_b256 (x : Vec Ideal S1x256 .f32) : View.ld x r0_2 = x := View.ld_unit_zero (S := S1x256) hz2 _ x
theorem ld_b128 (x : Vec Ideal S1x128 .f32) : View.ld x r0_3 = x := View.ld_unit_zero (S := S1x128) hz2 _ x

/-! ### The fourteen loads of a node's half block, at row r -/

theorem ld_r0_4 (x0 : Vec Ideal S7x1024x256 .f32) (r : Fin 512) (k : Fin 256) :
    View.ld x0 r0_4 (ix3 (0 : Fin 1) r k) = blkRow x0 0 r 0 k := by
  show x0 _ = x0 _
  congr 1; funext a; apply Fin.ext
  match a with
  | ⟨0, _⟩ => rfl
  | ⟨1, _⟩ => show 0 + 1 * r.val = 512 * 0 + r.val; omega
  | ⟨2, _⟩ => show 0 + 1 * k.val = k.val; omega

theorem ld_r0_5 (x0 : Vec Ideal S7x1024x256 .f32) (r : Fin 512) (k : Fin 256) :
    View.ld x0 r0_5 (ix3 (0 : Fin 1) r k) = blkRow x0 0 r 1 k := by
  show x0 _ = x0 _
  congr 1; funext a; apply Fin.ext
  match a with
  | ⟨0, _⟩ => rfl
  | ⟨1, _⟩ => show 0 + 1 * r.val = 512 * 0 + r.val; omega
  | ⟨2, _⟩ => show 0 + 1 * k.val = k.val; omega

theorem ld_r0_6 (x0 : Vec Ideal S7x1024x256 .f32) (r : Fin 512) (k : Fin 256) :
    View.ld x0 r0_6 (ix3 (0 : Fin 1) r k) = blkRow x0 0 r 2 k := by
  show x0 _ = x0 _
  congr 1; funext a; apply Fin.ext
  match a with
  | ⟨0, _⟩ => rfl
  | ⟨1, _⟩ => show 0 + 1 * r.val = 512 * 0 + r.val; omega
  | ⟨2, _⟩ => show 0 + 1 * k.val = k.val; omega

theorem ld_r0_7 (x0 : Vec Ideal S7x1024x256 .f32) (r : Fin 512) (k : Fin 256) :
    View.ld x0 r0_7 (ix3 (0 : Fin 1) r k) = blkRow x0 0 r 3 k := by
  show x0 _ = x0 _
  congr 1; funext a; apply Fin.ext
  match a with
  | ⟨0, _⟩ => rfl
  | ⟨1, _⟩ => show 0 + 1 * r.val = 512 * 0 + r.val; omega
  | ⟨2, _⟩ => show 0 + 1 * k.val = k.val; omega

theorem ld_r0_8 (x0 : Vec Ideal S7x1024x256 .f32) (r : Fin 512) (k : Fin 256) :
    View.ld x0 r0_8 (ix3 (0 : Fin 1) r k) = blkRow x0 0 r 4 k := by
  show x0 _ = x0 _
  congr 1; funext a; apply Fin.ext
  match a with
  | ⟨0, _⟩ => rfl
  | ⟨1, _⟩ => show 0 + 1 * r.val = 512 * 0 + r.val; omega
  | ⟨2, _⟩ => show 0 + 1 * k.val = k.val; omega

theorem ld_r0_9 (x0 : Vec Ideal S7x1024x256 .f32) (r : Fin 512) (k : Fin 256) :
    View.ld x0 r0_9 (ix3 (0 : Fin 1) r k) = blkRow x0 0 r 5 k := by
  show x0 _ = x0 _
  congr 1; funext a; apply Fin.ext
  match a with
  | ⟨0, _⟩ => rfl
  | ⟨1, _⟩ => show 0 + 1 * r.val = 512 * 0 + r.val; omega
  | ⟨2, _⟩ => show 0 + 1 * k.val = k.val; omega

theorem ld_r0_10 (x0 : Vec Ideal S7x1024x256 .f32) (r : Fin 512) (k : Fin 256) :
    View.ld x0 r0_10 (ix3 (0 : Fin 1) r k) = blkRow x0 0 r 6 k := by
  show x0 _ = x0 _
  congr 1; funext a; apply Fin.ext
  match a with
  | ⟨0, _⟩ => rfl
  | ⟨1, _⟩ => show 0 + 1 * r.val = 512 * 0 + r.val; omega
  | ⟨2, _⟩ => show 0 + 1 * k.val = k.val; omega

theorem ld_r0_11 (x0 : Vec Ideal S7x1024x256 .f32) (r : Fin 512) (k : Fin 256) :
    View.ld x0 r0_11 (ix3 (0 : Fin 1) r k) = blkRow x0 1 r 0 k := by
  show x0 _ = x0 _
  congr 1; funext a; apply Fin.ext
  match a with
  | ⟨0, _⟩ => rfl
  | ⟨1, _⟩ => show 512 + 1 * r.val = 512 * 1 + r.val; omega
  | ⟨2, _⟩ => show 0 + 1 * k.val = k.val; omega

theorem ld_r0_12 (x0 : Vec Ideal S7x1024x256 .f32) (r : Fin 512) (k : Fin 256) :
    View.ld x0 r0_12 (ix3 (0 : Fin 1) r k) = blkRow x0 1 r 1 k := by
  show x0 _ = x0 _
  congr 1; funext a; apply Fin.ext
  match a with
  | ⟨0, _⟩ => rfl
  | ⟨1, _⟩ => show 512 + 1 * r.val = 512 * 1 + r.val; omega
  | ⟨2, _⟩ => show 0 + 1 * k.val = k.val; omega

theorem ld_r0_13 (x0 : Vec Ideal S7x1024x256 .f32) (r : Fin 512) (k : Fin 256) :
    View.ld x0 r0_13 (ix3 (0 : Fin 1) r k) = blkRow x0 1 r 2 k := by
  show x0 _ = x0 _
  congr 1; funext a; apply Fin.ext
  match a with
  | ⟨0, _⟩ => rfl
  | ⟨1, _⟩ => show 512 + 1 * r.val = 512 * 1 + r.val; omega
  | ⟨2, _⟩ => show 0 + 1 * k.val = k.val; omega

theorem ld_r0_14 (x0 : Vec Ideal S7x1024x256 .f32) (r : Fin 512) (k : Fin 256) :
    View.ld x0 r0_14 (ix3 (0 : Fin 1) r k) = blkRow x0 1 r 3 k := by
  show x0 _ = x0 _
  congr 1; funext a; apply Fin.ext
  match a with
  | ⟨0, _⟩ => rfl
  | ⟨1, _⟩ => show 512 + 1 * r.val = 512 * 1 + r.val; omega
  | ⟨2, _⟩ => show 0 + 1 * k.val = k.val; omega

theorem ld_r0_15 (x0 : Vec Ideal S7x1024x256 .f32) (r : Fin 512) (k : Fin 256) :
    View.ld x0 r0_15 (ix3 (0 : Fin 1) r k) = blkRow x0 1 r 4 k := by
  show x0 _ = x0 _
  congr 1; funext a; apply Fin.ext
  match a with
  | ⟨0, _⟩ => rfl
  | ⟨1, _⟩ => show 512 + 1 * r.val = 512 * 1 + r.val; omega
  | ⟨2, _⟩ => show 0 + 1 * k.val = k.val; omega

theorem ld_r0_16 (x0 : Vec Ideal S7x1024x256 .f32) (r : Fin 512) (k : Fin 256) :
    View.ld x0 r0_16 (ix3 (0 : Fin 1) r k) = blkRow x0 1 r 5 k := by
  show x0 _ = x0 _
  congr 1; funext a; apply Fin.ext
  match a with
  | ⟨0, _⟩ => rfl
  | ⟨1, _⟩ => show 512 + 1 * r.val = 512 * 1 + r.val; omega
  | ⟨2, _⟩ => show 0 + 1 * k.val = k.val; omega

theorem ld_r0_17 (x0 : Vec Ideal S7x1024x256 .f32) (r : Fin 512) (k : Fin 256) :
    View.ld x0 r0_17 (ix3 (0 : Fin 1) r k) = blkRow x0 1 r 6 k := by
  show x0 _ = x0 _
  congr 1; funext a; apply Fin.ext
  match a with
  | ⟨0, _⟩ => rfl
  | ⟨1, _⟩ => show 512 + 1 * r.val = 512 * 1 + r.val; omega
  | ⟨2, _⟩ => show 0 + 1 * k.val = k.val; omega

/-! ### The same loads once the unit axis is dropped: node n's half block as a [512, 256] matrix, at row r -/

theorem pay6_row (x0 : Vec Ideal S7x1024x256 .f32) (r : Fin 512) (k : Fin 256) :
    k0_pay6 (View.ld x0 r0_4) (ix2 r k) = blkRow x0 0 r 0 k := by
  show shapeCast S512x256 (View.ld x0 r0_4) _ (ix2 r k) = _
  rw [shapeCast_1ab_ab_apply]
  exact ld_r0_4 x0 r k

theorem pay7_row (x0 : Vec Ideal S7x1024x256 .f32) (r : Fin 512) (k : Fin 256) :
    k0_pay7 (View.ld x0 r0_5) (ix2 r k) = blkRow x0 0 r 1 k := by
  show shapeCast S512x256 (View.ld x0 r0_5) _ (ix2 r k) = _
  rw [shapeCast_1ab_ab_apply]
  exact ld_r0_5 x0 r k

theorem pay8_row (x0 : Vec Ideal S7x1024x256 .f32) (r : Fin 512) (k : Fin 256) :
    k0_pay8 (View.ld x0 r0_6) (ix2 r k) = blkRow x0 0 r 2 k := by
  show shapeCast S512x256 (View.ld x0 r0_6) _ (ix2 r k) = _
  rw [shapeCast_1ab_ab_apply]
  exact ld_r0_6 x0 r k

theorem pay9_row (x0 : Vec Ideal S7x1024x256 .f32) (r : Fin 512) (k : Fin 256) :
    k0_pay9 (View.ld x0 r0_7) (ix2 r k) = blkRow x0 0 r 3 k := by
  show shapeCast S512x256 (View.ld x0 r0_7) _ (ix2 r k) = _
  rw [shapeCast_1ab_ab_apply]
  exact ld_r0_7 x0 r k

theorem pay10_row (x0 : Vec Ideal S7x1024x256 .f32) (r : Fin 512) (k : Fin 256) :
    k0_pay10 (View.ld x0 r0_8) (ix2 r k) = blkRow x0 0 r 4 k := by
  show shapeCast S512x256 (View.ld x0 r0_8) _ (ix2 r k) = _
  rw [shapeCast_1ab_ab_apply]
  exact ld_r0_8 x0 r k

theorem pay11_row (x0 : Vec Ideal S7x1024x256 .f32) (r : Fin 512) (k : Fin 256) :
    k0_pay11 (View.ld x0 r0_9) (ix2 r k) = blkRow x0 0 r 5 k := by
  show shapeCast S512x256 (View.ld x0 r0_9) _ (ix2 r k) = _
  rw [shapeCast_1ab_ab_apply]
  exact ld_r0_9 x0 r k

theorem pay12_row (x0 : Vec Ideal S7x1024x256 .f32) (r : Fin 512) (k : Fin 256) :
    k0_pay12 (View.ld x0 r0_10) (ix2 r k) = blkRow x0 0 r 6 k := by
  show shapeCast S512x256 (View.ld x0 r0_10) _ (ix2 r k) = _
  rw [shapeCast_1ab_ab_apply]
  exact ld_r0_10 x0 r k

theorem pay13_row (x0 : Vec Ideal S7x1024x256 .f32) (r : Fin 512) (k : Fin 256) :
    k0_pay13 (View.ld x0 r0_11) (ix2 r k) = blkRow x0 1 r 0 k := by
  show shapeCast S512x256 (View.ld x0 r0_11) _ (ix2 r k) = _
  rw [shapeCast_1ab_ab_apply]
  exact ld_r0_11 x0 r k

theorem pay14_row (x0 : Vec Ideal S7x1024x256 .f32) (r : Fin 512) (k : Fin 256) :
    k0_pay14 (View.ld x0 r0_12) (ix2 r k) = blkRow x0 1 r 1 k := by
  show shapeCast S512x256 (View.ld x0 r0_12) _ (ix2 r k) = _
  rw [shapeCast_1ab_ab_apply]
  exact ld_r0_12 x0 r k

theorem pay15_row (x0 : Vec Ideal S7x1024x256 .f32) (r : Fin 512) (k : Fin 256) :
    k0_pay15 (View.ld x0 r0_13) (ix2 r k) = blkRow x0 1 r 2 k := by
  show shapeCast S512x256 (View.ld x0 r0_13) _ (ix2 r k) = _
  rw [shapeCast_1ab_ab_apply]
  exact ld_r0_13 x0 r k

theorem pay16_row (x0 : Vec Ideal S7x1024x256 .f32) (r : Fin 512) (k : Fin 256) :
    k0_pay16 (View.ld x0 r0_14) (ix2 r k) = blkRow x0 1 r 3 k := by
  show shapeCast S512x256 (View.ld x0 r0_14) _ (ix2 r k) = _
  rw [shapeCast_1ab_ab_apply]
  exact ld_r0_14 x0 r k

theorem pay17_row (x0 : Vec Ideal S7x1024x256 .f32) (r : Fin 512) (k : Fin 256) :
    k0_pay17 (View.ld x0 r0_15) (ix2 r k) = blkRow x0 1 r 4 k := by
  show shapeCast S512x256 (View.ld x0 r0_15) _ (ix2 r k) = _
  rw [shapeCast_1ab_ab_apply]
  exact ld_r0_15 x0 r k

theorem pay18_row (x0 : Vec Ideal S7x1024x256 .f32) (r : Fin 512) (k : Fin 256) :
    k0_pay18 (View.ld x0 r0_16) (ix2 r k) = blkRow x0 1 r 5 k := by
  show shapeCast S512x256 (View.ld x0 r0_16) _ (ix2 r k) = _
  rw [shapeCast_1ab_ab_apply]
  exact ld_r0_16 x0 r k

theorem pay19_row (x0 : Vec Ideal S7x1024x256 .f32) (r : Fin 512) (k : Fin 256) :
    k0_pay19 (View.ld x0 r0_17) (ix2 r k) = blkRow x0 1 r 6 k := by
  show shapeCast S512x256 (View.ld x0 r0_17) _ (ix2 r k) = _
  rw [shapeCast_1ab_ab_apply]
  exact ld_r0_17 x0 r k

end Cert.KernelIdeal.Rows

end
-- ==== Proof.KernelPieces.lean ====
/-
  Every value the body stores, read at a row, is a readout of the walk over that row's seven node states.

  The body stores 26 pieces: for each of the thirteen readouts, the two halves (rows 0–511 and 512–1023) of the
  block.  Each piece's value is a composition of the body's products, bias additions and tanh's over the loaded
  half blocks; read at row r it unfolds to the walk's readout over the node states of that row, with the message
  step in the arrangement that adds the two products first and the two biases folded.  All pieces are therefore
  restrictions of one function of the staged blocks, which the buffer holds after the body.
-/
import proofs.«110702_g33526514713098_cont_8to1_b_1745_32_alg».proof.Proof.KernelRows

set_option maxRecDepth 16384

noncomputable section

namespace Cert.KernelIdeal.Pieces

open Cert.KernelIdeal Cert.KernelIdeal.Gen Cert.KernelIdeal.Rows Idealize.ShloMosaic Idealize.ShloMosaic.ValueIdx Cert.Walk

/-- Readout 12, half 1 of the block: the updated node's scores after edge 12, at row r. -/
theorem piece_43 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay2 (View.ld x2 r0_0) (View.ld x3 r0_1) (k0_pay3 (View.ld x5 r0_2)) (k0_pay5 (View.ld x6 r0_3)) (k0_pay77 (View.ld x1 r0_0) (View.ld x2 r0_0) (k0_pay3 (View.ld x5 r0_2)) (k0_pay4 (View.ld x5 r0_2) (View.ld x4 r0_2)) (k0_pay52 (View.ld x2 r0_0) (k0_pay3 (View.ld x5 r0_2)) (k0_pay50 (View.ld x1 r0_0) (View.ld x2 r0_0) (k0_pay4 (View.ld x5 r0_2) (View.ld x4 r0_2)) (k0_pay15 (View.ld x0 r0_13)) (k0_pay24 (View.ld x1 r0_0) (View.ld x2 r0_0) (k0_pay3 (View.ld x5 r0_2)) (k0_pay4 (View.ld x5 r0_2) (View.ld x4 r0_2)) (k0_pay13 (View.ld x0 r0_11)) (k0_pay14 (View.ld x0 r0_12))))) (k0_pay69 (View.ld x2 r0_0) (k0_pay3 (View.ld x5 r0_2)) (k0_pay67 (View.ld x1 r0_0) (View.ld x2 r0_0) (k0_pay4 (View.ld x5 r0_2) (View.ld x4 r0_2)) (k0_pay19 (View.ld x0 r0_17)) (k0_pay59 (View.ld x2 r0_0) (k0_pay3 (View.ld x5 r0_2)) (k0_pay55 (View.ld x1 r0_0) (View.ld x2 r0_0) (k0_pay4 (View.ld x5 r0_2) (View.ld x4 r0_2)) (k0_pay15 (View.ld x0 r0_13)) (k0_pay18 (View.ld x0 r0_16)))))))) (ix3 (0 : Fin 1) r c)
      = outK (blkParams x1 x2 x3 x4 x5 x6) (blkRow x0 1 r) 12 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 12, half 0 of the block: the updated node's scores after edge 12, at row r. -/
theorem piece_42 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay1 (View.ld x2 r0_0) (View.ld x3 r0_1) (k0_pay3 (View.ld x5 r0_2)) (k0_pay5 (View.ld x6 r0_3)) (k0_pay76 (View.ld x1 r0_0) (View.ld x2 r0_0) (k0_pay3 (View.ld x5 r0_2)) (k0_pay4 (View.ld x5 r0_2) (View.ld x4 r0_2)) (k0_pay51 (View.ld x2 r0_0) (k0_pay3 (View.ld x5 r0_2)) (k0_pay49 (View.ld x1 r0_0) (View.ld x2 r0_0) (k0_pay4 (View.ld x5 r0_2) (View.ld x4 r0_2)) (k0_pay8 (View.ld x0 r0_6)) (k0_pay23 (View.ld x2 r0_0) (k0_pay3 (View.ld x5 r0_2)) (k0_pay4 (View.ld x5 r0_2) (View.ld x4 r0_2)) (k0_pay22 (View.ld x1 r0_0) (View.ld x2 r0_0) (k0_pay6 (View.ld x0 r0_4)) (k0_pay7 (View.ld x0 r0_5))))) (constant S512x256 .f32 0x00000000#32)) (k0_pay68 (View.ld x2 r0_0) (k0_pay3 (View.ld x5 r0_2)) (k0_pay66 (View.ld x1 r0_0) (View.ld x2 r0_0) (k0_pay3 (View.ld x5 r0_2)) (k0_pay4 (View.ld x5 r0_2) (View.ld x4 r0_2)) (k0_pay12 (View.ld x0 r0_10)) (k0_pay58 (View.ld x2 r0_0) (k0_pay3 (View.ld x5 r0_2)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2))))))) (constant S512x256 .f32 0x00000000#32)) (ix3 (0 : Fin 1) r c)
      = outK (blkParams x1 x2 x3 x4 x5 x6) (blkRow x0 0 r) 12 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 11, half 1 of the block: the updated node's scores after edge 11, at row r. -/
theorem piece_41 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay75 (View.ld x2 r0_0) (View.ld x3 r0_1) (k0_pay3 (View.ld x5 r0_2)) (k0_pay5 (View.ld x6 r0_3)) (k0_pay73 (View.ld x1 r0_0) (View.ld x2 r0_0) (k0_pay3 (View.ld x5 r0_2)) (k0_pay4 (View.ld x5 r0_2) (View.ld x4 r0_2)) (k0_pay19 (View.ld x0 r0_17)) (k0_pay67 (View.ld x1 r0_0) (View.ld x2 r0_0) (k0_pay4 (View.ld x5 r0_2) (View.ld x4 r0_2)) (k0_pay19 (View.ld x0 r0_17)) (k0_pay59 (View.ld x2 r0_0) (k0_pay3 (View.ld x5 r0_2)) (k0_pay55 (View.ld x1 r0_0) (View.ld x2 r0_0) (k0_pay4 (View.ld x5 r0_2) (View.ld x4 r0_2)) (k0_pay15 (View.ld x0 r0_13)) (k0_pay18 (View.ld x0 r0_16))))))) (ix3 (0 : Fin 1) r c)
      = outK (blkParams x1 x2 x3 x4 x5 x6) (blkRow x0 1 r) 11 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 11, half 0 of the block: the updated node's scores after edge 11, at row r. -/
theorem piece_40 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay74 (View.ld x2 r0_0) (View.ld x3 r0_1) (k0_pay3 (View.ld x5 r0_2)) (k0_pay5 (View.ld x6 r0_3)) (k0_pay72 (View.ld x1 r0_0) (View.ld x2 r0_0) (k0_pay3 (View.ld x5 r0_2)) (k0_pay4 (View.ld x5 r0_2) (View.ld x4 r0_2)) (k0_pay12 (View.ld x0 r0_10)) (k0_pay66 (View.ld x1 r0_0) (View.ld x2 r0_0) (k0_pay3 (View.ld x5 r0_2)) (k0_pay4 (View.ld x5 r0_2) (View.ld x4 r0_2)) (k0_pay12 (View.ld x0 r0_10)) (k0_pay58 (View.ld x2 r0_0) (k0_pay3 (View.ld x5 r0_2)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2))))))) (ix3 (0 : Fin 1) r c)
      = outK (blkParams x1 x2 x3 x4 x5 x6) (blkRow x0 0 r) 11 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 10, half 1 of the block: the updated node's scores after edge 10, at row r. -/
theorem piece_39 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay71 (View.ld x2 r0_0) (View.ld x3 r0_1) (k0_pay3 (View.ld x5 r0_2)) (k0_pay5 (View.ld x6 r0_3)) (k0_pay67 (View.ld x1 r0_0) (View.ld x2 r0_0) (k0_pay4 (View.ld x5 r0_2) (View.ld x4 r0_2)) (k0_pay19 (View.ld x0 r0_17)) (k0_pay59 (View.ld x2 r0_0) (k0_pay3 (View.ld x5 r0_2)) (k0_pay55 (View.ld x1 r0_0) (View.ld x2 r0_0) (k0_pay4 (View.ld x5 r0_2) (View.ld x4 r0_2)) (k0_pay15 (View.ld x0 r0_13)) (k0_pay18 (View.ld x0 r0_16)))))) (ix3 (0 : Fin 1) r c)
      = outK (blkParams x1 x2 x3 x4 x5 x6) (blkRow x0 1 r) 10 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 10, half 0 of the block: the updated node's scores after edge 10, at row r. -/
theorem piece_38 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay70 (View.ld x2 r0_0) (View.ld x3 r0_1) (k0_pay3 (View.ld x5 r0_2)) (k0_pay5 (View.ld x6 r0_3)) (k0_pay66 (View.ld x1 r0_0) (View.ld x2 r0_0) (k0_pay3 (View.ld x5 r0_2)) (k0_pay4 (View.ld x5 r0_2) (View.ld x4 r0_2)) (k0_pay12 (View.ld x0 r0_10)) (k0_pay58 (View.ld x2 r0_0) (k0_pay3 (View.ld x5 r0_2)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2)))))) (ix3 (0 : Fin 1) r c)
      = outK (blkParams x1 x2 x3 x4 x5 x6) (blkRow x0 0 r) 10 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 9, half 1 of the block: the updated node's scores after edge 9, at row r. -/
theorem piece_37 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay65 (View.ld x2 r0_0) (View.ld x3 r0_1) (k0_pay3 (View.ld x5 r0_2)) (k0_pay5 (View.ld x6 r0_3)) (k0_pay62 (View.ld x1 r0_0) (View.ld x2 r0_0) (k0_pay3 (View.ld x5 r0_2)) (k0_pay4 (View.ld x5 r0_2) (View.ld x4 r0_2)) (k0_pay18 (View.ld x0 r0_16)) (k0_pay55 (View.ld x1 r0_0) (View.ld x2 r0_0) (k0_pay4 (View.ld x5 r0_2) (View.ld x4 r0_2)) (k0_pay15 (View.ld x0 r0_13)) (k0_pay18 (View.ld x0 r0_16))))) (ix3 (0 : Fin 1) r c)
      = outK (blkParams x1 x2 x3 x4 x5 x6) (blkRow x0 1 r) 9 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 9, half 0 of the block: the updated node's scores after edge 9, at row r. -/
theorem piece_36 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay64 (View.ld x2 r0_0) (View.ld x3 r0_1) (k0_pay3 (View.ld x5 r0_2)) (k0_pay5 (View.ld x6 r0_3)) (k0_pay63 (View.ld x1 r0_0) (View.ld x2 r0_0) (k0_pay3 (View.ld x5 r0_2)) (k0_pay4 (View.ld x5 r0_2) (View.ld x4 r0_2)) (k0_pay11 (View.ld x0 r0_9)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2))))) (ix3 (0 : Fin 1) r c)
      = outK (blkParams x1 x2 x3 x4 x5 x6) (blkRow x0 0 r) 9 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 8, half 1 of the block: the updated node's scores after edge 8, at row r. -/
theorem piece_35 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay61 (View.ld x2 r0_0) (View.ld x3 r0_1) (k0_pay3 (View.ld x5 r0_2)) (k0_pay5 (View.ld x6 r0_3)) (k0_pay55 (View.ld x1 r0_0) (View.ld x2 r0_0) (k0_pay4 (View.ld x5 r0_2) (View.ld x4 r0_2)) (k0_pay15 (View.ld x0 r0_13)) (k0_pay18 (View.ld x0 r0_16)))) (ix3 (0 : Fin 1) r c)
      = outK (blkParams x1 x2 x3 x4 x5 x6) (blkRow x0 1 r) 8 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 8, half 0 of the block: the updated node's scores after edge 8, at row r. -/
theorem piece_34 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay60 (View.ld x2 r0_0) (View.ld x3 r0_1) (k0_pay3 (View.ld x5 r0_2)) (k0_pay5 (View.ld x6 r0_3)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2)))) (ix3 (0 : Fin 1) r c)
      = outK (blkParams x1 x2 x3 x4 x5 x6) (blkRow x0 0 r) 8 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 7, half 1 of the block: the updated node's scores after edge 7, at row r. -/
theorem piece_33 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay54 (View.ld x2 r0_0) (View.ld x3 r0_1) (k0_pay3 (View.ld x5 r0_2)) (k0_pay5 (View.ld x6 r0_3)) (k0_pay50 (View.ld x1 r0_0) (View.ld x2 r0_0) (k0_pay4 (View.ld x5 r0_2) (View.ld x4 r0_2)) (k0_pay15 (View.ld x0 r0_13)) (k0_pay24 (View.ld x1 r0_0) (View.ld x2 r0_0) (k0_pay3 (View.ld x5 r0_2)) (k0_pay4 (View.ld x5 r0_2) (View.ld x4 r0_2)) (k0_pay13 (View.ld x0 r0_11)) (k0_pay14 (View.ld x0 r0_12))))) (ix3 (0 : Fin 1) r c)
      = outK (blkParams x1 x2 x3 x4 x5 x6) (blkRow x0 1 r) 7 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 7, half 0 of the block: the updated node's scores after edge 7, at row r. -/
theorem piece_32 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay53 (View.ld x2 r0_0) (View.ld x3 r0_1) (k0_pay3 (View.ld x5 r0_2)) (k0_pay5 (View.ld x6 r0_3)) (k0_pay49 (View.ld x1 r0_0) (View.ld x2 r0_0) (k0_pay4 (View.ld x5 r0_2) (View.ld x4 r0_2)) (k0_pay8 (View.ld x0 r0_6)) (k0_pay23 (View.ld x2 r0_0) (k0_pay3 (View.ld x5 r0_2)) (k0_pay4 (View.ld x5 r0_2) (View.ld x4 r0_2)) (k0_pay22 (View.ld x1 r0_0) (View.ld x2 r0_0) (k0_pay6 (View.ld x0 r0_4)) (k0_pay7 (View.ld x0 r0_5))))) (constant S512x256 .f32 0x00000000#32)) (ix3 (0 : Fin 1) r c)
      = outK (blkParams x1 x2 x3 x4 x5 x6) (blkRow x0 0 r) 7 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 6, half 1 of the block: the updated node's scores after edge 6, at row r. -/
theorem piece_31 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay48 (View.ld x2 r0_0) (View.ld x3 r0_1) (k0_pay3 (View.ld x5 r0_2)) (k0_pay5 (View.ld x6 r0_3)) (k0_pay46 (View.ld x1 r0_0) (View.ld x2 r0_0) (k0_pay4 (View.ld x5 r0_2) (View.ld x4 r0_2)) (k0_pay24 (View.ld x1 r0_0) (View.ld x2 r0_0) (k0_pay3 (View.ld x5 r0_2)) (k0_pay4 (View.ld x5 r0_2) (View.ld x4 r0_2)) (k0_pay13 (View.ld x0 r0_11)) (k0_pay14 (View.ld x0 r0_12))) (k0_pay38 (View.ld x1 r0_0) (View.ld x2 r0_0) (k0_pay3 (View.ld x5 r0_2)) (k0_pay4 (View.ld x5 r0_2) (View.ld x4 r0_2)) (k0_pay17 (View.ld x0 r0_15)) (k0_pay36 (View.ld x2 r0_0) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14)))) (constant S512x256 .f32 0x00000000#32)))) (ix3 (0 : Fin 1) r c)
      = outK (blkParams x1 x2 x3 x4 x5 x6) (blkRow x0 1 r) 6 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 6, half 0 of the block: the updated node's scores after edge 6, at row r. -/
theorem piece_30 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay47 (View.ld x2 r0_0) (View.ld x3 r0_1) (k0_pay3 (View.ld x5 r0_2)) (k0_pay5 (View.ld x6 r0_3)) (k0_pay45 (View.ld x1 r0_0) (View.ld x2 r0_0) (k0_pay4 (View.ld x5 r0_2) (View.ld x4 r0_2)) (k0_pay23 (View.ld x2 r0_0) (k0_pay3 (View.ld x5 r0_2)) (k0_pay4 (View.ld x5 r0_2) (View.ld x4 r0_2)) (k0_pay22 (View.ld x1 r0_0) (View.ld x2 r0_0) (k0_pay6 (View.ld x0 r0_4)) (k0_pay7 (View.ld x0 r0_5)))) (k0_pay37 (View.ld x2 r0_0) (k0_pay3 (View.ld x5 r0_2)) (k0_pay35 (View.ld x1 r0_0) (View.ld x2 r0_0) (k0_pay4 (View.ld x5 r0_2) (View.ld x4 r0_2)) (k0_pay10 (View.ld x0 r0_8)) (k0_pay28 (View.ld x2 r0_0) (k0_pay3 (View.ld x5 r0_2)) (k0_pay27 (View.ld x1 r0_0) (View.ld x2 r0_0) (k0_pay4 (View.ld x5 r0_2) (View.ld x4 r0_2)) (k0_pay7 (View.ld x0 r0_5)) (k0_pay9 (View.ld x0 r0_7)))))))) (ix3 (0 : Fin 1) r c)
      = outK (blkParams x1 x2 x3 x4 x5 x6) (blkRow x0 0 r) 6 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 5, half 1 of the block: the updated node's scores after edge 5, at row r. -/
theorem piece_29 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay44 (View.ld x2 r0_0) (View.ld x3 r0_1) (k0_pay3 (View.ld x5 r0_2)) (k0_pay4 (View.ld x5 r0_2) (View.ld x4 r0_2)) (k0_pay5 (View.ld x6 r0_3)) (k0_pay42 (View.ld x1 r0_0) (View.ld x2 r0_0) (k0_pay3 (View.ld x5 r0_2)) (k0_pay4 (View.ld x5 r0_2) (View.ld x4 r0_2)) (k0_pay17 (View.ld x0 r0_15)) (k0_pay36 (View.ld x2 r0_0) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14)))) (constant S512x256 .f32 0x00000000#32))) (ix3 (0 : Fin 1) r c)
      = outK (blkParams x1 x2 x3 x4 x5 x6) (blkRow x0 1 r) 5 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 5, half 0 of the block: the updated node's scores after edge 5, at row r. -/
theorem piece_28 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay43 (View.ld x2 r0_0) (View.ld x3 r0_1) (k0_pay3 (View.ld x5 r0_2)) (k0_pay5 (View.ld x6 r0_3)) (k0_pay41 (View.ld x1 r0_0) (View.ld x2 r0_0) (k0_pay3 (View.ld x5 r0_2)) (k0_pay4 (View.ld x5 r0_2) (View.ld x4 r0_2)) (k0_pay10 (View.ld x0 r0_8)) (k0_pay35 (View.ld x1 r0_0) (View.ld x2 r0_0) (k0_pay4 (View.ld x5 r0_2) (View.ld x4 r0_2)) (k0_pay10 (View.ld x0 r0_8)) (k0_pay28 (View.ld x2 r0_0) (k0_pay3 (View.ld x5 r0_2)) (k0_pay27 (View.ld x1 r0_0) (View.ld x2 r0_0) (k0_pay4 (View.ld x5 r0_2) (View.ld x4 r0_2)) (k0_pay7 (View.ld x0 r0_5)) (k0_pay9 (View.ld x0 r0_7))))))) (ix3 (0 : Fin 1) r c)
      = outK (blkParams x1 x2 x3 x4 x5 x6) (blkRow x0 0 r) 5 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 4, half 1 of the block: the updated node's scores after edge 4, at row r. -/
theorem piece_27 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay40 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay17 (View.ld x0 r0_15)) (k0_pay36 (View.ld x2 r0_0) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14)))) (constant S512x256 .f32 0x00000000#32)) (ix3 (0 : Fin 1) r c)
      = outK (blkParams x1 x2 x3 x4 x5 x6) (blkRow x0 1 r) 4 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 4, half 0 of the block: the updated node's scores after edge 4, at row r. -/
theorem piece_26 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay39 (View.ld x2 r0_0) (View.ld x3 r0_1) (k0_pay3 (View.ld x5 r0_2)) (k0_pay5 (View.ld x6 r0_3)) (k0_pay35 (View.ld x1 r0_0) (View.ld x2 r0_0) (k0_pay4 (View.ld x5 r0_2) (View.ld x4 r0_2)) (k0_pay10 (View.ld x0 r0_8)) (k0_pay28 (View.ld x2 r0_0) (k0_pay3 (View.ld x5 r0_2)) (k0_pay27 (View.ld x1 r0_0) (View.ld x2 r0_0) (k0_pay4 (View.ld x5 r0_2) (View.ld x4 r0_2)) (k0_pay7 (View.ld x0 r0_5)) (k0_pay9 (View.ld x0 r0_7)))))) (ix3 (0 : Fin 1) r c)
      = outK (blkParams x1 x2 x3 x4 x5 x6) (blkRow x0 0 r) 4 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 3, half 1 of the block: the updated node's scores after edge 3, at row r. -/
theorem piece_25 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay34 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay16 (View.ld x0 r0_14)) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14))) (constant S512x256 .f32 0x00000000#32)) (ix3 (0 : Fin 1) r c)
      = outK (blkParams x1 x2 x3 x4 x5 x6) (blkRow x0 1 r) 3 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 3, half 0 of the block: the updated node's scores after edge 3, at row r. -/
theorem piece_24 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay33 (View.ld x2 r0_0) (View.ld x3 r0_1) (k0_pay3 (View.ld x5 r0_2)) (k0_pay5 (View.ld x6 r0_3)) (k0_pay32 (View.ld x1 r0_0) (View.ld x2 r0_0) (k0_pay3 (View.ld x5 r0_2)) (k0_pay4 (View.ld x5 r0_2) (View.ld x4 r0_2)) (k0_pay9 (View.ld x0 r0_7)) (k0_pay27 (View.ld x1 r0_0) (View.ld x2 r0_0) (k0_pay4 (View.ld x5 r0_2) (View.ld x4 r0_2)) (k0_pay7 (View.ld x0 r0_5)) (k0_pay9 (View.ld x0 r0_7))))) (ix3 (0 : Fin 1) r c)
      = outK (blkParams x1 x2 x3 x4 x5 x6) (blkRow x0 0 r) 3 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 2, half 1 of the block: the updated node's scores after edge 2, at row r. -/
theorem piece_23 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay31 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay14 (View.ld x0 r0_12)) (k0_pay16 (View.ld x0 r0_14))) (ix3 (0 : Fin 1) r c)
      = outK (blkParams x1 x2 x3 x4 x5 x6) (blkRow x0 1 r) 2 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 2, half 0 of the block: the updated node's scores after edge 2, at row r. -/
theorem piece_22 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay30 (View.ld x2 r0_0) (View.ld x3 r0_1) (k0_pay3 (View.ld x5 r0_2)) (k0_pay5 (View.ld x6 r0_3)) (k0_pay27 (View.ld x1 r0_0) (View.ld x2 r0_0) (k0_pay4 (View.ld x5 r0_2) (View.ld x4 r0_2)) (k0_pay7 (View.ld x0 r0_5)) (k0_pay9 (View.ld x0 r0_7)))) (ix3 (0 : Fin 1) r c)
      = outK (blkParams x1 x2 x3 x4 x5 x6) (blkRow x0 0 r) 2 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 1, half 1 of the block: the updated node's scores after edge 1, at row r. -/
theorem piece_21 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay26 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay13 (View.ld x0 r0_11)) (k0_pay14 (View.ld x0 r0_12))) (ix3 (0 : Fin 1) r c)
      = outK (blkParams x1 x2 x3 x4 x5 x6) (blkRow x0 1 r) 1 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 1, half 0 of the block: the updated node's scores after edge 1, at row r. -/
theorem piece_20 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay25 (View.ld x2 r0_0) (View.ld x3 r0_1) (k0_pay3 (View.ld x5 r0_2)) (k0_pay4 (View.ld x5 r0_2) (View.ld x4 r0_2)) (k0_pay5 (View.ld x6 r0_3)) (k0_pay22 (View.ld x1 r0_0) (View.ld x2 r0_0) (k0_pay6 (View.ld x0 r0_4)) (k0_pay7 (View.ld x0 r0_5)))) (ix3 (0 : Fin 1) r c)
      = outK (blkParams x1 x2 x3 x4 x5 x6) (blkRow x0 0 r) 1 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 0, half 1 of the block: the root's scores before any edge, at row r. -/
theorem piece_19 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay21 (View.ld x3 r0_1) (k0_pay5 (View.ld x6 r0_3)) (View.ld x0 r0_11)) (ix3 (0 : Fin 1) r c)
      = outK (blkParams x1 x2 x3 x4 x5 x6) (blkRow x0 1 r) 0 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- Readout 0, half 0 of the block: the root's scores before any edge, at row r. -/
theorem piece_18 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) (r : Fin 512) (c : Fin 128) :
    (k0_pay20 (View.ld x3 r0_1) (k0_pay5 (View.ld x6 r0_3)) (k0_pay6 (View.ld x0 r0_4))) (ix3 (0 : Fin 1) r c)
      = outK (blkParams x1 x2 x3 x4 x5 x6) (blkRow x0 0 r) 0 c := by
  simp only [k0_pay1, k0_pay2, k0_pay3, k0_pay4, k0_pay5, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    mm256_apply, mm128_apply, tanh_apply, addf_apply, broadcastTo_1b_ab_apply, shapeCast_ab_1ab_apply, shapeCast_self, ld_w256, ld_w128, ld_b256, ld_b128, pay6_row, pay7_row, pay8_row, pay9_row, pay10_row, pay11_row, pay12_row, pay13_row, pay14_row, pay15_row, pay16_row, pay17_row, pay18_row, pay19_row]
  simp only [outK, stateAtK, stepK, edgeK, refine_def, msgK_def, readout, eU, eV, blkParams, Function.update_apply, Fin.reduceEq, Fin.isValue, ↓reduceIte]

/-- The block's thirteen readouts as ONE function of the staged blocks: entry (e, r, c) is score c of readout e of
    the block's row r. -/
def Gblk (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) : S13x1024x128.Idx → EReal :=
  fun y => outK (blkParams x1 x2 x3 x4 x5 x6) (fun n k => x0 (ix3 n (y 1) k)) (y 0).val (y 2)

theorem agree_43 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_43).shape.Idx, (k0_pay2 (View.ld x2 r0_0) (View.ld x3 r0_1) (k0_pay3 (View.ld x5 r0_2)) (k0_pay5 (View.ld x6 r0_3)) (k0_pay77 (View.ld x1 r0_0) (View.ld x2 r0_0) (k0_pay3 (View.ld x5 r0_2)) (k0_pay4 (View.ld x5 r0_2) (View.ld x4 r0_2)) (k0_pay52 (View.ld x2 r0_0) (k0_pay3 (View.ld x5 r0_2)) (k0_pay50 (View.ld x1 r0_0) (View.ld x2 r0_0) (k0_pay4 (View.ld x5 r0_2) (View.ld x4 r0_2)) (k0_pay15 (View.ld x0 r0_13)) (k0_pay24 (View.ld x1 r0_0) (View.ld x2 r0_0) (k0_pay3 (View.ld x5 r0_2)) (k0_pay4 (View.ld x5 r0_2) (View.ld x4 r0_2)) (k0_pay13 (View.ld x0 r0_11)) (k0_pay14 (View.ld x0 r0_12))))) (k0_pay69 (View.ld x2 r0_0) (k0_pay3 (View.ld x5 r0_2)) (k0_pay67 (View.ld x1 r0_0) (View.ld x2 r0_0) (k0_pay4 (View.ld x5 r0_2) (View.ld x4 r0_2)) (k0_pay19 (View.ld x0 r0_17)) (k0_pay59 (View.ld x2 r0_0) (k0_pay3 (View.ld x5 r0_2)) (k0_pay55 (View.ld x1 r0_0) (View.ld x2 r0_0) (k0_pay4 (View.ld x5 r0_2) (View.ld x4 r0_2)) (k0_pay15 (View.ld x0 r0_13)) (k0_pay18 (View.ld x0 r0_16)))))))) x = Gblk x0 x1 x2 x3 x4 x5 x6 ((r0_43).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_43 x0 x1 x2 x3 x4 x5 x6 r c).trans ?_
  have h0 : (((r0_43).emb (ix3 (0 : Fin 1) r c)) 0).val = 12 := rfl
  have h1 : ((r0_43).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_43).emb (ix3 (0 : Fin 1) r c)) 2 = c := Fin.ext (by show 0 + 1 * c.val = c.val; omega)
  unfold Gblk
  rw [h0, h1, h2]
  rfl

theorem agree_42 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_42).shape.Idx, (k0_pay1 (View.ld x2 r0_0) (View.ld x3 r0_1) (k0_pay3 (View.ld x5 r0_2)) (k0_pay5 (View.ld x6 r0_3)) (k0_pay76 (View.ld x1 r0_0) (View.ld x2 r0_0) (k0_pay3 (View.ld x5 r0_2)) (k0_pay4 (View.ld x5 r0_2) (View.ld x4 r0_2)) (k0_pay51 (View.ld x2 r0_0) (k0_pay3 (View.ld x5 r0_2)) (k0_pay49 (View.ld x1 r0_0) (View.ld x2 r0_0) (k0_pay4 (View.ld x5 r0_2) (View.ld x4 r0_2)) (k0_pay8 (View.ld x0 r0_6)) (k0_pay23 (View.ld x2 r0_0) (k0_pay3 (View.ld x5 r0_2)) (k0_pay4 (View.ld x5 r0_2) (View.ld x4 r0_2)) (k0_pay22 (View.ld x1 r0_0) (View.ld x2 r0_0) (k0_pay6 (View.ld x0 r0_4)) (k0_pay7 (View.ld x0 r0_5))))) (constant S512x256 .f32 0x00000000#32)) (k0_pay68 (View.ld x2 r0_0) (k0_pay3 (View.ld x5 r0_2)) (k0_pay66 (View.ld x1 r0_0) (View.ld x2 r0_0) (k0_pay3 (View.ld x5 r0_2)) (k0_pay4 (View.ld x5 r0_2) (View.ld x4 r0_2)) (k0_pay12 (View.ld x0 r0_10)) (k0_pay58 (View.ld x2 r0_0) (k0_pay3 (View.ld x5 r0_2)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2))))))) (constant S512x256 .f32 0x00000000#32)) x = Gblk x0 x1 x2 x3 x4 x5 x6 ((r0_42).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_42 x0 x1 x2 x3 x4 x5 x6 r c).trans ?_
  have h0 : (((r0_42).emb (ix3 (0 : Fin 1) r c)) 0).val = 12 := rfl
  have h1 : ((r0_42).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_42).emb (ix3 (0 : Fin 1) r c)) 2 = c := Fin.ext (by show 0 + 1 * c.val = c.val; omega)
  unfold Gblk
  rw [h0, h1, h2]
  rfl

theorem agree_41 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_41).shape.Idx, (k0_pay75 (View.ld x2 r0_0) (View.ld x3 r0_1) (k0_pay3 (View.ld x5 r0_2)) (k0_pay5 (View.ld x6 r0_3)) (k0_pay73 (View.ld x1 r0_0) (View.ld x2 r0_0) (k0_pay3 (View.ld x5 r0_2)) (k0_pay4 (View.ld x5 r0_2) (View.ld x4 r0_2)) (k0_pay19 (View.ld x0 r0_17)) (k0_pay67 (View.ld x1 r0_0) (View.ld x2 r0_0) (k0_pay4 (View.ld x5 r0_2) (View.ld x4 r0_2)) (k0_pay19 (View.ld x0 r0_17)) (k0_pay59 (View.ld x2 r0_0) (k0_pay3 (View.ld x5 r0_2)) (k0_pay55 (View.ld x1 r0_0) (View.ld x2 r0_0) (k0_pay4 (View.ld x5 r0_2) (View.ld x4 r0_2)) (k0_pay15 (View.ld x0 r0_13)) (k0_pay18 (View.ld x0 r0_16))))))) x = Gblk x0 x1 x2 x3 x4 x5 x6 ((r0_41).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_41 x0 x1 x2 x3 x4 x5 x6 r c).trans ?_
  have h0 : (((r0_41).emb (ix3 (0 : Fin 1) r c)) 0).val = 11 := rfl
  have h1 : ((r0_41).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_41).emb (ix3 (0 : Fin 1) r c)) 2 = c := Fin.ext (by show 0 + 1 * c.val = c.val; omega)
  unfold Gblk
  rw [h0, h1, h2]
  rfl

theorem agree_40 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_40).shape.Idx, (k0_pay74 (View.ld x2 r0_0) (View.ld x3 r0_1) (k0_pay3 (View.ld x5 r0_2)) (k0_pay5 (View.ld x6 r0_3)) (k0_pay72 (View.ld x1 r0_0) (View.ld x2 r0_0) (k0_pay3 (View.ld x5 r0_2)) (k0_pay4 (View.ld x5 r0_2) (View.ld x4 r0_2)) (k0_pay12 (View.ld x0 r0_10)) (k0_pay66 (View.ld x1 r0_0) (View.ld x2 r0_0) (k0_pay3 (View.ld x5 r0_2)) (k0_pay4 (View.ld x5 r0_2) (View.ld x4 r0_2)) (k0_pay12 (View.ld x0 r0_10)) (k0_pay58 (View.ld x2 r0_0) (k0_pay3 (View.ld x5 r0_2)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2))))))) x = Gblk x0 x1 x2 x3 x4 x5 x6 ((r0_40).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_40 x0 x1 x2 x3 x4 x5 x6 r c).trans ?_
  have h0 : (((r0_40).emb (ix3 (0 : Fin 1) r c)) 0).val = 11 := rfl
  have h1 : ((r0_40).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_40).emb (ix3 (0 : Fin 1) r c)) 2 = c := Fin.ext (by show 0 + 1 * c.val = c.val; omega)
  unfold Gblk
  rw [h0, h1, h2]
  rfl

theorem agree_39 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_39).shape.Idx, (k0_pay71 (View.ld x2 r0_0) (View.ld x3 r0_1) (k0_pay3 (View.ld x5 r0_2)) (k0_pay5 (View.ld x6 r0_3)) (k0_pay67 (View.ld x1 r0_0) (View.ld x2 r0_0) (k0_pay4 (View.ld x5 r0_2) (View.ld x4 r0_2)) (k0_pay19 (View.ld x0 r0_17)) (k0_pay59 (View.ld x2 r0_0) (k0_pay3 (View.ld x5 r0_2)) (k0_pay55 (View.ld x1 r0_0) (View.ld x2 r0_0) (k0_pay4 (View.ld x5 r0_2) (View.ld x4 r0_2)) (k0_pay15 (View.ld x0 r0_13)) (k0_pay18 (View.ld x0 r0_16)))))) x = Gblk x0 x1 x2 x3 x4 x5 x6 ((r0_39).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_39 x0 x1 x2 x3 x4 x5 x6 r c).trans ?_
  have h0 : (((r0_39).emb (ix3 (0 : Fin 1) r c)) 0).val = 10 := rfl
  have h1 : ((r0_39).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_39).emb (ix3 (0 : Fin 1) r c)) 2 = c := Fin.ext (by show 0 + 1 * c.val = c.val; omega)
  unfold Gblk
  rw [h0, h1, h2]
  rfl

theorem agree_38 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_38).shape.Idx, (k0_pay70 (View.ld x2 r0_0) (View.ld x3 r0_1) (k0_pay3 (View.ld x5 r0_2)) (k0_pay5 (View.ld x6 r0_3)) (k0_pay66 (View.ld x1 r0_0) (View.ld x2 r0_0) (k0_pay3 (View.ld x5 r0_2)) (k0_pay4 (View.ld x5 r0_2) (View.ld x4 r0_2)) (k0_pay12 (View.ld x0 r0_10)) (k0_pay58 (View.ld x2 r0_0) (k0_pay3 (View.ld x5 r0_2)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2)))))) x = Gblk x0 x1 x2 x3 x4 x5 x6 ((r0_38).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_38 x0 x1 x2 x3 x4 x5 x6 r c).trans ?_
  have h0 : (((r0_38).emb (ix3 (0 : Fin 1) r c)) 0).val = 10 := rfl
  have h1 : ((r0_38).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_38).emb (ix3 (0 : Fin 1) r c)) 2 = c := Fin.ext (by show 0 + 1 * c.val = c.val; omega)
  unfold Gblk
  rw [h0, h1, h2]
  rfl

theorem agree_37 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_37).shape.Idx, (k0_pay65 (View.ld x2 r0_0) (View.ld x3 r0_1) (k0_pay3 (View.ld x5 r0_2)) (k0_pay5 (View.ld x6 r0_3)) (k0_pay62 (View.ld x1 r0_0) (View.ld x2 r0_0) (k0_pay3 (View.ld x5 r0_2)) (k0_pay4 (View.ld x5 r0_2) (View.ld x4 r0_2)) (k0_pay18 (View.ld x0 r0_16)) (k0_pay55 (View.ld x1 r0_0) (View.ld x2 r0_0) (k0_pay4 (View.ld x5 r0_2) (View.ld x4 r0_2)) (k0_pay15 (View.ld x0 r0_13)) (k0_pay18 (View.ld x0 r0_16))))) x = Gblk x0 x1 x2 x3 x4 x5 x6 ((r0_37).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_37 x0 x1 x2 x3 x4 x5 x6 r c).trans ?_
  have h0 : (((r0_37).emb (ix3 (0 : Fin 1) r c)) 0).val = 9 := rfl
  have h1 : ((r0_37).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_37).emb (ix3 (0 : Fin 1) r c)) 2 = c := Fin.ext (by show 0 + 1 * c.val = c.val; omega)
  unfold Gblk
  rw [h0, h1, h2]
  rfl

theorem agree_36 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_36).shape.Idx, (k0_pay64 (View.ld x2 r0_0) (View.ld x3 r0_1) (k0_pay3 (View.ld x5 r0_2)) (k0_pay5 (View.ld x6 r0_3)) (k0_pay63 (View.ld x1 r0_0) (View.ld x2 r0_0) (k0_pay3 (View.ld x5 r0_2)) (k0_pay4 (View.ld x5 r0_2) (View.ld x4 r0_2)) (k0_pay11 (View.ld x0 r0_9)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2))))) x = Gblk x0 x1 x2 x3 x4 x5 x6 ((r0_36).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_36 x0 x1 x2 x3 x4 x5 x6 r c).trans ?_
  have h0 : (((r0_36).emb (ix3 (0 : Fin 1) r c)) 0).val = 9 := rfl
  have h1 : ((r0_36).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_36).emb (ix3 (0 : Fin 1) r c)) 2 = c := Fin.ext (by show 0 + 1 * c.val = c.val; omega)
  unfold Gblk
  rw [h0, h1, h2]
  rfl

theorem agree_35 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_35).shape.Idx, (k0_pay61 (View.ld x2 r0_0) (View.ld x3 r0_1) (k0_pay3 (View.ld x5 r0_2)) (k0_pay5 (View.ld x6 r0_3)) (k0_pay55 (View.ld x1 r0_0) (View.ld x2 r0_0) (k0_pay4 (View.ld x5 r0_2) (View.ld x4 r0_2)) (k0_pay15 (View.ld x0 r0_13)) (k0_pay18 (View.ld x0 r0_16)))) x = Gblk x0 x1 x2 x3 x4 x5 x6 ((r0_35).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_35 x0 x1 x2 x3 x4 x5 x6 r c).trans ?_
  have h0 : (((r0_35).emb (ix3 (0 : Fin 1) r c)) 0).val = 8 := rfl
  have h1 : ((r0_35).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_35).emb (ix3 (0 : Fin 1) r c)) 2 = c := Fin.ext (by show 0 + 1 * c.val = c.val; omega)
  unfold Gblk
  rw [h0, h1, h2]
  rfl

theorem agree_34 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_34).shape.Idx, (k0_pay60 (View.ld x2 r0_0) (View.ld x3 r0_1) (k0_pay3 (View.ld x5 r0_2)) (k0_pay5 (View.ld x6 r0_3)) (k0_pay56 (View.ld x1 r0_0) (View.ld x2 r0_0) (k0_pay4 (View.ld x5 r0_2) (View.ld x4 r0_2)) (k0_pay8 (View.ld x0 r0_6)) (k0_pay11 (View.ld x0 r0_9))) (k0_pay57 (k0_pay3 (View.ld x5 r0_2)))) x = Gblk x0 x1 x2 x3 x4 x5 x6 ((r0_34).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_34 x0 x1 x2 x3 x4 x5 x6 r c).trans ?_
  have h0 : (((r0_34).emb (ix3 (0 : Fin 1) r c)) 0).val = 8 := rfl
  have h1 : ((r0_34).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_34).emb (ix3 (0 : Fin 1) r c)) 2 = c := Fin.ext (by show 0 + 1 * c.val = c.val; omega)
  unfold Gblk
  rw [h0, h1, h2]
  rfl

theorem agree_33 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_33).shape.Idx, (k0_pay54 (View.ld x2 r0_0) (View.ld x3 r0_1) (k0_pay3 (View.ld x5 r0_2)) (k0_pay5 (View.ld x6 r0_3)) (k0_pay50 (View.ld x1 r0_0) (View.ld x2 r0_0) (k0_pay4 (View.ld x5 r0_2) (View.ld x4 r0_2)) (k0_pay15 (View.ld x0 r0_13)) (k0_pay24 (View.ld x1 r0_0) (View.ld x2 r0_0) (k0_pay3 (View.ld x5 r0_2)) (k0_pay4 (View.ld x5 r0_2) (View.ld x4 r0_2)) (k0_pay13 (View.ld x0 r0_11)) (k0_pay14 (View.ld x0 r0_12))))) x = Gblk x0 x1 x2 x3 x4 x5 x6 ((r0_33).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_33 x0 x1 x2 x3 x4 x5 x6 r c).trans ?_
  have h0 : (((r0_33).emb (ix3 (0 : Fin 1) r c)) 0).val = 7 := rfl
  have h1 : ((r0_33).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_33).emb (ix3 (0 : Fin 1) r c)) 2 = c := Fin.ext (by show 0 + 1 * c.val = c.val; omega)
  unfold Gblk
  rw [h0, h1, h2]
  rfl

theorem agree_32 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_32).shape.Idx, (k0_pay53 (View.ld x2 r0_0) (View.ld x3 r0_1) (k0_pay3 (View.ld x5 r0_2)) (k0_pay5 (View.ld x6 r0_3)) (k0_pay49 (View.ld x1 r0_0) (View.ld x2 r0_0) (k0_pay4 (View.ld x5 r0_2) (View.ld x4 r0_2)) (k0_pay8 (View.ld x0 r0_6)) (k0_pay23 (View.ld x2 r0_0) (k0_pay3 (View.ld x5 r0_2)) (k0_pay4 (View.ld x5 r0_2) (View.ld x4 r0_2)) (k0_pay22 (View.ld x1 r0_0) (View.ld x2 r0_0) (k0_pay6 (View.ld x0 r0_4)) (k0_pay7 (View.ld x0 r0_5))))) (constant S512x256 .f32 0x00000000#32)) x = Gblk x0 x1 x2 x3 x4 x5 x6 ((r0_32).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_32 x0 x1 x2 x3 x4 x5 x6 r c).trans ?_
  have h0 : (((r0_32).emb (ix3 (0 : Fin 1) r c)) 0).val = 7 := rfl
  have h1 : ((r0_32).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_32).emb (ix3 (0 : Fin 1) r c)) 2 = c := Fin.ext (by show 0 + 1 * c.val = c.val; omega)
  unfold Gblk
  rw [h0, h1, h2]
  rfl

theorem agree_31 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_31).shape.Idx, (k0_pay48 (View.ld x2 r0_0) (View.ld x3 r0_1) (k0_pay3 (View.ld x5 r0_2)) (k0_pay5 (View.ld x6 r0_3)) (k0_pay46 (View.ld x1 r0_0) (View.ld x2 r0_0) (k0_pay4 (View.ld x5 r0_2) (View.ld x4 r0_2)) (k0_pay24 (View.ld x1 r0_0) (View.ld x2 r0_0) (k0_pay3 (View.ld x5 r0_2)) (k0_pay4 (View.ld x5 r0_2) (View.ld x4 r0_2)) (k0_pay13 (View.ld x0 r0_11)) (k0_pay14 (View.ld x0 r0_12))) (k0_pay38 (View.ld x1 r0_0) (View.ld x2 r0_0) (k0_pay3 (View.ld x5 r0_2)) (k0_pay4 (View.ld x5 r0_2) (View.ld x4 r0_2)) (k0_pay17 (View.ld x0 r0_15)) (k0_pay36 (View.ld x2 r0_0) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14)))) (constant S512x256 .f32 0x00000000#32)))) x = Gblk x0 x1 x2 x3 x4 x5 x6 ((r0_31).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_31 x0 x1 x2 x3 x4 x5 x6 r c).trans ?_
  have h0 : (((r0_31).emb (ix3 (0 : Fin 1) r c)) 0).val = 6 := rfl
  have h1 : ((r0_31).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_31).emb (ix3 (0 : Fin 1) r c)) 2 = c := Fin.ext (by show 0 + 1 * c.val = c.val; omega)
  unfold Gblk
  rw [h0, h1, h2]
  rfl

theorem agree_30 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_30).shape.Idx, (k0_pay47 (View.ld x2 r0_0) (View.ld x3 r0_1) (k0_pay3 (View.ld x5 r0_2)) (k0_pay5 (View.ld x6 r0_3)) (k0_pay45 (View.ld x1 r0_0) (View.ld x2 r0_0) (k0_pay4 (View.ld x5 r0_2) (View.ld x4 r0_2)) (k0_pay23 (View.ld x2 r0_0) (k0_pay3 (View.ld x5 r0_2)) (k0_pay4 (View.ld x5 r0_2) (View.ld x4 r0_2)) (k0_pay22 (View.ld x1 r0_0) (View.ld x2 r0_0) (k0_pay6 (View.ld x0 r0_4)) (k0_pay7 (View.ld x0 r0_5)))) (k0_pay37 (View.ld x2 r0_0) (k0_pay3 (View.ld x5 r0_2)) (k0_pay35 (View.ld x1 r0_0) (View.ld x2 r0_0) (k0_pay4 (View.ld x5 r0_2) (View.ld x4 r0_2)) (k0_pay10 (View.ld x0 r0_8)) (k0_pay28 (View.ld x2 r0_0) (k0_pay3 (View.ld x5 r0_2)) (k0_pay27 (View.ld x1 r0_0) (View.ld x2 r0_0) (k0_pay4 (View.ld x5 r0_2) (View.ld x4 r0_2)) (k0_pay7 (View.ld x0 r0_5)) (k0_pay9 (View.ld x0 r0_7)))))))) x = Gblk x0 x1 x2 x3 x4 x5 x6 ((r0_30).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_30 x0 x1 x2 x3 x4 x5 x6 r c).trans ?_
  have h0 : (((r0_30).emb (ix3 (0 : Fin 1) r c)) 0).val = 6 := rfl
  have h1 : ((r0_30).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_30).emb (ix3 (0 : Fin 1) r c)) 2 = c := Fin.ext (by show 0 + 1 * c.val = c.val; omega)
  unfold Gblk
  rw [h0, h1, h2]
  rfl

theorem agree_29 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_29).shape.Idx, (k0_pay44 (View.ld x2 r0_0) (View.ld x3 r0_1) (k0_pay3 (View.ld x5 r0_2)) (k0_pay4 (View.ld x5 r0_2) (View.ld x4 r0_2)) (k0_pay5 (View.ld x6 r0_3)) (k0_pay42 (View.ld x1 r0_0) (View.ld x2 r0_0) (k0_pay3 (View.ld x5 r0_2)) (k0_pay4 (View.ld x5 r0_2) (View.ld x4 r0_2)) (k0_pay17 (View.ld x0 r0_15)) (k0_pay36 (View.ld x2 r0_0) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14)))) (constant S512x256 .f32 0x00000000#32))) x = Gblk x0 x1 x2 x3 x4 x5 x6 ((r0_29).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_29 x0 x1 x2 x3 x4 x5 x6 r c).trans ?_
  have h0 : (((r0_29).emb (ix3 (0 : Fin 1) r c)) 0).val = 5 := rfl
  have h1 : ((r0_29).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_29).emb (ix3 (0 : Fin 1) r c)) 2 = c := Fin.ext (by show 0 + 1 * c.val = c.val; omega)
  unfold Gblk
  rw [h0, h1, h2]
  rfl

theorem agree_28 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_28).shape.Idx, (k0_pay43 (View.ld x2 r0_0) (View.ld x3 r0_1) (k0_pay3 (View.ld x5 r0_2)) (k0_pay5 (View.ld x6 r0_3)) (k0_pay41 (View.ld x1 r0_0) (View.ld x2 r0_0) (k0_pay3 (View.ld x5 r0_2)) (k0_pay4 (View.ld x5 r0_2) (View.ld x4 r0_2)) (k0_pay10 (View.ld x0 r0_8)) (k0_pay35 (View.ld x1 r0_0) (View.ld x2 r0_0) (k0_pay4 (View.ld x5 r0_2) (View.ld x4 r0_2)) (k0_pay10 (View.ld x0 r0_8)) (k0_pay28 (View.ld x2 r0_0) (k0_pay3 (View.ld x5 r0_2)) (k0_pay27 (View.ld x1 r0_0) (View.ld x2 r0_0) (k0_pay4 (View.ld x5 r0_2) (View.ld x4 r0_2)) (k0_pay7 (View.ld x0 r0_5)) (k0_pay9 (View.ld x0 r0_7))))))) x = Gblk x0 x1 x2 x3 x4 x5 x6 ((r0_28).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_28 x0 x1 x2 x3 x4 x5 x6 r c).trans ?_
  have h0 : (((r0_28).emb (ix3 (0 : Fin 1) r c)) 0).val = 5 := rfl
  have h1 : ((r0_28).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_28).emb (ix3 (0 : Fin 1) r c)) 2 = c := Fin.ext (by show 0 + 1 * c.val = c.val; omega)
  unfold Gblk
  rw [h0, h1, h2]
  rfl

theorem agree_27 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_27).shape.Idx, (k0_pay40 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay17 (View.ld x0 r0_15)) (k0_pay36 (View.ld x2 r0_0) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14)))) (constant S512x256 .f32 0x00000000#32)) x = Gblk x0 x1 x2 x3 x4 x5 x6 ((r0_27).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_27 x0 x1 x2 x3 x4 x5 x6 r c).trans ?_
  have h0 : (((r0_27).emb (ix3 (0 : Fin 1) r c)) 0).val = 4 := rfl
  have h1 : ((r0_27).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_27).emb (ix3 (0 : Fin 1) r c)) 2 = c := Fin.ext (by show 0 + 1 * c.val = c.val; omega)
  unfold Gblk
  rw [h0, h1, h2]
  rfl

theorem agree_26 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_26).shape.Idx, (k0_pay39 (View.ld x2 r0_0) (View.ld x3 r0_1) (k0_pay3 (View.ld x5 r0_2)) (k0_pay5 (View.ld x6 r0_3)) (k0_pay35 (View.ld x1 r0_0) (View.ld x2 r0_0) (k0_pay4 (View.ld x5 r0_2) (View.ld x4 r0_2)) (k0_pay10 (View.ld x0 r0_8)) (k0_pay28 (View.ld x2 r0_0) (k0_pay3 (View.ld x5 r0_2)) (k0_pay27 (View.ld x1 r0_0) (View.ld x2 r0_0) (k0_pay4 (View.ld x5 r0_2) (View.ld x4 r0_2)) (k0_pay7 (View.ld x0 r0_5)) (k0_pay9 (View.ld x0 r0_7)))))) x = Gblk x0 x1 x2 x3 x4 x5 x6 ((r0_26).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_26 x0 x1 x2 x3 x4 x5 x6 r c).trans ?_
  have h0 : (((r0_26).emb (ix3 (0 : Fin 1) r c)) 0).val = 4 := rfl
  have h1 : ((r0_26).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_26).emb (ix3 (0 : Fin 1) r c)) 2 = c := Fin.ext (by show 0 + 1 * c.val = c.val; omega)
  unfold Gblk
  rw [h0, h1, h2]
  rfl

theorem agree_25 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_25).shape.Idx, (k0_pay34 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay16 (View.ld x0 r0_14)) (k0_pay29 (View.ld x1 r0_0) (View.ld x2 r0_0) (k0_pay3 (View.ld x5 r0_2)) (k0_pay4 (View.ld x5 r0_2) (View.ld x4 r0_2)) (k0_pay14 (View.ld x0 r0_12)) (k0_pay16 (View.ld x0 r0_14))) (constant S512x256 .f32 0x00000000#32)) x = Gblk x0 x1 x2 x3 x4 x5 x6 ((r0_25).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_25 x0 x1 x2 x3 x4 x5 x6 r c).trans ?_
  have h0 : (((r0_25).emb (ix3 (0 : Fin 1) r c)) 0).val = 3 := rfl
  have h1 : ((r0_25).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_25).emb (ix3 (0 : Fin 1) r c)) 2 = c := Fin.ext (by show 0 + 1 * c.val = c.val; omega)
  unfold Gblk
  rw [h0, h1, h2]
  rfl

theorem agree_24 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_24).shape.Idx, (k0_pay33 (View.ld x2 r0_0) (View.ld x3 r0_1) (k0_pay3 (View.ld x5 r0_2)) (k0_pay5 (View.ld x6 r0_3)) (k0_pay32 (View.ld x1 r0_0) (View.ld x2 r0_0) (k0_pay3 (View.ld x5 r0_2)) (k0_pay4 (View.ld x5 r0_2) (View.ld x4 r0_2)) (k0_pay9 (View.ld x0 r0_7)) (k0_pay27 (View.ld x1 r0_0) (View.ld x2 r0_0) (k0_pay4 (View.ld x5 r0_2) (View.ld x4 r0_2)) (k0_pay7 (View.ld x0 r0_5)) (k0_pay9 (View.ld x0 r0_7))))) x = Gblk x0 x1 x2 x3 x4 x5 x6 ((r0_24).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_24 x0 x1 x2 x3 x4 x5 x6 r c).trans ?_
  have h0 : (((r0_24).emb (ix3 (0 : Fin 1) r c)) 0).val = 3 := rfl
  have h1 : ((r0_24).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_24).emb (ix3 (0 : Fin 1) r c)) 2 = c := Fin.ext (by show 0 + 1 * c.val = c.val; omega)
  unfold Gblk
  rw [h0, h1, h2]
  rfl

theorem agree_23 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_23).shape.Idx, (k0_pay31 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay14 (View.ld x0 r0_12)) (k0_pay16 (View.ld x0 r0_14))) x = Gblk x0 x1 x2 x3 x4 x5 x6 ((r0_23).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_23 x0 x1 x2 x3 x4 x5 x6 r c).trans ?_
  have h0 : (((r0_23).emb (ix3 (0 : Fin 1) r c)) 0).val = 2 := rfl
  have h1 : ((r0_23).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_23).emb (ix3 (0 : Fin 1) r c)) 2 = c := Fin.ext (by show 0 + 1 * c.val = c.val; omega)
  unfold Gblk
  rw [h0, h1, h2]
  rfl

theorem agree_22 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_22).shape.Idx, (k0_pay30 (View.ld x2 r0_0) (View.ld x3 r0_1) (k0_pay3 (View.ld x5 r0_2)) (k0_pay5 (View.ld x6 r0_3)) (k0_pay27 (View.ld x1 r0_0) (View.ld x2 r0_0) (k0_pay4 (View.ld x5 r0_2) (View.ld x4 r0_2)) (k0_pay7 (View.ld x0 r0_5)) (k0_pay9 (View.ld x0 r0_7)))) x = Gblk x0 x1 x2 x3 x4 x5 x6 ((r0_22).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_22 x0 x1 x2 x3 x4 x5 x6 r c).trans ?_
  have h0 : (((r0_22).emb (ix3 (0 : Fin 1) r c)) 0).val = 2 := rfl
  have h1 : ((r0_22).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_22).emb (ix3 (0 : Fin 1) r c)) 2 = c := Fin.ext (by show 0 + 1 * c.val = c.val; omega)
  unfold Gblk
  rw [h0, h1, h2]
  rfl

theorem agree_21 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_21).shape.Idx, (k0_pay26 (View.ld x1 r0_0) (View.ld x2 r0_0) (View.ld x3 r0_1) (k0_pay3 (View.ld x5 r0_2)) (k0_pay4 (View.ld x5 r0_2) (View.ld x4 r0_2)) (k0_pay5 (View.ld x6 r0_3)) (k0_pay13 (View.ld x0 r0_11)) (k0_pay14 (View.ld x0 r0_12))) x = Gblk x0 x1 x2 x3 x4 x5 x6 ((r0_21).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_21 x0 x1 x2 x3 x4 x5 x6 r c).trans ?_
  have h0 : (((r0_21).emb (ix3 (0 : Fin 1) r c)) 0).val = 1 := rfl
  have h1 : ((r0_21).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_21).emb (ix3 (0 : Fin 1) r c)) 2 = c := Fin.ext (by show 0 + 1 * c.val = c.val; omega)
  unfold Gblk
  rw [h0, h1, h2]
  rfl

theorem agree_20 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_20).shape.Idx, (k0_pay25 (View.ld x2 r0_0) (View.ld x3 r0_1) (k0_pay3 (View.ld x5 r0_2)) (k0_pay4 (View.ld x5 r0_2) (View.ld x4 r0_2)) (k0_pay5 (View.ld x6 r0_3)) (k0_pay22 (View.ld x1 r0_0) (View.ld x2 r0_0) (k0_pay6 (View.ld x0 r0_4)) (k0_pay7 (View.ld x0 r0_5)))) x = Gblk x0 x1 x2 x3 x4 x5 x6 ((r0_20).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_20 x0 x1 x2 x3 x4 x5 x6 r c).trans ?_
  have h0 : (((r0_20).emb (ix3 (0 : Fin 1) r c)) 0).val = 1 := rfl
  have h1 : ((r0_20).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_20).emb (ix3 (0 : Fin 1) r c)) 2 = c := Fin.ext (by show 0 + 1 * c.val = c.val; omega)
  unfold Gblk
  rw [h0, h1, h2]
  rfl

theorem agree_19 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_19).shape.Idx, (k0_pay21 (View.ld x3 r0_1) (k0_pay5 (View.ld x6 r0_3)) (View.ld x0 r0_11)) x = Gblk x0 x1 x2 x3 x4 x5 x6 ((r0_19).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_19 x0 x1 x2 x3 x4 x5 x6 r c).trans ?_
  have h0 : (((r0_19).emb (ix3 (0 : Fin 1) r c)) 0).val = 0 := rfl
  have h1 : ((r0_19).emb (ix3 (0 : Fin 1) r c)) 1 = ⟨512 * 1 + r.val, by have := r.isLt; show 512 * 1 + r.val < 1024; omega⟩ :=
    Fin.ext (by show 512 + 1 * r.val = 512 * 1 + r.val; omega)
  have h2 : ((r0_19).emb (ix3 (0 : Fin 1) r c)) 2 = c := Fin.ext (by show 0 + 1 * c.val = c.val; omega)
  unfold Gblk
  rw [h0, h1, h2]
  rfl

theorem agree_18 (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    ∀ x : (r0_18).shape.Idx, (k0_pay20 (View.ld x3 r0_1) (k0_pay5 (View.ld x6 r0_3)) (k0_pay6 (View.ld x0 r0_4))) x = Gblk x0 x1 x2 x3 x4 x5 x6 ((r0_18).emb x) := by
  intro x
  obtain ⟨u, r, c, rfl⟩ : ∃ (u : Fin 1) (r : Fin 512) (c : Fin 128), x = ix3 u r c := ⟨x 0, x 1, x 2, eq_ix3 x⟩
  obtain rfl : u = 0 := Subsingleton.elim _ _
  refine (piece_18 x0 x1 x2 x3 x4 x5 x6 r c).trans ?_
  have h0 : (((r0_18).emb (ix3 (0 : Fin 1) r c)) 0).val = 0 := rfl
  have h1 : ((r0_18).emb (ix3 (0 : Fin 1) r c)) 1 = ⟨512 * 0 + r.val, by have := r.isLt; show 512 * 0 + r.val < 1024; omega⟩ :=
    Fin.ext (by show 0 + 1 * r.val = 512 * 0 + r.val; omega)
  have h2 : ((r0_18).emb (ix3 (0 : Fin 1) r c)) 2 = c := Fin.ext (by show 0 + 1 * c.val = c.val; omega)
  unfold Gblk
  rw [h0, h1, h2]
  rfl

/-- WHAT THE BODY LEAVES in the output window's buffer: the 26 pieces are restrictions of `Gblk`, and they cover
    the buffer. -/
theorem out0_7_eq (x0 : Vec Ideal S7x1024x256 .f32) (x1 : Vec Ideal S256x256 .f32) (x2 : Vec Ideal S256x256 .f32) (x3 : Vec Ideal S128x256 .f32)
    (x4 : Vec Ideal S1x256 .f32) (x5 : Vec Ideal S1x256 .f32) (x6 : Vec Ideal S1x128 .f32) :
    out0_7 x0 x1 x2 x3 x4 x5 x6 = Gblk x0 x1 x2 x3 x4 x5 x6 := by
  funext y
  unfold out0_7
  refine View.canon_apply_of_pieces (Val := Elt Ideal) (Gblk x0 x1 x2 x3 x4 x5 x6) _ ?_ y (cover0_7 _ _ _ _ _ _ _ _ _ _ _ _ _ _ _ _ _ _ _ _ _ _ _ _ _ _ y)
  exact (List.forall_mem_cons.mpr ⟨agree_43 x0 x1 x2 x3 x4 x5 x6, (List.forall_mem_cons.mpr ⟨agree_42 x0 x1 x2 x3 x4 x5 x6, (List.forall_mem_cons.mpr ⟨agree_41 x0 x1 x2 x3 x4 x5 x6, (List.forall_mem_cons.mpr ⟨agree_40 x0 x1 x2 x3 x4 x5 x6, (List.forall_mem_cons.mpr ⟨agree_39 x0 x1 x2 x3 x4 x5 x6, (List.forall_mem_cons.mpr ⟨agree_38 x0 x1 x2 x3 x4 x5 x6, (List.forall_mem_cons.mpr ⟨agree_37 x0 x1 x2 x3 x4 x5 x6, (List.forall_mem_cons.mpr ⟨agree_36 x0 x1 x2 x3 x4 x5 x6, (List.forall_mem_cons.mpr ⟨agree_35 x0 x1 x2 x3 x4 x5 x6, (List.forall_mem_cons.mpr ⟨agree_34 x0 x1 x2 x3 x4 x5 x6, (List.forall_mem_cons.mpr ⟨agree_33 x0 x1 x2 x3 x4 x5 x6, (List.forall_mem_cons.mpr ⟨agree_32 x0 x1 x2 x3 x4 x5 x6, (List.forall_mem_cons.mpr ⟨agree_31 x0 x1 x2 x3 x4 x5 x6, (List.forall_mem_cons.mpr ⟨agree_30 x0 x1 x2 x3 x4 x5 x6, (List.forall_mem_cons.mpr ⟨agree_29 x0 x1 x2 x3 x4 x5 x6, (List.forall_mem_cons.mpr ⟨agree_28 x0 x1 x2 x3 x4 x5 x6, (List.forall_mem_cons.mpr ⟨agree_27 x0 x1 x2 x3 x4 x5 x6, (List.forall_mem_cons.mpr ⟨agree_26 x0 x1 x2 x3 x4 x5 x6, (List.forall_mem_cons.mpr ⟨agree_25 x0 x1 x2 x3 x4 x5 x6, (List.forall_mem_cons.mpr ⟨agree_24 x0 x1 x2 x3 x4 x5 x6, (List.forall_mem_cons.mpr ⟨agree_23 x0 x1 x2 x3 x4 x5 x6, (List.forall_mem_cons.mpr ⟨agree_22 x0 x1 x2 x3 x4 x5 x6, (List.forall_mem_cons.mpr ⟨agree_21 x0 x1 x2 x3 x4 x5 x6, (List.forall_mem_cons.mpr ⟨agree_20 x0 x1 x2 x3 x4 x5 x6, (List.forall_mem_cons.mpr ⟨agree_19 x0 x1 x2 x3 x4 x5 x6, (List.forall_mem_cons.mpr ⟨agree_18 x0 x1 x2 x3 x4 x5 x6, (by intro p hp; cases hp)⟩)⟩)⟩)⟩)⟩)⟩)⟩)⟩)⟩)⟩)⟩)⟩)⟩)⟩)⟩)⟩)⟩)⟩)⟩)⟩)⟩)⟩)⟩)⟩)⟩)⟩)

end Cert.KernelIdeal.Pieces

end
-- ==== Proof.KernelBlocks.lean ====
/-
  From the blocks the grid points write back to the whole result array.

  The grid has four points; point t stages rows 1024 t … 1024 t + 1023 of every node (the batch-major argument
  transposed to node-major by the host), the six weight and bias arrays whole (the biases reshaped to one-row
  matrices by the host), and writes back rows 1024 t … 1024 t + 1023 of all thirteen readouts.  What it writes back
  is the specification's result array read through that block; the four blocks cover the array.
-/
import proofs.«110702_g33526514713098_cont_8to1_b_1745_32_alg».proof.Proof.Gen.KernelIdeal.Value
import proofs.«110702_g33526514713098_cont_8to1_b_1745_32_alg».proof.Proof.KernelPieces
import Idealize.ShloMosaic.Lib.StableHlo.Run

set_option maxRecDepth 16384

noncomputable section

namespace Cert.KernelIdeal.Blocks

open Cert.KernelIdeal Cert.KernelIdeal.Gen Cert.KernelIdeal.Rows Cert.KernelIdeal.Pieces
open Idealize.ShloMosaic Idealize.ShloMosaic.TcCoe Idealize.SL.Sem Idealize.ShloMosaic.ValueIdx Cert.Walk
open Idealize.ShloMosaic.Pipeline (Dat)

variable (m : (ℓ : Loc nD τ sig) → Buf (Elt Ideal) ℓ) (ρ : Dev nD → PrngReg)

/-! ## The arrays the host operations write before the region -/

theorem V_v0 (c : Dev nD) : (V m c main_v0 : S7x4096x256.Idx → EReal)
    = transpose S7x4096x256 [1, 0, 2] (m ((c : Thread nD τ).loc main_arg0)) transposes_S4096x7x256_S7x4096x256_1_0_2 := by
  dsimp only [Gen.V, Gen.hostOps0]; after_results

theorem V_v1 (c : Dev nD) : (V m c main_v1 : S1x256.Idx → EReal)
    = shapeCast S1x256 (m ((c : Thread nD τ).loc main_arg2)) shapeCasts_S256_S1x256 := by
  dsimp only [Gen.V, Gen.hostOps0]; after_results; rfl

theorem V_v2 (c : Dev nD) : (V m c main_v2 : S1x256.Idx → EReal)
    = shapeCast S1x256 (m ((c : Thread nD τ).loc main_arg4)) shapeCasts_S256_S1x256 := by
  dsimp only [Gen.V, Gen.hostOps0]; after_results; rfl

theorem V_v3 (c : Dev nD) : (V m c main_v3 : S1x128.Idx → EReal)
    = shapeCast S1x128 (m ((c : Thread nD τ).loc main_arg6)) shapeCasts_S128_S1x128 := by
  dsimp only [Gen.V, Gen.hostOps0]; after_results; rfl

/-- The node-major array at (n, b, k) is the batch-major argument at (b, n, k). -/
theorem V_v0_apply (c : Dev nD) (n : Fin 7) (b : Fin 4096) (k : Fin 256) :
    (V m c main_v0 : S7x4096x256.Idx → EReal) (ix3 n b k)
      = (m ((c : Thread nD τ).loc main_arg0) : S4096x7x256.Idx → EReal) (ix3 b n k) := by
  rw [V_v0]
  exact transpose_apply _ _ _ _ _ fun a => match a with | ⟨0, _⟩ => rfl | ⟨1, _⟩ => rfl | ⟨2, _⟩ => rfl

/-! ## The index maps, decided over the four points -/

theorem idx_facts : ∀ t : Fin cfg0.N,
    win0_0.index t (0 : Fin 3) = 0
    ∧ win0_0.index t (1 : Fin 3) = t.val
    ∧ win0_0.index t (2 : Fin 3) = 0
    ∧ win0_7.index t (0 : Fin 3) = 0
    ∧ win0_7.index t (1 : Fin 3) = t.val
    ∧ win0_7.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

theorem t_lt (t : Fin cfg0.N) : t.val < 4 := lt_of_lt_of_eq t.isLt N_0

/-! ## The windows' blocks at a point -/

/-- Window 0's block at point t, at (n, r, k): row 1024 t + r of the batch, node n. -/
theorem iblk0_apply (c : Dev nD) (t : Fin cfg0.N) (n : Fin 7) (r : Fin 1024) (k : Fin 256) :
    (iblk m c 0 t : S7x1024x256.Idx → EReal) (ix3 n r k)
      = (m ((c : Thread nD τ).loc main_arg0) : S4096x7x256.Idx → EReal)
          (ix3 ⟨1024 * t.val + r.val, by have := t_lt t; have := r.isLt; omega⟩ n k) := by
  have hf := idx_facts t
  have ht := t_lt t
  unfold iblk
  rw [View.read_apply]
  show V m c main_v0 (((cfg0.win 0).blk t).view.emb (ix3 n r k)) = _
  have he : ((cfg0.win 0).blk t).view.emb (ix3 n r k)
      = ix3 n ⟨1024 * t.val + r.val, by have := r.isLt; omega⟩ k := by
    funext a; apply Fin.ext
    match a with
    | ⟨0, _⟩ => show win0_0.index t (0 : Fin 3) * 7 + 1 * n.val = n.val; rw [hf.1]; omega
    | ⟨1, _⟩ => show win0_0.index t (1 : Fin 3) * 1024 + 1 * r.val = 1024 * t.val + r.val; rw [hf.2.1]; omega
    | ⟨2, _⟩ => show win0_0.index t (2 : Fin 3) * 256 + 1 * k.val = k.val; rw [hf.2.2.1]; omega
  rw [he]
  exact V_v0_apply m c n _ k

/-- Window 1 stages its whole array at every point. -/
theorem iblk1_eq (c : Dev nD) (t : Fin cfg0.N) :
    (iblk m c 1 t : S256x256.Idx → EReal) = (V m c main_arg1 : S256x256.Idx → EReal) := by
  have hf := idx_facts t
  funext y
  unfold iblk
  rw [View.read_apply]
  show V m c main_arg1 (((cfg0.win 1).blk t).view.emb y) = V m c main_arg1 y
  congr 1
  funext a; apply Fin.ext
  match a with
  | ⟨0, _⟩ => show win0_1.index t (0 : Fin 2) * 256 + 1 * (y 0).val = (y 0).val; rw [hf.2.2.2.2.2.2.1]; omega
  | ⟨1, _⟩ => show win0_1.index t (1 : Fin 2) * 256 + 1 * (y 1).val = (y 1).val; rw [hf.2.2.2.2.2.2.2.1]; omega

/-- Window 2 stages its whole array at every point. -/
theorem iblk2_eq (c : Dev nD) (t : Fin cfg0.N) :
    (iblk m c 2 t : S256x256.Idx → EReal) = (V m c main_arg3 : S256x256.Idx → EReal) := by
  have hf := idx_facts t
  funext y
  unfold iblk
  rw [View.read_apply]
  show V m c main_arg3 (((cfg0.win 2).blk t).view.emb y) = V m c main_arg3 y
  congr 1
  funext a; apply Fin.ext
  match a with
  | ⟨0, _⟩ => show win0_2.index t (0 : Fin 2) * 256 + 1 * (y 0).val = (y 0).val; rw [hf.2.2.2.2.2.2.2.2.1]; omega
  | ⟨1, _⟩ => show win0_2.index t (1 : Fin 2) * 256 + 1 * (y 1).val = (y 1).val; rw [hf.2.2.2.2.2.2.2.2.2.1]; omega

/-- Window 3 stages its whole array at every point. -/
theorem iblk3_eq (c : Dev nD) (t : Fin cfg0.N) :
    (iblk m c 3 t : S128x256.Idx → EReal) = (V m c main_arg5 : S128x256.Idx → EReal) := by
  have hf := idx_facts t
  funext y
  unfold iblk
  rw [View.read_apply]
  show V m c main_arg5 (((cfg0.win 3).blk t).view.emb y) = V m c main_arg5 y
  congr 1
  funext a; apply Fin.ext
  match a with
  | ⟨0, _⟩ => show win0_3.index t (0 : Fin 2) * 128 + 1 * (y 0).val = (y 0).val; rw [hf.2.2.2.2.2.2.2.2.2.2.1]; omega
  | ⟨1, _⟩ => show win0_3.index t (1 : Fin 2) * 256 + 1 * (y 1).val = (y 1).val; rw [hf.2.2.2.2.2.2.2.2.2.2.2.1]; omega

/-- Window 4 stages its whole array at every point. -/
theorem iblk4_eq (c : Dev nD) (t : Fin cfg0.N) :
    (iblk m c 4 t : S1x256.Idx → EReal) = (V m c main_v1 : S1x256.Idx → EReal) := by
  have hf := idx_facts t
  funext y
  unfold iblk
  rw [View.read_apply]
  show V m c main_v1 (((cfg0.win 4).blk t).view.emb y) = V m c main_v1 y
  congr 1
  funext a; apply Fin.ext
  match a with
  | ⟨0, _⟩ => show win0_4.index t (0 : Fin 2) * 1 + 1 * (y 0).val = (y 0).val; rw [hf.2.2.2.2.2.2.2.2.2.2.2.2.1]; omega
  | ⟨1, _⟩ => show win0_4.index t (1 : Fin 2) * 256 + 1 * (y 1).val = (y 1).val; rw [hf.2.2.2.2.2.2.2.2.2.2.2.2.2.1]; omega

/-- Window 5 stages its whole array at every point. -/
theorem iblk5_eq (c : Dev nD) (t : Fin cfg0.N) :
    (iblk m c 5 t : S1x256.Idx → EReal) = (V m c main_v2 : S1x256.Idx → EReal) := by
  have hf := idx_facts t
  funext y
  unfold iblk
  rw [View.read_apply]
  show V m c main_v2 (((cfg0.win 5).blk t).view.emb y) = V m c main_v2 y
  congr 1
  funext a; apply Fin.ext
  match a with
  | ⟨0, _⟩ => show win0_5.index t (0 : Fin 2) * 1 + 1 * (y 0).val = (y 0).val; rw [hf.2.2.2.2.2.2.2.2.2.2.2.2.2.2.1]; omega
  | ⟨1, _⟩ => show win0_5.index t (1 : Fin 2) * 256 + 1 * (y 1).val = (y 1).val; rw [hf.2.2.2.2.2.2.2.2.2.2.2.2.2.2.2.1]; omega

/-- Window 6 stages its whole array at every point. -/
theorem iblk6_eq (c : Dev nD) (t : Fin cfg0.N) :
    (iblk m c 6 t : S1x128.Idx → EReal) = (V m c main_v3 : S1x128.Idx → EReal) := by
  have hf := idx_facts t
  funext y
  unfold iblk
  rw [View.read_apply]
  show V m c main_v3 (((cfg0.win 6).blk t).view.emb y) = V m c main_v3 y
  congr 1
  funext a; apply Fin.ext
  match a with
  | ⟨0, _⟩ => show win0_6.index t (0 : Fin 2) * 1 + 1 * (y 0).val = (y 0).val; rw [hf.2.2.2.2.2.2.2.2.2.2.2.2.2.2.2.2.1]; omega
  | ⟨1, _⟩ => show win0_6.index t (1 : Fin 2) * 128 + 1 * (y 1).val = (y 1).val; rw [hf.2.2.2.2.2.2.2.2.2.2.2.2.2.2.2.2.2]; omega

/-! ## What a point writes back -/

/-- The biases as the body finds them (one-row matrices) are the bias vectors. -/
theorem blkParams_eq (c : Dev nD) (t : Fin cfg0.N) :
    blkParams (iblk m c 1 t) (iblk m c 2 t) (iblk m c 3 t) (iblk m c 4 t) (iblk m c 5 t) (iblk m c 6 t)
      = paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [iblk1_eq, iblk2_eq, iblk3_eq, iblk4_eq, iblk5_eq, iblk6_eq, V_main_arg1, V_main_arg3, V_main_arg5, V_v1, V_v2, V_v3]
  unfold blkParams paramsOf
  congr 1
  · funext j; exact shapeCast_a_1a_apply _ _ _ _
  · funext j; exact shapeCast_a_1a_apply _ _ _ _
  · funext j; exact shapeCast_a_1a_apply _ _ _ _

/-- WHAT POINT t WRITES BACK is block t of the specification's result array of the arguments. -/
theorem flushed_eq (c : Dev nD) (t : Fin cfg0.N) :
    (dats m 0 c).flushed 7 t = ((cfg0.win 7).blk t).view.read (Elt Ideal)
      (Cert.Walk.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have hf := idx_facts t
  have ht := t_lt t
  rw [Cert.KernelIdeal.Value.flushed7, out0_7_eq]
  funext y
  obtain ⟨e, r, q, rfl⟩ : ∃ (e : Fin 13) (r : Fin 1024) (q : Fin 128), y = ix3 e r q := ⟨y 0, y 1, y 2, eq_ix3 y⟩
  show Gblk (iblk m c 0 t) (iblk m c 1 t) (iblk m c 2 t) (iblk m c 3 t) (iblk m c 4 t) (iblk m c 5 t) (iblk m c 6 t) (ix3 e r q)
    = (Cert.Walk.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb (ix3 e r q))
  have he : ((cfg0.win 7).blk t).view.emb (ix3 e r q)
      = ix3 e ⟨1024 * t.val + r.val, by have := r.isLt; omega⟩ q := by
    funext a; apply Fin.ext
    match a with
    | ⟨0, _⟩ => show win0_7.index t (0 : Fin 3) * 13 + 1 * e.val = e.val; rw [hf.2.2.2.1]; omega
    | ⟨1, _⟩ => show win0_7.index t (1 : Fin 3) * 1024 + 1 * r.val = 1024 * t.val + r.val; rw [hf.2.2.2.2.1]; omega
    | ⟨2, _⟩ => show win0_7.index t (2 : Fin 3) * 128 + 1 * q.val = q.val; rw [hf.2.2.2.2.2.1]; omega
  rw [he]
  unfold Gblk Cert.Walk.G
  rw [outK_eq_out, blkParams_eq]
  have hrow : (fun n k => (iblk m c 0 t : S7x1024x256.Idx → EReal) (ix3 n r k))
      = rowOf (m ((c : Thread nD τ).loc main_arg0)) ⟨1024 * t.val + r.val, by have := r.isLt; omega⟩ := by
    funext n k; exact iblk0_apply m c t n r k
  exact congrArg (fun h => out _ h e.val q) hrow

/-! ## The four blocks cover the array -/

theorem final (c : Dev nD) : (dats m 0 c).arrAt 7 cfg0.N = Cert.Walk.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq m c t) fun i => by
    have h1 : (i 1).val < 4096 := (i 1).isLt
    have h0 : (i 0).val < 13 := (i 0).isLt
    have h2 : (i 2).val < 128 := (i 2).isLt
    let t : Fin cfg0.N := ⟨(i 1).val / 1024, lt_of_lt_of_eq (by omega) N_0.symm⟩
    have hf := idx_facts t
    refine ⟨t, flush0_7 t, ?_⟩
    show i ∈ ((View.whole main_v4).slice (win0_7.rect t)).set
    rw [View.set_slice_whole, Rect.mem_set_unit]
    intro a
    match a with
    | ⟨0, _⟩ => show win0_7.index t (0 : Fin 3) * 13 ≤ (i 0).val ∧ (i 0).val < win0_7.index t (0 : Fin 3) * 13 + 13; rw [hf.2.2.2.1]; omega
    | ⟨1, _⟩ => show win0_7.index t (1 : Fin 3) * 1024 ≤ (i 1).val ∧ (i 1).val < win0_7.index t (1 : Fin 3) * 1024 + 1024; rw [hf.2.2.2.2.1]; show (i 1).val / 1024 * 1024 ≤ (i 1).val ∧ (i 1).val < (i 1).val / 1024 * 1024 + 1024; omega
    | ⟨2, _⟩ => show win0_7.index t (2 : Fin 3) * 128 ≤ (i 2).val ∧ (i 2).val < win0_7.index t (2 : Fin 3) * 128 + 128; rw [hf.2.2.2.2.2.1]; omega

/-! ## The run, read -/

/-- Every weakly fair execution of the idealized kernel ends with the result array at the specification's function
    of the argument arrays, the arguments unchanged. -/
theorem run : θ_run defs (onTc (τ := τ) (main (F := Ideal))) ⟨m, fun _ => 0, ρ⟩ fun r => ∀ c : Dev nD,
      r.2.mem ((c : Thread nD τ).loc main_v4) = (Cert.Walk.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Blocks

end
-- ==== Proof.LibStaticScatter.lean ====
/- A block of rows combined into the top of a larger array, read at an index. The host's scatter with ONE scatter index
   takes the update's entries in row-major order and combines each, by the scatter's own function, into the operand's
   entry it lands on. When no two update entries land on one operand entry the order does not matter: an operand entry
   on which one update entry lands is combined with it once, every other entry is left as it was. For a [k, dd] block
   scattered whole at the start index 0 into an [n, dd] array (k ≤ n), entry (r, q) of the result is the operand's
   entry combined with the block's entry (r, q) when r < k, and the operand's entry otherwise. Stated over abstract
   sizes, for every type of entry and every combining function; at the ideal values with addition it is a sum. -/
import Idealize.ShloMosaic.Lib.ValueIdx
import Idealize.ShloMosaic.PureOps.Ideal
import Idealize.ShloMosaic.PureOps.Ideal.Laws

noncomputable section

open scoped BigOperators

namespace Cert.Lib.StaticScatter

open Idealize.ShloMosaic Idealize.ShloMosaic.ValueIdx

variable {α : Type}

/-! ## A block of rows combined into the top of a larger array

The host's scatter with ONE scatter index takes the update's entries in row-major order and combines each, by the
scatter's own function, into the operand's entry it lands on. When no two update entries land on one operand entry
the order does not matter: an operand entry on which one update entry lands is combined with it once, every other
entry is left as it was. -/

/-- A left fold of steps that leave entry i alone, read at i: the starting entry. -/
theorem foldl_apply_of_no_hit {β ι : Type} (g : (ι → α) → β → (ι → α)) (i : ι) (hit : β → Prop)
    (hg0 : ∀ r n, ¬ hit n → g r n i = r i) :
    ∀ (l : List β) (r : ι → α), (∀ n ∈ l, ¬ hit n) → l.foldl g r i = r i
  | [], _, _ => rfl
  | n :: l, r, hl => by
    rw [List.foldl_cons, foldl_apply_of_no_hit g i hit hg0 l (g r n) (fun m hm => hl m (List.mem_cons_of_mem _ hm))]
    exact hg0 r n (hl n (List.mem_cons.2 (Or.inl rfl)))

/-- A left fold over a list without repeats in which exactly one step, n0, touches entry i, read at i: the starting
    entry combined once with that step's value. -/
theorem foldl_apply_of_one_hit {β ι : Type} (f : α → α → α) (g : (ι → α) → β → (ι → α)) (i : ι) (hit : β → Prop)
    (v : β → α) (hg0 : ∀ r n, ¬ hit n → g r n i = r i) (hg1 : ∀ r n, hit n → g r n i = f (r i) (v n))
    (n0 : β) (h0 : hit n0) :
    ∀ (l : List β) (r : ι → α), l.Nodup → n0 ∈ l → (∀ n ∈ l, hit n → n = n0) → l.foldl g r i = f (r i) (v n0)
  | [], _, _, hm, _ => absurd hm List.not_mem_nil
  | n :: l, r, hnd, hm, huniq => by
    rw [List.foldl_cons]
    have hnd' := List.nodup_cons.1 hnd
    by_cases hn : n = n0
    · have hno : ∀ m ∈ l, ¬ hit m := fun m hml hhit => by
        have hm0 : m = n0 := huniq m (List.mem_cons_of_mem _ hml) hhit
        exact hnd'.1 (by rw [hn, ← hm0]; exact hml)
      rw [foldl_apply_of_no_hit g i hit hg0 l (g r n) hno, hg1 r n (by rw [hn]; exact h0), hn]
    · have hnh : ¬ hit n := fun hhit => hn (huniq n (List.mem_cons.2 (Or.inl rfl)) hhit)
      have hml : n0 ∈ l := by
        rcases List.mem_cons.1 hm with e | e
        · exact absurd e.symm hn
        · exact e
      rw [foldl_apply_of_one_hit f g i hit v hg0 hg1 n0 h0 l (g r n) hnd'.2 hml
        (fun m hm' => huniq m (List.mem_cons_of_mem _ hm')), hg0 r n hnh]

section Scatter
variable {s si u : Shape} {w : Nat}

/-- The scatter read at an entry on which NO update entry lands: the operand's entry. -/
theorem scatter_apply_of_no_land (d : ScatterDims s si u) (f : α → α → α) (x : s.Idx → α) (idx : IVec si w)
    (upd : u.Idx → α) (i : s.Idx) (hno : ∀ j, d.resultIdx? j idx ≠ some i) :
    Host.scatter d f x idx upd i = x i := by
  unfold Host.scatter
  refine foldl_apply_of_no_hit _ i (fun n : Fin u.numel => d.resultIdx? (u.rowMajor.symm n) idx = some i) ?_
    (List.finRange u.numel) x (fun n _ => hno _)
  intro r n hn
  generalize d.resultIdx? (u.rowMajor.symm n) idx = o at hn
  cases o with
  | none => rfl
  | some i0 =>
    dsimp only
    rw [if_neg (fun e => hn (by rw [e]))]

/-- The scatter read at an entry on which EXACTLY ONE update entry, j, lands: the operand's entry combined with the
    update's entry j. -/
theorem scatter_apply_of_lands (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  unfold Host.scatter
  refine (foldl_apply_of_one_hit f _ i (fun n : Fin u.numel => d.resultIdx? (u.rowMajor.symm n) idx = some i)
    (fun n => upd (u.rowMajor.symm n)) ?_ ?_ (u.rowMajor j) (by rw [Equiv.symm_apply_apply]; exact hj)
    (List.finRange u.numel) x (List.nodup_finRange _) (List.mem_finRange _) ?_).trans ?_
  · intro r n hn
    generalize d.resultIdx? (u.rowMajor.symm n) idx = o at hn
    cases o with
    | none => rfl
    | some i0 =>
      dsimp only
      rw [if_neg (fun e => hn (by rw [e]))]
  · intro r n hn
    rw [hn]
    dsimp only
    rw [if_pos rfl]
  · intro n _ hn
    have := huniq _ hn
    rw [← this, Equiv.apply_symm_apply]
  · rw [Equiv.symm_apply_apply]

end Scatter

/-- The dimension numbers of a scatter of a WHOLE [k, dd] block at one start index: both axes of the update are window
    axes, no axis of the operand is inserted, and the one-component start index names the row axis. -/
abbrev topRowsScatterDims (n dd k : Nat)
    (wf : ScatterDims.WF ⟨2, ![n, dd]⟩ ⟨1, ![1]⟩ ⟨2, ![k, dd]⟩ [0, 1] [] [0] 0) :
    ScatterDims ⟨2, ![n, dd]⟩ ⟨1, ![1]⟩ ⟨2, ![k, dd]⟩ where
  updateWindowDims := [0, 1]
  insertedWindowDims := []
  scatterDimsToOperandDims := [0]
  indexVectorDim := 0
  wf := wf

/-- With the start index 0, update entry (p, q) lands on operand entry (p, q). -/
theorem resultIdx_topRows {n dd k w : Nat} (hk : k ≤ n)
    (wf : ScatterDims.WF ⟨2, ![n, dd]⟩ ⟨1, ![1]⟩ ⟨2, ![k, dd]⟩ [0, 1] [] [0] 0)
    (i : IVec ⟨1, ![1]⟩ w) (hi0 : (i (ix1 (0 : Fin 1))).toInt = 0) (p : Fin k) (q : Fin dd) :
    (topRowsScatterDims n dd k wf).resultIdx? (ix2 p q) i
      = some (ix2 ⟨p.val, Nat.lt_of_lt_of_le p.isLt hk⟩ q) := by
  have hsi : (topRowsScatterDims n dd k wf).siIdx (ix2 p q)
      ⟨List.idxOf (0 : Fin 2) (topRowsScatterDims n dd k wf).scatterDimsToOperandDims,
        List.idxOf_lt_length_iff.2 (List.mem_singleton.mpr rfl)⟩ = ix1 (0 : Fin 1) := by
    funext b; refine Fin.ext ?_
    match b with
    | ⟨0, _⟩ => rfl
  have s0 : (topRowsScatterDims n dd k wf).start (ix2 p q) i (0 : Fin 2) = 0 := by
    unfold ScatterDims.start
    rw [dif_pos (show (0 : Fin 2) ∈ (topRowsScatterDims n dd k wf).scatterDimsToOperandDims from List.mem_singleton.mpr rfl),
      hsi, hi0]
  have s1 : (topRowsScatterDims n dd k wf).start (ix2 p q) i (1 : Fin 2) = 0 := by
    unfold ScatterDims.start
    rw [dif_neg (show (1 : Fin 2) ∉ ([0] : List (Fin 2)) by decide)]
  have k0 : (0 : Fin 2) ∈ (topRowsScatterDims n dd k wf).sKept := by
    simp [ScatterDims.sKept, Shape.kept, List.mem_filter, List.mem_finRange]
  have k1 : (1 : Fin 2) ∈ (topRowsScatterDims n dd k wf).sKept := by
    simp [ScatterDims.sKept, Shape.kept, List.mem_filter, List.mem_finRange]
  have w0 : (topRowsScatterDims n dd k wf).window (ix2 p q) (0 : Fin 2) = p.val := by
    unfold ScatterDims.window
    rw [dif_pos k0]
    rfl
  have w1 : (topRowsScatterDims n dd k wf).window (ix2 p q) (1 : Fin 2) = q.val := by
    unfold ScatterDims.window
    rw [dif_pos k1]
    rfl
  have hp : p.val < n := Nat.lt_of_lt_of_le p.isLt hk
  have hq : q.val < dd := q.isLt
  unfold ScatterDims.resultIdx?
  have hall : ∀ a, 0 ≤ (topRowsScatterDims n dd k wf).start (ix2 p q) i a + (topRowsScatterDims n dd k wf).window (ix2 p q) a
      ∧ (topRowsScatterDims n dd k wf).start (ix2 p q) i a + (topRowsScatterDims n dd k wf).window (ix2 p q) a
        < ((⟨2, ![n, dd]⟩ : Shape).size a : Int) := by
    intro a
    match a with
    | ⟨0, _⟩ =>
      show 0 ≤ (topRowsScatterDims n dd k wf).start (ix2 p q) i (0 : Fin 2) + ((topRowsScatterDims n dd k wf).window (ix2 p q) (0 : Fin 2) : Int)
        ∧ (topRowsScatterDims n dd k wf).start (ix2 p q) i (0 : Fin 2) + ((topRowsScatterDims n dd k wf).window (ix2 p q) (0 : Fin 2) : Int) < (n : Int)
      rw [s0, w0]; omega
    | ⟨1, _⟩ =>
      show 0 ≤ (topRowsScatterDims n dd k wf).start (ix2 p q) i (1 : Fin 2) + ((topRowsScatterDims n dd k wf).window (ix2 p q) (1 : Fin 2) : Int)
        ∧ (topRowsScatterDims n dd k wf).start (ix2 p q) i (1 : Fin 2) + ((topRowsScatterDims n dd k wf).window (ix2 p q) (1 : Fin 2) : Int) < (dd : Int)
      rw [s1, w1]; omega
  rw [dif_pos hall]
  congr 1
  funext a; refine Fin.ext ?_
  match a with
  | ⟨0, _⟩ =>
    show ((topRowsScatterDims n dd k wf).start (ix2 p q) i (0 : Fin 2) + ((topRowsScatterDims n dd k wf).window (ix2 p q) (0 : Fin 2) : Int)).toNat = p.val
    rw [s0, w0]; omega
  | ⟨1, _⟩ =>
    show ((topRowsScatterDims n dd k wf).start (ix2 p q) i (1 : Fin 2) + ((topRowsScatterDims n dd k wf).window (ix2 p q) (1 : Fin 2) : Int)).toNat = q.val
    rw [s1, w1]; omega

/-- THE BLOCK COMBINED INTO THE TOP ROWS, READ AT (r, q): the operand's entry combined with the block's entry (r, q)
    when row r is one of the block's k rows, the operand's entry otherwise. For every combining function. -/
theorem scatter_topRows_apply {n dd k w : Nat} (f : α → α → α) (hk : k ≤ n)
    (wf : ScatterDims.WF ⟨2, ![n, dd]⟩ ⟨1, ![1]⟩ ⟨2, ![k, dd]⟩ [0, 1] [] [0] 0)
    (x : (⟨2, ![n, dd]⟩ : Shape).Idx → α) (i : IVec ⟨1, ![1]⟩ w) (u : (⟨2, ![k, dd]⟩ : Shape).Idx → α)
    (hi0 : (i (ix1 (0 : Fin 1))).toInt = 0) (r : Fin n) (q : Fin dd) :
    Host.scatter (topRowsScatterDims n dd k wf) f x i u (ix2 r q)
      = if h : r.val < k then f (x (ix2 r q)) (u (ix2 ⟨r.val, h⟩ q)) else x (ix2 r q) := by
  by_cases h : r.val < k
  · rw [dif_pos h]
    refine scatter_apply_of_lands _ f x i u (ix2 r q) (ix2 ⟨r.val, h⟩ q)
      (resultIdx_topRows hk wf i hi0 ⟨r.val, h⟩ q) (fun j' hj' => ?_)
    obtain ⟨p, q', rfl⟩ : ∃ (p : Fin k) (q' : Fin dd), j' = ix2 p q' := ⟨j' 0, j' 1, eq_ix2 j'⟩
    rw [resultIdx_topRows hk wf i hi0 p q'] at hj'
    have e := Option.some.inj hj'
    have e0 : p.val = r.val := congrArg (fun t => (t (0 : Fin 2)).val) e
    have e1 : q'.val = q.val := congrArg (fun t => (t (1 : Fin 2)).val) e
    have a0 : p = ⟨r.val, h⟩ := Fin.ext e0
    have a1 : q' = q := Fin.ext e1
    rw [a0, a1]
  · rw [dif_neg h]
    refine scatter_apply_of_no_land _ f x i u (ix2 r q) (fun j' hj' => ?_)
    obtain ⟨p, q', rfl⟩ : ∃ (p : Fin k) (q' : Fin dd), j' = ix2 p q' := ⟨j' 0, j' 1, eq_ix2 j'⟩
    rw [resultIdx_topRows hk wf i hi0 p q'] at hj'
    have e := Option.some.inj hj'
    have e0 : p.val = r.val := congrArg (fun t => (t (0 : Fin 2)).val) e
    have := p.isLt
    exact h (by omega)

/-- The same at the ideal values with addition as the combining function: the block is ADDED into the top k rows. -/
theorem scatter_topRows_add_apply {n dd k w : Nat} {φ : FTy} (hk : k ≤ n)
    (wf : ScatterDims.WF ⟨2, ![n, dd]⟩ ⟨1, ![1]⟩ ⟨2, ![k, dd]⟩ [0, 1] [] [0] 0)
    (x : FVec Ideal ⟨2, ![n, dd]⟩ φ) (i : IVec ⟨1, ![1]⟩ w) (u : FVec Ideal ⟨2, ![k, dd]⟩ φ)
    (hi0 : (i (ix1 (0 : Fin 1))).toInt = 0) (r : Fin n) (q : Fin dd) :
    Host.scatter (topRowsScatterDims n dd k wf) FloatOps.addf x i u (ix2 r q)
      = if h : r.val < k then x (ix2 r q) + u (ix2 ⟨r.val, h⟩ q) else x (ix2 r q) :=
  scatter_topRows_apply FloatOps.addf hk wf x i u hi0 r q

end Cert.Lib.StaticScatter

end
-- ==== Proof.LibColumnSet.lean ====
/-
  A block written into one column of a stack of rows, read at an entry.

  The host's scatter with ONE scatter index whose update is a [B, D] block, both of its axes window axes, into a
  [B, N, D] array whose middle axis is the inserted one and the one the start index names: update entry (p, q)
  lands on operand entry (p, c, q), c the start index.  No two update entries land on one operand entry, so the
  result at (b, n, k) is the scatter's function of the operand's entry and the block's entry (b, k) when n = c, and
  the operand's entry otherwise.  With the function that returns the update, column c is replaced by the block.
  Abstract sizes, any type of entry.
-/
import proofs.«110702_g33526514713098_cont_8to1_b_1745_32_alg».proof.Proof.LibStaticScatter

noncomputable section

namespace Cert.Lib.ColumnSet

open Idealize.ShloMosaic Idealize.ShloMosaic.ValueIdx Cert.Lib.StaticScatter

variable {α : Type}

/-- The dimension numbers: the update's two axes are window axes, the operand's middle axis is inserted and is the
    axis the one-component start index names. -/
abbrev colScatterDims (B N D : Nat)
    (wf : ScatterDims.WF ⟨3, ![B, N, D]⟩ ⟨1, ![1]⟩ ⟨2, ![B, D]⟩ [0, 1] [1] [1] 0) :
    ScatterDims ⟨3, ![B, N, D]⟩ ⟨1, ![1]⟩ ⟨2, ![B, D]⟩ where
  updateWindowDims := [0, 1]
  insertedWindowDims := [1]
  scatterDimsToOperandDims := [1]
  indexVectorDim := 0
  wf := wf

/-- With the start index c, update entry (p, q) lands on operand entry (p, c, q). -/
theorem resultIdx_col {B N D w : Nat}
    (wf : ScatterDims.WF ⟨3, ![B, N, D]⟩ ⟨1, ![1]⟩ ⟨2, ![B, D]⟩ [0, 1] [1] [1] 0)
    (i : IVec ⟨1, ![1]⟩ w) (c : Fin N) (hi : (i (ix1 (0 : Fin 1))).toInt = (c.val : Int)) (p : Fin B) (q : Fin D) :
    (colScatterDims B N D wf).resultIdx? (ix2 p q) i = some (ix3 p c q) := by
  have hsi : (colScatterDims B N D wf).siIdx (ix2 p q)
      ⟨List.idxOf (1 : Fin 3) (colScatterDims B N D wf).scatterDimsToOperandDims,
        List.idxOf_lt_length_iff.2 (List.mem_singleton.mpr rfl)⟩ = ix1 (0 : Fin 1) := by
    funext b; refine Fin.ext ?_
    match b with
    | ⟨0, _⟩ => rfl
  have s1 : (colScatterDims B N D wf).start (ix2 p q) i (1 : Fin 3) = (c.val : Int) := by
    unfold ScatterDims.start
    rw [dif_pos (show (1 : Fin 3) ∈ (colScatterDims B N D wf).scatterDimsToOperandDims from List.mem_singleton.mpr rfl),
      hsi, hi]
  have s0 : (colScatterDims B N D wf).start (ix2 p q) i (0 : Fin 3) = 0 := by
    unfold ScatterDims.start
    rw [dif_neg (show (0 : Fin 3) ∉ ([1] : List (Fin 3)) by decide)]
  have s2 : (colScatterDims B N D wf).start (ix2 p q) i (2 : Fin 3) = 0 := by
    unfold ScatterDims.start
    rw [dif_neg (show (2 : Fin 3) ∉ ([1] : List (Fin 3)) by decide)]
  have k0 : (0 : Fin 3) ∈ (colScatterDims B N D wf).sKept := by
    simp [ScatterDims.sKept, Shape.kept, List.mem_filter, List.mem_finRange]
  have k1 : (1 : Fin 3) ∉ (colScatterDims B N D wf).sKept := by
    simp [ScatterDims.sKept, Shape.kept, List.mem_filter, List.mem_finRange]
  have k2 : (2 : Fin 3) ∈ (colScatterDims B N D wf).sKept := by
    simp [ScatterDims.sKept, Shape.kept, List.mem_filter, List.mem_finRange]
  have w0 : (colScatterDims B N D wf).window (ix2 p q) (0 : Fin 3) = p.val := by
    unfold ScatterDims.window
    rw [dif_pos k0]
    rfl
  have w1 : (colScatterDims B N D wf).window (ix2 p q) (1 : Fin 3) = 0 := by
    unfold ScatterDims.window
    rw [dif_neg k1]
  have w2 : (colScatterDims B N D wf).window (ix2 p q) (2 : Fin 3) = q.val := by
    unfold ScatterDims.window
    rw [dif_pos k2]
    rfl
  have hp : p.val < B := p.isLt
  have hc : c.val < N := c.isLt
  have hq : q.val < D := q.isLt
  unfold ScatterDims.resultIdx?
  have hall : ∀ a, 0 ≤ (colScatterDims B N D wf).start (ix2 p q) i a + (colScatterDims B N D wf).window (ix2 p q) a
      ∧ (colScatterDims B N D wf).start (ix2 p q) i a + (colScatterDims B N D wf).window (ix2 p q) a
        < ((⟨3, ![B, N, D]⟩ : Shape).size a : Int) := by
    intro a
    match a with
    | ⟨0, _⟩ =>
      show 0 ≤ (colScatterDims B N D wf).start (ix2 p q) i (0 : Fin 3) + ((colScatterDims B N D wf).window (ix2 p q) (0 : Fin 3) : Int)
        ∧ (colScatterDims B N D wf).start (ix2 p q) i (0 : Fin 3) + ((colScatterDims B N D wf).window (ix2 p q) (0 : Fin 3) : Int) < (B : Int)
      rw [s0, w0]; omega
    | ⟨1, _⟩ =>
      show 0 ≤ (colScatterDims B N D wf).start (ix2 p q) i (1 : Fin 3) + ((colScatterDims B N D wf).window (ix2 p q) (1 : Fin 3) : Int)
        ∧ (colScatterDims B N D wf).start (ix2 p q) i (1 : Fin 3) + ((colScatterDims B N D wf).window (ix2 p q) (1 : Fin 3) : Int) < (N : Int)
      rw [s1, w1]; omega
    | ⟨2, _⟩ =>
      show 0 ≤ (colScatterDims B N D wf).start (ix2 p q) i (2 : Fin 3) + ((colScatterDims B N D wf).window (ix2 p q) (2 : Fin 3) : Int)
        ∧ (colScatterDims B N D wf).start (ix2 p q) i (2 : Fin 3) + ((colScatterDims B N D wf).window (ix2 p q) (2 : Fin 3) : Int) < (D : Int)
      rw [s2, w2]; omega
  rw [dif_pos hall]
  congr 1
  funext a; refine Fin.ext ?_
  match a with
  | ⟨0, _⟩ =>
    show ((colScatterDims B N D wf).start (ix2 p q) i (0 : Fin 3) + ((colScatterDims B N D wf).window (ix2 p q) (0 : Fin 3) : Int)).toNat = p.val
    rw [s0, w0]; omega
  | ⟨1, _⟩ =>
    show ((colScatterDims B N D wf).start (ix2 p q) i (1 : Fin 3) + ((colScatterDims B N D wf).window (ix2 p q) (1 : Fin 3) : Int)).toNat = c.val
    rw [s1, w1]; omega
  | ⟨2, _⟩ =>
    show ((colScatterDims B N D wf).start (ix2 p q) i (2 : Fin 3) + ((colScatterDims B N D wf).window (ix2 p q) (2 : Fin 3) : Int)).toNat = q.val
    rw [s2, w2]; omega

/-- THE BLOCK COMBINED INTO COLUMN c, READ AT (b, n, k). -/
theorem scatter_col_apply {B N D w : Nat} (f : α → α → α)
    (wf : ScatterDims.WF ⟨3, ![B, N, D]⟩ ⟨1, ![1]⟩ ⟨2, ![B, D]⟩ [0, 1] [1] [1] 0)
    (x : (⟨3, ![B, N, D]⟩ : Shape).Idx → α) (i : IVec ⟨1, ![1]⟩ w) (u : (⟨2, ![B, D]⟩ : Shape).Idx → α)
    (c : Fin N) (hi : (i (ix1 (0 : Fin 1))).toInt = (c.val : Int)) (b : Fin B) (n : Fin N) (k : Fin D) :
    Host.scatter (colScatterDims B N D wf) f x i u (ix3 b n k)
      = if n = c then f (x (ix3 b n k)) (u (ix2 b k)) else x (ix3 b n k) := by
  by_cases h : n = c
  · subst h
    rw [if_pos rfl]
    refine scatter_apply_of_lands _ f x i u (ix3 b n k) (ix2 b k) (resultIdx_col wf i n hi b k) (fun j' hj' => ?_)
    obtain ⟨p, q', rfl⟩ : ∃ (p : Fin B) (q' : Fin D), j' = ix2 p q' := ⟨j' 0, j' 1, eq_ix2 j'⟩
    rw [resultIdx_col wf i n hi p q'] at hj'
    have e := Option.some.inj hj'
    have e0 : p.val = b.val := congrArg (fun t => (t (0 : Fin 3)).val) e
    have e2 : q'.val = k.val := congrArg (fun t => (t (2 : Fin 3)).val) e
    rw [Fin.ext e0, Fin.ext e2]
  · rw [if_neg h]
    refine scatter_apply_of_no_land _ f x i u (ix3 b n k) (fun j' hj' => ?_)
    obtain ⟨p, q', rfl⟩ : ∃ (p : Fin B) (q' : Fin D), j' = ix2 p q' := ⟨j' 0, j' 1, eq_ix2 j'⟩
    rw [resultIdx_col wf i c hi p q'] at hj'
    have e := Option.some.inj hj'
    have e1 : c.val = n.val := congrArg (fun t => (t (1 : Fin 3)).val) e
    exact h (Fin.ext e1.symm)

end Cert.Lib.ColumnSet

end
-- ==== Proof.RefValue.lean ====
/-
  The reference's result term is the specification's function of its seven arguments.

  The reference walks a fixed tree of seven nodes, twelve edges in a fixed order.  Its program keeps the states of
  all rows of the batch in one [4096, 7, 256] array and, for an edge (u, v), rewrites column u three times: first
  with tanh ((Wu·h_u + bu) + (Wm·h_v + bm)), then twice with tanh (Wu·h_u + bu); after the edge it reads the class
  scores Wc·h_u + bc of column u.  Thirteen [4096, 128] score arrays, the root's before any edge and the updated
  node's after each edge, are stacked along a new leading axis.

  Read one row b of the batch at a time, each rewrite of a column is `Function.update` of the row's seven states
  at node u; the three rewrites of one edge compose to the specification's `step`; so the array after n edges is,
  row by row, `stateAt` n, and each score array is the specification's `out`.
-/
import proofs.«110702_g33526514713098_cont_8to1_b_1745_32_alg».proof.Proof.Gen.ReferenceIdeal.Run
import proofs.«110702_g33526514713098_cont_8to1_b_1745_32_alg».proof.Proof.Spec
import proofs.«110702_g33526514713098_cont_8to1_b_1745_32_alg».proof.Proof.LibDotRows
import proofs.«110702_g33526514713098_cont_8to1_b_1745_32_alg».proof.Proof.LibColumnSet
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value Cert.Walk Cert.Lib.DotRows Cert.Lib.ColumnSet

/-! ## Layout operations read at an entry -/

section Layout
variable {α : Type}

/-- An [a, 1, b] array cast to [a, b] reads, at (i, j), the operand at (i, 0, j): both have row-major position i·b + j. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Column c of a stack of rows, cut out along the middle axis and flattened, read at (r, k): the stack at (r, c, k). -/
theorem col_apply {B N D : ℕ} (u : ℕ) (c : Fin N) (hc : c.val = u)
    (H : (⟨3, ![B, N, D]⟩ : Shape).Idx → α)
    (hs : (⟨3, ![B, N, D]⟩ : Shape).Slices ![0, u, 0] ⟨3, ![B, 1, D]⟩)
    (hc' : (⟨3, ![B, 1, D]⟩ : Shape).ShapeCasts ⟨2, ![B, D]⟩) (r : Fin B) (k : Fin D) :
    shapeCast ⟨2, ![B, D]⟩ (extractStridedSlice ⟨3, ![B, 1, D]⟩ ![0, u, 0] H hs) hc' (ix2 r k) = H (ix3 r c k) :=
  (shapeCast_a1b_ab_apply _ hc' r k).trans
    (slice3_axis1_apply u H hs r (0 : Fin 1) k c (by rw [hc]; rfl))

/-- A vector broadcast to one row, and that row to R rows, reads at (r, j) the vector at j. -/
theorem bias2_apply {R N : ℕ} (hN : N ≠ 1) (v : (⟨1, ![N]⟩ : Shape).Idx → α)
    (h0 : (⟨1, ![N]⟩ : Shape).BroadcastsInDim ⟨2, ![1, N]⟩ (![1] : Fin 1 → Fin 2))
    (h1 : (⟨2, ![1, N]⟩ : Shape).BroadcastsInDim ⟨2, ![R, N]⟩ (![0, 1] : Fin 2 → Fin 2))
    (r : Fin R) (j : Fin N) :
    broadcastInDim ⟨2, ![R, N]⟩ ![0, 1] h1 (broadcastInDim ⟨2, ![1, N]⟩ ![1] h0 v) (ix2 r j) = v (ix1 j) := by
  refine (broadcastInDim_apply _ h1 _ (ix2 r j) (ix2 (0 : Fin 1) j) fun a => ?_).trans ?_
  · match a with
    | ⟨0, _⟩ => exact (if_pos rfl).symm
    | ⟨1, _⟩ => exact (if_neg hN).symm
  · refine broadcastInDim_apply _ h0 v (ix2 (0 : Fin 1) j) (ix1 j) fun a => ?_
    match a with
    | ⟨0, _⟩ => exact (if_neg hN).symm

/-- A matrix broadcast to a stack of one matrix reads, at (u, r, j), the matrix at (r, j). -/
theorem lead_apply {R N : ℕ} (hR : R ≠ 1) (hN : N ≠ 1) (x : (⟨2, ![R, N]⟩ : Shape).Idx → α)
    (h : (⟨2, ![R, N]⟩ : Shape).BroadcastsInDim ⟨3, ![1, R, N]⟩ (![1, 2] : Fin 2 → Fin 3))
    (u : Fin 1) (r : Fin R) (j : Fin N) :
    broadcastInDim ⟨3, ![1, R, N]⟩ ![1, 2] h x (ix3 u r j) = x (ix2 r j) := by
  refine broadcastInDim_apply _ h x (ix3 u r j) (ix2 r j) fun a => ?_
  match a with
  | ⟨0, _⟩ => exact (if_neg hR).symm
  | ⟨1, _⟩ => exact (if_neg hN).symm

end Layout

section Concat
variable {α : Type} {R N : ℕ}

/-- Off the stacking axis, the index (0, r, j) of a piece has the coordinates of the index (e, r, j) of the stack. -/
theorem stack_coords (e : Fin 13) (r : Fin R) (j : Fin N) :
    ∀ b : Fin 3, b.cast (rfl : (⟨3, ![1, R, N]⟩ : Shape).rank = (⟨3, ![13, R, N]⟩ : Shape).rank) ≠ (0 : Fin 3) →
      ((ix3 (0 : Fin 1) r j : (⟨3, ![1, R, N]⟩ : Shape).Idx) b).val = ((ix3 e r j : (⟨3, ![13, R, N]⟩ : Shape).Idx) (b.cast rfl)).val := by
  intro b hb
  match b, hb with
  | ⟨0, _⟩, hb => exact absurd rfl hb
  | ⟨1, _⟩, _ => rfl
  | ⟨2, _⟩, _ => rfl

variable (p0 p1 p2 p3 p4 p5 p6 p7 p8 p9 p10 p11 p12 : (⟨3, ![1, R, N]⟩ : Shape).Idx → α)
  (h : Shape.Concatenates (List.map (fun q => q.1) ([⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] : List ((s : Shape) × (s.Idx → α)))) ⟨3, ![13, R, N]⟩ 0)
  (r : Fin R) (j : Fin N)

/-! Thirteen [1, R, N] pieces laid along axis 0 read, at (e, r, j), piece e at (0, r, j): one statement per e, the piece named. -/

theorem concat13_at_0 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (0 : Fin 13) r j) = p0 (ix3 (0 : Fin 1) r j) :=
  concatenate_apply_piece 0 _ h _ 0 (show 0 < 13 by omega) _ p0
    (by simp only [List.getElem_cons_succ, List.getElem_cons_zero]) rfl 0 (by simp) (ix3 (0 : Fin 1) r j)
    (stack_coords (0 : Fin 13) r j) rfl

theorem concat13_at_1 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (1 : Fin 13) r j) = p1 (ix3 (0 : Fin 1) r j) :=
  concatenate_apply_piece 0 _ h _ 1 (show 1 < 13 by omega) _ p1
    (by simp only [List.getElem_cons_succ, List.getElem_cons_zero]) rfl 1 (by simp) (ix3 (0 : Fin 1) r j)
    (stack_coords (1 : Fin 13) r j) rfl

theorem concat13_at_2 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (2 : Fin 13) r j) = p2 (ix3 (0 : Fin 1) r j) :=
  concatenate_apply_piece 0 _ h _ 2 (show 2 < 13 by omega) _ p2
    (by simp only [List.getElem_cons_succ, List.getElem_cons_zero]) rfl 2 (by simp) (ix3 (0 : Fin 1) r j)
    (stack_coords (2 : Fin 13) r j) rfl

theorem concat13_at_3 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (3 : Fin 13) r j) = p3 (ix3 (0 : Fin 1) r j) :=
  concatenate_apply_piece 0 _ h _ 3 (show 3 < 13 by omega) _ p3
    (by simp only [List.getElem_cons_succ, List.getElem_cons_zero]) rfl 3 (by simp) (ix3 (0 : Fin 1) r j)
    (stack_coords (3 : Fin 13) r j) rfl

theorem concat13_at_4 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (4 : Fin 13) r j) = p4 (ix3 (0 : Fin 1) r j) :=
  concatenate_apply_piece 0 _ h _ 4 (show 4 < 13 by omega) _ p4
    (by simp only [List.getElem_cons_succ, List.getElem_cons_zero]) rfl 4 (by simp) (ix3 (0 : Fin 1) r j)
    (stack_coords (4 : Fin 13) r j) rfl

theorem concat13_at_5 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (5 : Fin 13) r j) = p5 (ix3 (0 : Fin 1) r j) :=
  concatenate_apply_piece 0 _ h _ 5 (show 5 < 13 by omega) _ p5
    (by simp only [List.getElem_cons_succ, List.getElem_cons_zero]) rfl 5 (by simp) (ix3 (0 : Fin 1) r j)
    (stack_coords (5 : Fin 13) r j) rfl

theorem concat13_at_6 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (6 : Fin 13) r j) = p6 (ix3 (0 : Fin 1) r j) :=
  concatenate_apply_piece 0 _ h _ 6 (show 6 < 13 by omega) _ p6
    (by simp only [List.getElem_cons_succ, List.getElem_cons_zero]) rfl 6 (by simp) (ix3 (0 : Fin 1) r j)
    (stack_coords (6 : Fin 13) r j) rfl

theorem concat13_at_7 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (7 : Fin 13) r j) = p7 (ix3 (0 : Fin 1) r j) :=
  concatenate_apply_piece 0 _ h _ 7 (show 7 < 13 by omega) _ p7
    (by simp only [List.getElem_cons_succ, List.getElem_cons_zero]) rfl 7 (by simp) (ix3 (0 : Fin 1) r j)
    (stack_coords (7 : Fin 13) r j) rfl

theorem concat13_at_8 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (8 : Fin 13) r j) = p8 (ix3 (0 : Fin 1) r j) :=
  concatenate_apply_piece 0 _ h _ 8 (show 8 < 13 by omega) _ p8
    (by simp only [List.getElem_cons_succ, List.getElem_cons_zero]) rfl 8 (by simp) (ix3 (0 : Fin 1) r j)
    (stack_coords (8 : Fin 13) r j) rfl

theorem concat13_at_9 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (9 : Fin 13) r j) = p9 (ix3 (0 : Fin 1) r j) :=
  concatenate_apply_piece 0 _ h _ 9 (show 9 < 13 by omega) _ p9
    (by simp only [List.getElem_cons_succ, List.getElem_cons_zero]) rfl 9 (by simp) (ix3 (0 : Fin 1) r j)
    (stack_coords (9 : Fin 13) r j) rfl

theorem concat13_at_10 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (10 : Fin 13) r j) = p10 (ix3 (0 : Fin 1) r j) :=
  concatenate_apply_piece 0 _ h _ 10 (show 10 < 13 by omega) _ p10
    (by simp only [List.getElem_cons_succ, List.getElem_cons_zero]) rfl 10 (by simp) (ix3 (0 : Fin 1) r j)
    (stack_coords (10 : Fin 13) r j) rfl

theorem concat13_at_11 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (11 : Fin 13) r j) = p11 (ix3 (0 : Fin 1) r j) :=
  concatenate_apply_piece 0 _ h _ 11 (show 11 < 13 by omega) _ p11
    (by simp only [List.getElem_cons_succ, List.getElem_cons_zero]) rfl 11 (by simp) (ix3 (0 : Fin 1) r j)
    (stack_coords (11 : Fin 13) r j) rfl

theorem concat13_at_12 :
    concatenate ⟨3, ![13, R, N]⟩ 0 [⟨⟨3, ![1, R, N]⟩, p0⟩, ⟨⟨3, ![1, R, N]⟩, p1⟩, ⟨⟨3, ![1, R, N]⟩, p2⟩, ⟨⟨3, ![1, R, N]⟩, p3⟩, ⟨⟨3, ![1, R, N]⟩, p4⟩, ⟨⟨3, ![1, R, N]⟩, p5⟩, ⟨⟨3, ![1, R, N]⟩, p6⟩, ⟨⟨3, ![1, R, N]⟩, p7⟩, ⟨⟨3, ![1, R, N]⟩, p8⟩, ⟨⟨3, ![1, R, N]⟩, p9⟩, ⟨⟨3, ![1, R, N]⟩, p10⟩, ⟨⟨3, ![1, R, N]⟩, p11⟩, ⟨⟨3, ![1, R, N]⟩, p12⟩] h (ix3 (12 : Fin 13) r j) = p12 (ix3 (0 : Fin 1) r j) :=
  concatenate_apply_piece 0 _ h _ 12 (show 12 < 13 by omega) _ p12
    (by simp only [List.getElem_cons_succ, List.getElem_cons_zero]) rfl 12 (by simp) (ix3 (0 : Fin 1) r j)
    (stack_coords (12 : Fin 13) r j) rfl

end Concat

/-! ## One linear layer, the column write, and the two kinds of stage -/

/-- A linear layer with its bias applied to column c of the states: entry (r, j) is the sum over k of
    H(r, c, k) · W(j, k), plus the bias at j. -/
theorem linB256_apply (u : ℕ) (c : Fin 7) (hc : c.val = u)
    (hs : S4096x7x256.Slices ![0, u, 0] S4096x1x256)
    (H : FVec Ideal S4096x7x256 .f32) (W : FVec Ideal S256x256 .f32) (bv : FVec Ideal S256 .f32)
    (r : Fin 4096) (j : Fin 256) :
    addf (Host.dotGeneral dot_S4096x256_S256x256_S4096x256_1_0_0_1_n_n none
        (shapeCast S4096x256 (extractStridedSlice S4096x1x256 ![0, u, 0] H hs) shapeCasts_S4096x1x256_S4096x256)
        (transpose S256x256 [1, 0] W transposes_S256x256_S256x256_1_0))
      (broadcastInDim S4096x256 ![0, 1] bcast_S1x256_S4096x256_0_1 (broadcastInDim S1x256 ![1] bcast_S256_S1x256_1 bv)) (ix2 r j)
      = lin (fun j k => W (ix2 j k)) (fun k => H (ix3 r c k)) j + bv (ix1 j) := by
  rw [addf_apply, dotGeneral_10_apply dot_S4096x256_S256x256_S4096x256_1_0_0_1_n_n none rfl rfl rfl rfl rfl rfl,
    bias2_apply (R := 4096) (N := 256) (by decide)]
  unfold lin
  congr 1
  refine Finset.sum_congr rfl fun k _ => ?_
  rw [col_apply u c hc, transpose_ix2_apply]

/-- The class scores of column c of the states, on the leading unit axis: entry (0, r, j). -/
theorem readout_apply (u : ℕ) (c : Fin 7) (hc : c.val = u)
    (hs : S4096x7x256.Slices ![0, u, 0] S4096x1x256)
    (H : FVec Ideal S4096x7x256 .f32) (wm : FVec Ideal S256x256 .f32) (bm : FVec Ideal S256 .f32)
    (wu : FVec Ideal S256x256 .f32) (bu : FVec Ideal S256 .f32) (wc : FVec Ideal S128x256 .f32) (bc : FVec Ideal S128 .f32)
    (e : Fin 1) (r : Fin 4096) (j : Fin 128) :
    broadcastInDim S1x4096x128 ![1, 2] bcast_S4096x128_S1x4096x128_1_2
      (addf (Host.dotGeneral dot_S4096x256_S256x128_S4096x128_1_0_0_1_n_n none
          (shapeCast S4096x256 (extractStridedSlice S4096x1x256 ![0, u, 0] H hs) shapeCasts_S4096x1x256_S4096x256)
          (transpose S256x128 [1, 0] wc transposes_S128x256_S256x128_1_0))
        (broadcastInDim S4096x128 ![0, 1] bcast_S1x128_S4096x128_0_1 (broadcastInDim S1x128 ![1] bcast_S128_S1x128_1 bc)))
      (ix3 e r j)
      = readout (paramsOf wm bm wu bu wc bc) (rowOf H r c) j := by
  rw [lead_apply (R := 4096) (N := 128) (by decide) (by decide), addf_apply,
    dotGeneral_10_apply dot_S4096x256_S256x128_S4096x128_1_0_0_1_n_n none rfl rfl rfl rfl rfl rfl,
    bias2_apply (R := 4096) (N := 128) (by decide)]
  unfold readout lin
  congr 1
  refine Finset.sum_congr rfl fun k _ => ?_
  rw [col_apply u c hc, transpose_ix2_apply]
  rfl

/-- The block written into column c of the states, read at (b, n, k). -/
theorem scatter_set_apply (x : FVec Ideal S4096x7x256 .f32) (i : IVec S1 32) (upd : FVec Ideal S4096x256 .f32)
    (c : Fin 7) (hi : (i (ix1 (0 : Fin 1))).toInt = (c.val : Int)) (b : Fin 4096) (n : Fin 7) (k : Fin 256) :
    Host.scatter scatter_S4096x7x256_S1_S4096x256_01_1_1_0 (fun _ y => y) x i upd (ix3 b n k)
      = if n = c then upd (ix2 b k) else x (ix3 b n k) :=
  scatter_col_apply (fun _ y => y) scatter_S4096x7x256_S1_S4096x256_01_1_1_0_wf x i upd c hi b n k

/-- Row b of the states at node n, coordinate k. -/
theorem rowOf_apply (X : FVec Ideal S4096x7x256 .f32) (b : Fin 4096) (n : Fin 7) (k : Fin 256) :
    rowOf X b n k = X (ix3 b n k) := rfl

/-- The host's tanh of an array, read at an entry. -/
theorem hostTanh_apply {s : Shape} (x : FVec Ideal s .f32) (i : s.Idx) : Host.tanh x i = Ideal.tanh (x i) := rfl

/-- A message stage: the states with node u's state replaced by the message step from node v. -/
theorem msg_stage (u v : ℕ) (cu cv : Fin 7) (hcu : cu.val = u) (hcv : cv.val = v)
    (hsu : S4096x7x256.Slices ![0, u, 0] S4096x1x256) (hsv : S4096x7x256.Slices ![0, v, 0] S4096x1x256)
    (w : BitVec 32) (hw : w.toInt = (cu.val : Int))
    (H : FVec Ideal S4096x7x256 .f32) (wm : FVec Ideal S256x256 .f32) (bm : FVec Ideal S256 .f32)
    (wu : FVec Ideal S256x256 .f32) (bu : FVec Ideal S256 .f32) (wc : FVec Ideal S128x256 .f32) (bc : FVec Ideal S128 .f32)
    (b : Fin 4096) :
    rowOf (Host.scatter scatter_S4096x7x256_S1_S4096x256_01_1_1_0 (fun _ y => y) H
        (broadcastInDim S1 ![] bcast_S_S1 (constantI S_ 32 w))
        (Host.tanh (addf
          (addf (Host.dotGeneral dot_S4096x256_S256x256_S4096x256_1_0_0_1_n_n none
              (shapeCast S4096x256 (extractStridedSlice S4096x1x256 ![0, u, 0] H hsu) shapeCasts_S4096x1x256_S4096x256)
              (transpose S256x256 [1, 0] wu transposes_S256x256_S256x256_1_0))
            (broadcastInDim S4096x256 ![0, 1] bcast_S1x256_S4096x256_0_1 (broadcastInDim S1x256 ![1] bcast_S256_S1x256_1 bu)))
          (addf (Host.dotGeneral dot_S4096x256_S256x256_S4096x256_1_0_0_1_n_n none
              (shapeCast S4096x256 (extractStridedSlice S4096x1x256 ![0, v, 0] H hsv) shapeCasts_S4096x1x256_S4096x256)
              (transpose S256x256 [1, 0] wm transposes_S256x256_S256x256_1_0))
            (broadcastInDim S4096x256 ![0, 1] bcast_S1x256_S4096x256_0_1 (broadcastInDim S1x256 ![1] bcast_S256_S1x256_1 bm)))))) b
      = Function.update (rowOf H b) cu (msgR (paramsOf wm bm wu bu wc bc) (rowOf H b cu) (rowOf H b cv)) := by
  funext n k
  rw [rowOf_apply]
  refine (scatter_set_apply H (broadcastInDim S1 ![] bcast_S_S1 (constantI S_ 32 w)) _ cu hw b n k).trans ?_
  by_cases h : n = cu
  · subst h
    rw [if_pos rfl, Function.update_self]
    rw [hostTanh_apply, addf_apply, linB256_apply u n hcu, linB256_apply v cv hcv]
    rfl
  · rw [if_neg h, Function.update_of_ne h]
    rfl

/-- A refinement stage: the states with node u's state refined once. -/
theorem ref_stage (u : ℕ) (cu : Fin 7) (hcu : cu.val = u)
    (hsu : S4096x7x256.Slices ![0, u, 0] S4096x1x256)
    (w : BitVec 32) (hw : w.toInt = (cu.val : Int))
    (H : FVec Ideal S4096x7x256 .f32) (wm : FVec Ideal S256x256 .f32) (bm : FVec Ideal S256 .f32)
    (wu : FVec Ideal S256x256 .f32) (bu : FVec Ideal S256 .f32) (wc : FVec Ideal S128x256 .f32) (bc : FVec Ideal S128 .f32)
    (b : Fin 4096) :
    rowOf (Host.scatter scatter_S4096x7x256_S1_S4096x256_01_1_1_0 (fun _ y => y) H
        (broadcastInDim S1 ![] bcast_S_S1 (constantI S_ 32 w))
        (Host.tanh
          (addf (Host.dotGeneral dot_S4096x256_S256x256_S4096x256_1_0_0_1_n_n none
              (shapeCast S4096x256 (extractStridedSlice S4096x1x256 ![0, u, 0] H hsu) shapeCasts_S4096x1x256_S4096x256)
              (transpose S256x256 [1, 0] wu transposes_S256x256_S256x256_1_0))
            (broadcastInDim S4096x256 ![0, 1] bcast_S1x256_S4096x256_0_1 (broadcastInDim S1x256 ![1] bcast_S256_S1x256_1 bu))))) b
      = Function.update (rowOf H b) cu (refine (paramsOf wm bm wu bu wc bc) (rowOf H b cu)) := by
  funext n k
  rw [rowOf_apply]
  refine (scatter_set_apply H (broadcastInDim S1 ![] bcast_S_S1 (constantI S_ 32 w)) _ cu hw b n k).trans ?_
  by_cases h : n = cu
  · subst h
    rw [if_pos rfl, Function.update_self]
    rw [hostTanh_apply, linB256_apply u n hcu]
    rfl
  · rw [if_neg h, Function.update_of_ne h]
    rfl

/-- Three consecutive stages of one edge (u, v) — the message step, then two refinements of node u — make the edge's step. -/
theorem edge_compose (P : Params) (h : Fin 7 → St) (u v : Fin 7) (h1 h2 h3 : Fin 7 → St)
    (e1 : h1 = Function.update h u (msgR P (h u) (h v)))
    (e2 : h2 = Function.update h1 u (refine P (h1 u)))
    (e3 : h3 = Function.update h2 u (refine P (h2 u))) : h3 = step P h u v := by
  subst e1
  subst e2
  subst e3
  simp only [Function.update_self, Function.update_idem]
  rfl

/-! ## The program's thirty-six stages and twelve edges -/

/-- The last refinement of the last edge, which the result term carries inline: the stage after `res_main_v529`,
    for any float values as the named stages are. -/
abbrev res_v539 {F : FTy → Type} [FloatOps F] (V0 : Valuation τ sig (Elt F)) :
    (Proc.devRef .tc main_v539 : DevRef τ sig).ty.Contents (Elt F) :=
  Host.scatter scatter_S4096x7x256_S1_S4096x256_01_1_1_0 (fun _ b => b) (res_main_v529 V0) (broadcastInDim S1 ![] bcast_S_S1 (constantI S_ 32 2#32)) (Host.tanh (addf (Host.dotGeneral dot_S4096x256_S256x256_S4096x256_1_0_0_1_n_n none (shapeCast _ (extractStridedSlice S4096x1x256 ![0, 2, 0] (res_main_v529 V0) slices_S4096x7x256_S4096x1x256_0_2_0) shapeCasts_S4096x1x256_S4096x256) (transpose S256x256 [1, 0] (V0 (Proc.devRef .tc main_arg3)) transposes_S256x256_S256x256_1_0)) (broadcastInDim S4096x256 ![0, 1] bcast_S1x256_S4096x256_0_1 (broadcastInDim S1x256 ![1] bcast_S256_S1x256_1 (V0 (Proc.devRef .tc main_arg4))))))

section Program
variable (V0 : Valuation τ sig (Elt Ideal))

/-- The seven arguments, by their array types. -/
abbrev aX : FVec Ideal S4096x7x256 .f32 := V0 (Proc.devRef .tc main_arg0)
abbrev aWm : FVec Ideal S256x256 .f32 := V0 (Proc.devRef .tc main_arg1)
abbrev aBm : FVec Ideal S256 .f32 := V0 (Proc.devRef .tc main_arg2)
abbrev aWu : FVec Ideal S256x256 .f32 := V0 (Proc.devRef .tc main_arg3)
abbrev aBu : FVec Ideal S256 .f32 := V0 (Proc.devRef .tc main_arg4)
abbrev aWc : FVec Ideal S128x256 .f32 := V0 (Proc.devRef .tc main_arg5)
abbrev aBc : FVec Ideal S128 .f32 := V0 (Proc.devRef .tc main_arg6)

/-- The parameters the arguments carry. -/
abbrev pP : Params := paramsOf (aWm V0) (aBm V0) (aWu V0) (aBu V0) (aWc V0) (aBc V0)

theorem stateAt_succ (P : Params) (x : Fin 7 → St) (n : ℕ) :
    stateAt P x (n + 1) = step P (stateAt P x n) (eU n) (eV n) := rfl

/-! ### Edge 1: node 0 takes the message of node 1 -/

theorem row_v24 (b : Fin 4096) : rowOf (res_main_v24 (F := Ideal) V0) b
    = Function.update (rowOf (aX V0) b) 0 (msgR (pP V0) (rowOf (aX V0) b 0) (rowOf (aX V0) b 1)) := by
  unfold res_main_v24
  exact msg_stage 0 1 0 1 rfl rfl _ _ 0#32 (by decide) (aX V0) (aWm V0) (aBm V0) (aWu V0) (aBu V0) (aWc V0) (aBc V0) b

theorem row_v34 (b : Fin 4096) : rowOf (res_main_v34 (F := Ideal) V0) b
    = Function.update (rowOf (res_main_v24 (F := Ideal) V0) b) 0 (refine (pP V0) (rowOf (res_main_v24 (F := Ideal) V0) b 0)) := by
  unfold res_main_v34
  exact ref_stage 0 0 rfl _ 0#32 (by decide) (res_main_v24 (F := Ideal) V0) (aWm V0) (aBm V0) (aWu V0) (aBu V0) (aWc V0) (aBc V0) b

theorem row_v44 (b : Fin 4096) : rowOf (res_main_v44 (F := Ideal) V0) b
    = Function.update (rowOf (res_main_v34 (F := Ideal) V0) b) 0 (refine (pP V0) (rowOf (res_main_v34 (F := Ideal) V0) b 0)) := by
  unfold res_main_v44
  exact ref_stage 0 0 rfl _ 0#32 (by decide) (res_main_v34 (F := Ideal) V0) (aWm V0) (aBm V0) (aWu V0) (aBu V0) (aWc V0) (aBc V0) b

theorem st1 (b : Fin 4096) : rowOf (res_main_v44 (F := Ideal) V0) b = stateAt (pP V0) (rowOf (aX V0) b) 1 :=
  edge_compose (pP V0) (rowOf (aX V0) b) 0 1 _ _ _ (row_v24 V0 b) (row_v34 V0 b) (row_v44 V0 b)

/-! ### Edge 2: node 1 takes the message of node 3 -/

theorem row_v69 (b : Fin 4096) : rowOf (res_main_v69 (F := Ideal) V0) b
    = Function.update (rowOf (res_main_v44 (F := Ideal) V0) b) 1 (msgR (pP V0) (rowOf (res_main_v44 (F := Ideal) V0) b 1) (rowOf (res_main_v44 (F := Ideal) V0) b 3)) := by
  unfold res_main_v69
  exact msg_stage 1 3 1 3 rfl rfl _ _ 1#32 (by decide) (res_main_v44 (F := Ideal) V0) (aWm V0) (aBm V0) (aWu V0) (aBu V0) (aWc V0) (aBc V0) b

theorem row_v79 (b : Fin 4096) : rowOf (res_main_v79 (F := Ideal) V0) b
    = Function.update (rowOf (res_main_v69 (F := Ideal) V0) b) 1 (refine (pP V0) (rowOf (res_main_v69 (F := Ideal) V0) b 1)) := by
  unfold res_main_v79
  exact ref_stage 1 1 rfl _ 1#32 (by decide) (res_main_v69 (F := Ideal) V0) (aWm V0) (aBm V0) (aWu V0) (aBu V0) (aWc V0) (aBc V0) b

theorem row_v89 (b : Fin 4096) : rowOf (res_main_v89 (F := Ideal) V0) b
    = Function.update (rowOf (res_main_v79 (F := Ideal) V0) b) 1 (refine (pP V0) (rowOf (res_main_v79 (F := Ideal) V0) b 1)) := by
  unfold res_main_v89
  exact ref_stage 1 1 rfl _ 1#32 (by decide) (res_main_v79 (F := Ideal) V0) (aWm V0) (aBm V0) (aWu V0) (aBu V0) (aWc V0) (aBc V0) b

theorem st2 (b : Fin 4096) : rowOf (res_main_v89 (F := Ideal) V0) b = stateAt (pP V0) (rowOf (aX V0) b) 2 := by
  have e := edge_compose (pP V0) (rowOf (res_main_v44 (F := Ideal) V0) b) 1 3 _ _ _ (row_v69 V0 b) (row_v79 V0 b) (row_v89 V0 b)
  rw [st1 V0 b] at e
  exact e

/-! ### Edge 3: node 3 takes the message of node 1 -/

theorem row_v114 (b : Fin 4096) : rowOf (res_main_v114 (F := Ideal) V0) b
    = Function.update (rowOf (res_main_v89 (F := Ideal) V0) b) 3 (msgR (pP V0) (rowOf (res_main_v89 (F := Ideal) V0) b 3) (rowOf (res_main_v89 (F := Ideal) V0) b 1)) := by
  unfold res_main_v114
  exact msg_stage 3 1 3 1 rfl rfl _ _ 3#32 (by decide) (res_main_v89 (F := Ideal) V0) (aWm V0) (aBm V0) (aWu V0) (aBu V0) (aWc V0) (aBc V0) b

theorem row_v124 (b : Fin 4096) : rowOf (res_main_v124 (F := Ideal) V0) b
    = Function.update (rowOf (res_main_v114 (F := Ideal) V0) b) 3 (refine (pP V0) (rowOf (res_main_v114 (F := Ideal) V0) b 3)) := by
  unfold res_main_v124
  exact ref_stage 3 3 rfl _ 3#32 (by decide) (res_main_v114 (F := Ideal) V0) (aWm V0) (aBm V0) (aWu V0) (aBu V0) (aWc V0) (aBc V0) b

theorem row_v134 (b : Fin 4096) : rowOf (res_main_v134 (F := Ideal) V0) b
    = Function.update (rowOf (res_main_v124 (F := Ideal) V0) b) 3 (refine (pP V0) (rowOf (res_main_v124 (F := Ideal) V0) b 3)) := by
  unfold res_main_v134
  exact ref_stage 3 3 rfl _ 3#32 (by decide) (res_main_v124 (F := Ideal) V0) (aWm V0) (aBm V0) (aWu V0) (aBu V0) (aWc V0) (aBc V0) b

theorem st3 (b : Fin 4096) : rowOf (res_main_v134 (F := Ideal) V0) b = stateAt (pP V0) (rowOf (aX V0) b) 3 := by
  have e := edge_compose (pP V0) (rowOf (res_main_v89 (F := Ideal) V0) b) 3 1 _ _ _ (row_v114 V0 b) (row_v124 V0 b) (row_v134 V0 b)
  rw [st2 V0 b] at e
  exact e

/-! ### Edge 4: node 1 takes the message of node 4 -/

theorem row_v159 (b : Fin 4096) : rowOf (res_main_v159 (F := Ideal) V0) b
    = Function.update (rowOf (res_main_v134 (F := Ideal) V0) b) 1 (msgR (pP V0) (rowOf (res_main_v134 (F := Ideal) V0) b 1) (rowOf (res_main_v134 (F := Ideal) V0) b 4)) := by
  unfold res_main_v159
  exact msg_stage 1 4 1 4 rfl rfl _ _ 1#32 (by decide) (res_main_v134 (F := Ideal) V0) (aWm V0) (aBm V0) (aWu V0) (aBu V0) (aWc V0) (aBc V0) b

theorem row_v169 (b : Fin 4096) : rowOf (res_main_v169 (F := Ideal) V0) b
    = Function.update (rowOf (res_main_v159 (F := Ideal) V0) b) 1 (refine (pP V0) (rowOf (res_main_v159 (F := Ideal) V0) b 1)) := by
  unfold res_main_v169
  exact ref_stage 1 1 rfl _ 1#32 (by decide) (res_main_v159 (F := Ideal) V0) (aWm V0) (aBm V0) (aWu V0) (aBu V0) (aWc V0) (aBc V0) b

theorem row_v179 (b : Fin 4096) : rowOf (res_main_v179 (F := Ideal) V0) b
    = Function.update (rowOf (res_main_v169 (F := Ideal) V0) b) 1 (refine (pP V0) (rowOf (res_main_v169 (F := Ideal) V0) b 1)) := by
  unfold res_main_v179
  exact ref_stage 1 1 rfl _ 1#32 (by decide) (res_main_v169 (F := Ideal) V0) (aWm V0) (aBm V0) (aWu V0) (aBu V0) (aWc V0) (aBc V0) b

theorem st4 (b : Fin 4096) : rowOf (res_main_v179 (F := Ideal) V0) b = stateAt (pP V0) (rowOf (aX V0) b) 4 := by
  have e := edge_compose (pP V0) (rowOf (res_main_v134 (F := Ideal) V0) b) 1 4 _ _ _ (row_v159 V0 b) (row_v169 V0 b) (row_v179 V0 b)
  rw [st3 V0 b] at e
  exact e

/-! ### Edge 5: node 4 takes the message of node 1 -/

theorem row_v204 (b : Fin 4096) : rowOf (res_main_v204 (F := Ideal) V0) b
    = Function.update (rowOf (res_main_v179 (F := Ideal) V0) b) 4 (msgR (pP V0) (rowOf (res_main_v179 (F := Ideal) V0) b 4) (rowOf (res_main_v179 (F := Ideal) V0) b 1)) := by
  unfold res_main_v204
  exact msg_stage 4 1 4 1 rfl rfl _ _ 4#32 (by decide) (res_main_v179 (F := Ideal) V0) (aWm V0) (aBm V0) (aWu V0) (aBu V0) (aWc V0) (aBc V0) b

theorem row_v214 (b : Fin 4096) : rowOf (res_main_v214 (F := Ideal) V0) b
    = Function.update (rowOf (res_main_v204 (F := Ideal) V0) b) 4 (refine (pP V0) (rowOf (res_main_v204 (F := Ideal) V0) b 4)) := by
  unfold res_main_v214
  exact ref_stage 4 4 rfl _ 4#32 (by decide) (res_main_v204 (F := Ideal) V0) (aWm V0) (aBm V0) (aWu V0) (aBu V0) (aWc V0) (aBc V0) b

theorem row_v224 (b : Fin 4096) : rowOf (res_main_v224 (F := Ideal) V0) b
    = Function.update (rowOf (res_main_v214 (F := Ideal) V0) b) 4 (refine (pP V0) (rowOf (res_main_v214 (F := Ideal) V0) b 4)) := by
  unfold res_main_v224
  exact ref_stage 4 4 rfl _ 4#32 (by decide) (res_main_v214 (F := Ideal) V0) (aWm V0) (aBm V0) (aWu V0) (aBu V0) (aWc V0) (aBc V0) b

theorem st5 (b : Fin 4096) : rowOf (res_main_v224 (F := Ideal) V0) b = stateAt (pP V0) (rowOf (aX V0) b) 5 := by
  have e := edge_compose (pP V0) (rowOf (res_main_v179 (F := Ideal) V0) b) 4 1 _ _ _ (row_v204 V0 b) (row_v214 V0 b) (row_v224 V0 b)
  rw [st4 V0 b] at e
  exact e

/-! ### Edge 6: node 1 takes the message of node 0 -/

theorem row_v249 (b : Fin 4096) : rowOf (res_main_v249 (F := Ideal) V0) b
    = Function.update (rowOf (res_main_v224 (F := Ideal) V0) b) 1 (msgR (pP V0) (rowOf (res_main_v224 (F := Ideal) V0) b 1) (rowOf (res_main_v224 (F := Ideal) V0) b 0)) := by
  unfold res_main_v249
  exact msg_stage 1 0 1 0 rfl rfl _ _ 1#32 (by decide) (res_main_v224 (F := Ideal) V0) (aWm V0) (aBm V0) (aWu V0) (aBu V0) (aWc V0) (aBc V0) b

theorem row_v259 (b : Fin 4096) : rowOf (res_main_v259 (F := Ideal) V0) b
    = Function.update (rowOf (res_main_v249 (F := Ideal) V0) b) 1 (refine (pP V0) (rowOf (res_main_v249 (F := Ideal) V0) b 1)) := by
  unfold res_main_v259
  exact ref_stage 1 1 rfl _ 1#32 (by decide) (res_main_v249 (F := Ideal) V0) (aWm V0) (aBm V0) (aWu V0) (aBu V0) (aWc V0) (aBc V0) b

theorem row_v269 (b : Fin 4096) : rowOf (res_main_v269 (F := Ideal) V0) b
    = Function.update (rowOf (res_main_v259 (F := Ideal) V0) b) 1 (refine (pP V0) (rowOf (res_main_v259 (F := Ideal) V0) b 1)) := by
  unfold res_main_v269
  exact ref_stage 1 1 rfl _ 1#32 (by decide) (res_main_v259 (F := Ideal) V0) (aWm V0) (aBm V0) (aWu V0) (aBu V0) (aWc V0) (aBc V0) b

theorem st6 (b : Fin 4096) : rowOf (res_main_v269 (F := Ideal) V0) b = stateAt (pP V0) (rowOf (aX V0) b) 6 := by
  have e := edge_compose (pP V0) (rowOf (res_main_v224 (F := Ideal) V0) b) 1 0 _ _ _ (row_v249 V0 b) (row_v259 V0 b) (row_v269 V0 b)
  rw [st5 V0 b] at e
  exact e

/-! ### Edge 7: node 0 takes the message of node 2 -/

theorem row_v294 (b : Fin 4096) : rowOf (res_main_v294 (F := Ideal) V0) b
    = Function.update (rowOf (res_main_v269 (F := Ideal) V0) b) 0 (msgR (pP V0) (rowOf (res_main_v269 (F := Ideal) V0) b 0) (rowOf (res_main_v269 (F := Ideal) V0) b 2)) := by
  unfold res_main_v294
  exact msg_stage 0 2 0 2 rfl rfl _ _ 0#32 (by decide) (res_main_v269 (F := Ideal) V0) (aWm V0) (aBm V0) (aWu V0) (aBu V0) (aWc V0) (aBc V0) b

theorem row_v304 (b : Fin 4096) : rowOf (res_main_v304 (F := Ideal) V0) b
    = Function.update (rowOf (res_main_v294 (F := Ideal) V0) b) 0 (refine (pP V0) (rowOf (res_main_v294 (F := Ideal) V0) b 0)) := by
  unfold res_main_v304
  exact ref_stage 0 0 rfl _ 0#32 (by decide) (res_main_v294 (F := Ideal) V0) (aWm V0) (aBm V0) (aWu V0) (aBu V0) (aWc V0) (aBc V0) b

theorem row_v314 (b : Fin 4096) : rowOf (res_main_v314 (F := Ideal) V0) b
    = Function.update (rowOf (res_main_v304 (F := Ideal) V0) b) 0 (refine (pP V0) (rowOf (res_main_v304 (F := Ideal) V0) b 0)) := by
  unfold res_main_v314
  exact ref_stage 0 0 rfl _ 0#32 (by decide) (res_main_v304 (F := Ideal) V0) (aWm V0) (aBm V0) (aWu V0) (aBu V0) (aWc V0) (aBc V0) b

theorem st7 (b : Fin 4096) : rowOf (res_main_v314 (F := Ideal) V0) b = stateAt (pP V0) (rowOf (aX V0) b) 7 := by
  have e := edge_compose (pP V0) (rowOf (res_main_v269 (F := Ideal) V0) b) 0 2 _ _ _ (row_v294 V0 b) (row_v304 V0 b) (row_v314 V0 b)
  rw [st6 V0 b] at e
  exact e

/-! ### Edge 8: node 2 takes the message of node 5 -/

theorem row_v339 (b : Fin 4096) : rowOf (res_main_v339 (F := Ideal) V0) b
    = Function.update (rowOf (res_main_v314 (F := Ideal) V0) b) 2 (msgR (pP V0) (rowOf (res_main_v314 (F := Ideal) V0) b 2) (rowOf (res_main_v314 (F := Ideal) V0) b 5)) := by
  unfold res_main_v339
  exact msg_stage 2 5 2 5 rfl rfl _ _ 2#32 (by decide) (res_main_v314 (F := Ideal) V0) (aWm V0) (aBm V0) (aWu V0) (aBu V0) (aWc V0) (aBc V0) b

theorem row_v349 (b : Fin 4096) : rowOf (res_main_v349 (F := Ideal) V0) b
    = Function.update (rowOf (res_main_v339 (F := Ideal) V0) b) 2 (refine (pP V0) (rowOf (res_main_v339 (F := Ideal) V0) b 2)) := by
  unfold res_main_v349
  exact ref_stage 2 2 rfl _ 2#32 (by decide) (res_main_v339 (F := Ideal) V0) (aWm V0) (aBm V0) (aWu V0) (aBu V0) (aWc V0) (aBc V0) b

theorem row_v359 (b : Fin 4096) : rowOf (res_main_v359 (F := Ideal) V0) b
    = Function.update (rowOf (res_main_v349 (F := Ideal) V0) b) 2 (refine (pP V0) (rowOf (res_main_v349 (F := Ideal) V0) b 2)) := by
  unfold res_main_v359
  exact ref_stage 2 2 rfl _ 2#32 (by decide) (res_main_v349 (F := Ideal) V0) (aWm V0) (aBm V0) (aWu V0) (aBu V0) (aWc V0) (aBc V0) b

theorem st8 (b : Fin 4096) : rowOf (res_main_v359 (F := Ideal) V0) b = stateAt (pP V0) (rowOf (aX V0) b) 8 := by
  have e := edge_compose (pP V0) (rowOf (res_main_v314 (F := Ideal) V0) b) 2 5 _ _ _ (row_v339 V0 b) (row_v349 V0 b) (row_v359 V0 b)
  rw [st7 V0 b] at e
  exact e

/-! ### Edge 9: node 5 takes the message of node 2 -/

theorem row_v384 (b : Fin 4096) : rowOf (res_main_v384 (F := Ideal) V0) b
    = Function.update (rowOf (res_main_v359 (F := Ideal) V0) b) 5 (msgR (pP V0) (rowOf (res_main_v359 (F := Ideal) V0) b 5) (rowOf (res_main_v359 (F := Ideal) V0) b 2)) := by
  unfold res_main_v384
  exact msg_stage 5 2 5 2 rfl rfl _ _ 5#32 (by decide) (res_main_v359 (F := Ideal) V0) (aWm V0) (aBm V0) (aWu V0) (aBu V0) (aWc V0) (aBc V0) b

theorem row_v394 (b : Fin 4096) : rowOf (res_main_v394 (F := Ideal) V0) b
    = Function.update (rowOf (res_main_v384 (F := Ideal) V0) b) 5 (refine (pP V0) (rowOf (res_main_v384 (F := Ideal) V0) b 5)) := by
  unfold res_main_v394
  exact ref_stage 5 5 rfl _ 5#32 (by decide) (res_main_v384 (F := Ideal) V0) (aWm V0) (aBm V0) (aWu V0) (aBu V0) (aWc V0) (aBc V0) b

theorem row_v404 (b : Fin 4096) : rowOf (res_main_v404 (F := Ideal) V0) b
    = Function.update (rowOf (res_main_v394 (F := Ideal) V0) b) 5 (refine (pP V0) (rowOf (res_main_v394 (F := Ideal) V0) b 5)) := by
  unfold res_main_v404
  exact ref_stage 5 5 rfl _ 5#32 (by decide) (res_main_v394 (F := Ideal) V0) (aWm V0) (aBm V0) (aWu V0) (aBu V0) (aWc V0) (aBc V0) b

theorem st9 (b : Fin 4096) : rowOf (res_main_v404 (F := Ideal) V0) b = stateAt (pP V0) (rowOf (aX V0) b) 9 := by
  have e := edge_compose (pP V0) (rowOf (res_main_v359 (F := Ideal) V0) b) 5 2 _ _ _ (row_v384 V0 b) (row_v394 V0 b) (row_v404 V0 b)
  rw [st8 V0 b] at e
  exact e

/-! ### Edge 10: node 2 takes the message of node 6 -/

theorem row_v429 (b : Fin 4096) : rowOf (res_main_v429 (F := Ideal) V0) b
    = Function.update (rowOf (res_main_v404 (F := Ideal) V0) b) 2 (msgR (pP V0) (rowOf (res_main_v404 (F := Ideal) V0) b 2) (rowOf (res_main_v404 (F := Ideal) V0) b 6)) := by
  unfold res_main_v429
  exact msg_stage 2 6 2 6 rfl rfl _ _ 2#32 (by decide) (res_main_v404 (F := Ideal) V0) (aWm V0) (aBm V0) (aWu V0) (aBu V0) (aWc V0) (aBc V0) b

theorem row_v439 (b : Fin 4096) : rowOf (res_main_v439 (F := Ideal) V0) b
    = Function.update (rowOf (res_main_v429 (F := Ideal) V0) b) 2 (refine (pP V0) (rowOf (res_main_v429 (F := Ideal) V0) b 2)) := by
  unfold res_main_v439
  exact ref_stage 2 2 rfl _ 2#32 (by decide) (res_main_v429 (F := Ideal) V0) (aWm V0) (aBm V0) (aWu V0) (aBu V0) (aWc V0) (aBc V0) b

theorem row_v449 (b : Fin 4096) : rowOf (res_main_v449 (F := Ideal) V0) b
    = Function.update (rowOf (res_main_v439 (F := Ideal) V0) b) 2 (refine (pP V0) (rowOf (res_main_v439 (F := Ideal) V0) b 2)) := by
  unfold res_main_v449
  exact ref_stage 2 2 rfl _ 2#32 (by decide) (res_main_v439 (F := Ideal) V0) (aWm V0) (aBm V0) (aWu V0) (aBu V0) (aWc V0) (aBc V0) b

theorem st10 (b : Fin 4096) : rowOf (res_main_v449 (F := Ideal) V0) b = stateAt (pP V0) (rowOf (aX V0) b) 10 := by
  have e := edge_compose (pP V0) (rowOf (res_main_v404 (F := Ideal) V0) b) 2 6 _ _ _ (row_v429 V0 b) (row_v439 V0 b) (row_v449 V0 b)
  rw [st9 V0 b] at e
  exact e

/-! ### Edge 11: node 6 takes the message of node 2 -/

theorem row_v474 (b : Fin 4096) : rowOf (res_main_v474 (F := Ideal) V0) b
    = Function.update (rowOf (res_main_v449 (F := Ideal) V0) b) 6 (msgR (pP V0) (rowOf (res_main_v449 (F := Ideal) V0) b 6) (rowOf (res_main_v449 (F := Ideal) V0) b 2)) := by
  unfold res_main_v474
  exact msg_stage 6 2 6 2 rfl rfl _ _ 6#32 (by decide) (res_main_v449 (F := Ideal) V0) (aWm V0) (aBm V0) (aWu V0) (aBu V0) (aWc V0) (aBc V0) b

theorem row_v484 (b : Fin 4096) : rowOf (res_main_v484 (F := Ideal) V0) b
    = Function.update (rowOf (res_main_v474 (F := Ideal) V0) b) 6 (refine (pP V0) (rowOf (res_main_v474 (F := Ideal) V0) b 6)) := by
  unfold res_main_v484
  exact ref_stage 6 6 rfl _ 6#32 (by decide) (res_main_v474 (F := Ideal) V0) (aWm V0) (aBm V0) (aWu V0) (aBu V0) (aWc V0) (aBc V0) b

theorem row_v494 (b : Fin 4096) : rowOf (res_main_v494 (F := Ideal) V0) b
    = Function.update (rowOf (res_main_v484 (F := Ideal) V0) b) 6 (refine (pP V0) (rowOf (res_main_v484 (F := Ideal) V0) b 6)) := by
  unfold res_main_v494
  exact ref_stage 6 6 rfl _ 6#32 (by decide) (res_main_v484 (F := Ideal) V0) (aWm V0) (aBm V0) (aWu V0) (aBu V0) (aWc V0) (aBc V0) b

theorem st11 (b : Fin 4096) : rowOf (res_main_v494 (F := Ideal) V0) b = stateAt (pP V0) (rowOf (aX V0) b) 11 := by
  have e := edge_compose (pP V0) (rowOf (res_main_v449 (F := Ideal) V0) b) 6 2 _ _ _ (row_v474 V0 b) (row_v484 V0 b) (row_v494 V0 b)
  rw [st10 V0 b] at e
  exact e

/-! ### Edge 12: node 2 takes the message of node 0 -/

theorem row_v519 (b : Fin 4096) : rowOf (res_main_v519 (F := Ideal) V0) b
    = Function.update (rowOf (res_main_v494 (F := Ideal) V0) b) 2 (msgR (pP V0) (rowOf (res_main_v494 (F := Ideal) V0) b 2) (rowOf (res_main_v494 (F := Ideal) V0) b 0)) := by
  unfold res_main_v519
  exact msg_stage 2 0 2 0 rfl rfl _ _ 2#32 (by decide) (res_main_v494 (F := Ideal) V0) (aWm V0) (aBm V0) (aWu V0) (aBu V0) (aWc V0) (aBc V0) b

theorem row_v529 (b : Fin 4096) : rowOf (res_main_v529 (F := Ideal) V0) b
    = Function.update (rowOf (res_main_v519 (F := Ideal) V0) b) 2 (refine (pP V0) (rowOf (res_main_v519 (F := Ideal) V0) b 2)) := by
  unfold res_main_v529
  exact ref_stage 2 2 rfl _ 2#32 (by decide) (res_main_v519 (F := Ideal) V0) (aWm V0) (aBm V0) (aWu V0) (aBu V0) (aWc V0) (aBc V0) b

theorem row_v539 (b : Fin 4096) : rowOf (res_v539 (F := Ideal) V0) b
    = Function.update (rowOf (res_main_v529 (F := Ideal) V0) b) 2 (refine (pP V0) (rowOf (res_main_v529 (F := Ideal) V0) b 2)) := by
  show rowOf (res_v539 (F := Ideal) V0) b = _
  exact ref_stage 2 2 rfl _ 2#32 (by decide) (res_main_v529 (F := Ideal) V0) (aWm V0) (aBm V0) (aWu V0) (aBu V0) (aWc V0) (aBc V0) b

theorem st12 (b : Fin 4096) : rowOf (res_v539 (F := Ideal) V0) b = stateAt (pP V0) (rowOf (aX V0) b) 12 := by
  have e := edge_compose (pP V0) (rowOf (res_main_v494 (F := Ideal) V0) b) 2 0 _ _ _ (row_v519 V0 b) (row_v529 V0 b) (row_v539 V0 b)
  rw [st11 V0 b] at e
  exact e

/-! ## The thirteen readouts and the result -/

theorem out_0 (b : Fin 4096) (c : Fin 128) :
    res_main_v560 (F := Ideal) V0 (ix3 (0 : Fin 13) b c) = out (pP V0) (rowOf (aX V0) b) 0 c := by
  unfold res_main_v560
  refine (concat13_at_0 _ _ _ _ _ _ _ _ _ _ _ _ _ _ b c).trans ?_
  refine (readout_apply 0 0 rfl _ (aX V0) (aWm V0) (aBm V0) (aWu V0) (aBu V0) (aWc V0) (aBc V0) 0 b c).trans ?_
  rfl

theorem out_1 (b : Fin 4096) (c : Fin 128) :
    res_main_v560 (F := Ideal) V0 (ix3 (1 : Fin 13) b c) = out (pP V0) (rowOf (aX V0) b) 1 c := by
  unfold res_main_v560
  refine (concat13_at_1 _ _ _ _ _ _ _ _ _ _ _ _ _ _ b c).trans ?_
  refine (readout_apply 0 0 rfl _ (res_main_v44 (F := Ideal) V0) (aWm V0) (aBm V0) (aWu V0) (aBu V0) (aWc V0) (aBc V0) 0 b c).trans ?_
  rw [st1 V0 b]
  rfl

theorem out_2 (b : Fin 4096) (c : Fin 128) :
    res_main_v560 (F := Ideal) V0 (ix3 (2 : Fin 13) b c) = out (pP V0) (rowOf (aX V0) b) 2 c := by
  unfold res_main_v560
  refine (concat13_at_2 _ _ _ _ _ _ _ _ _ _ _ _ _ _ b c).trans ?_
  refine (readout_apply 1 1 rfl _ (res_main_v89 (F := Ideal) V0) (aWm V0) (aBm V0) (aWu V0) (aBu V0) (aWc V0) (aBc V0) 0 b c).trans ?_
  rw [st2 V0 b]
  rfl

theorem out_3 (b : Fin 4096) (c : Fin 128) :
    res_main_v560 (F := Ideal) V0 (ix3 (3 : Fin 13) b c) = out (pP V0) (rowOf (aX V0) b) 3 c := by
  unfold res_main_v560
  refine (concat13_at_3 _ _ _ _ _ _ _ _ _ _ _ _ _ _ b c).trans ?_
  refine (readout_apply 3 3 rfl _ (res_main_v134 (F := Ideal) V0) (aWm V0) (aBm V0) (aWu V0) (aBu V0) (aWc V0) (aBc V0) 0 b c).trans ?_
  rw [st3 V0 b]
  rfl

theorem out_4 (b : Fin 4096) (c : Fin 128) :
    res_main_v560 (F := Ideal) V0 (ix3 (4 : Fin 13) b c) = out (pP V0) (rowOf (aX V0) b) 4 c := by
  unfold res_main_v560
  refine (concat13_at_4 _ _ _ _ _ _ _ _ _ _ _ _ _ _ b c).trans ?_
  refine (readout_apply 1 1 rfl _ (res_main_v179 (F := Ideal) V0) (aWm V0) (aBm V0) (aWu V0) (aBu V0) (aWc V0) (aBc V0) 0 b c).trans ?_
  rw [st4 V0 b]
  rfl

theorem out_5 (b : Fin 4096) (c : Fin 128) :
    res_main_v560 (F := Ideal) V0 (ix3 (5 : Fin 13) b c) = out (pP V0) (rowOf (aX V0) b) 5 c := by
  unfold res_main_v560
  refine (concat13_at_5 _ _ _ _ _ _ _ _ _ _ _ _ _ _ b c).trans ?_
  refine (readout_apply 4 4 rfl _ (res_main_v224 (F := Ideal) V0) (aWm V0) (aBm V0) (aWu V0) (aBu V0) (aWc V0) (aBc V0) 0 b c).trans ?_
  rw [st5 V0 b]
  rfl

theorem out_6 (b : Fin 4096) (c : Fin 128) :
    res_main_v560 (F := Ideal) V0 (ix3 (6 : Fin 13) b c) = out (pP V0) (rowOf (aX V0) b) 6 c := by
  unfold res_main_v560
  refine (concat13_at_6 _ _ _ _ _ _ _ _ _ _ _ _ _ _ b c).trans ?_
  refine (readout_apply 1 1 rfl _ (res_main_v269 (F := Ideal) V0) (aWm V0) (aBm V0) (aWu V0) (aBu V0) (aWc V0) (aBc V0) 0 b c).trans ?_
  rw [st6 V0 b]
  rfl

theorem out_7 (b : Fin 4096) (c : Fin 128) :
    res_main_v560 (F := Ideal) V0 (ix3 (7 : Fin 13) b c) = out (pP V0) (rowOf (aX V0) b) 7 c := by
  unfold res_main_v560
  refine (concat13_at_7 _ _ _ _ _ _ _ _ _ _ _ _ _ _ b c).trans ?_
  refine (readout_apply 0 0 rfl _ (res_main_v314 (F := Ideal) V0) (aWm V0) (aBm V0) (aWu V0) (aBu V0) (aWc V0) (aBc V0) 0 b c).trans ?_
  rw [st7 V0 b]
  rfl

theorem out_8 (b : Fin 4096) (c : Fin 128) :
    res_main_v560 (F := Ideal) V0 (ix3 (8 : Fin 13) b c) = out (pP V0) (rowOf (aX V0) b) 8 c := by
  unfold res_main_v560
  refine (concat13_at_8 _ _ _ _ _ _ _ _ _ _ _ _ _ _ b c).trans ?_
  refine (readout_apply 2 2 rfl _ (res_main_v359 (F := Ideal) V0) (aWm V0) (aBm V0) (aWu V0) (aBu V0) (aWc V0) (aBc V0) 0 b c).trans ?_
  rw [st8 V0 b]
  rfl

theorem out_9 (b : Fin 4096) (c : Fin 128) :
    res_main_v560 (F := Ideal) V0 (ix3 (9 : Fin 13) b c) = out (pP V0) (rowOf (aX V0) b) 9 c := by
  unfold res_main_v560
  refine (concat13_at_9 _ _ _ _ _ _ _ _ _ _ _ _ _ _ b c).trans ?_
  refine (readout_apply 5 5 rfl _ (res_main_v404 (F := Ideal) V0) (aWm V0) (aBm V0) (aWu V0) (aBu V0) (aWc V0) (aBc V0) 0 b c).trans ?_
  rw [st9 V0 b]
  rfl

theorem out_10 (b : Fin 4096) (c : Fin 128) :
    res_main_v560 (F := Ideal) V0 (ix3 (10 : Fin 13) b c) = out (pP V0) (rowOf (aX V0) b) 10 c := by
  unfold res_main_v560
  refine (concat13_at_10 _ _ _ _ _ _ _ _ _ _ _ _ _ _ b c).trans ?_
  refine (readout_apply 2 2 rfl _ (res_main_v449 (F := Ideal) V0) (aWm V0) (aBm V0) (aWu V0) (aBu V0) (aWc V0) (aBc V0) 0 b c).trans ?_
  rw [st10 V0 b]
  rfl

theorem out_11 (b : Fin 4096) (c : Fin 128) :
    res_main_v560 (F := Ideal) V0 (ix3 (11 : Fin 13) b c) = out (pP V0) (rowOf (aX V0) b) 11 c := by
  unfold res_main_v560
  refine (concat13_at_11 _ _ _ _ _ _ _ _ _ _ _ _ _ _ b c).trans ?_
  refine (readout_apply 6 6 rfl _ (res_main_v494 (F := Ideal) V0) (aWm V0) (aBm V0) (aWu V0) (aBu V0) (aWc V0) (aBc V0) 0 b c).trans ?_
  rw [st11 V0 b]
  rfl

theorem out_12 (b : Fin 4096) (c : Fin 128) :
    res_main_v560 (F := Ideal) V0 (ix3 (12 : Fin 13) b c) = out (pP V0) (rowOf (aX V0) b) 12 c := by
  unfold res_main_v560
  refine (concat13_at_12 _ _ _ _ _ _ _ _ _ _ _ _ _ _ b c).trans ?_
  refine (readout_apply 2 2 rfl _ (res_v539 (F := Ideal) V0) (aWm V0) (aBm V0) (aWu V0) (aBu V0) (aWc V0) (aBc V0) 0 b c).trans ?_
  rw [st12 V0 b]
  rfl

/-- THE REFERENCE'S RESULT IS THE SPECIFICATION of its seven arguments. -/
theorem ref_eq_G :
    (res_main_v560 (F := Ideal) V0 : (⟨3, ![13, 4096, 128]⟩ : Shape).Idx → EReal)
      = G (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) := by
  funext i
  obtain ⟨e, b, c, rfl⟩ : ∃ (e : Fin 13) (b : Fin 4096) (c : Fin 128), i = ix3 e b c := ⟨i 0, i 1, i 2, eq_ix3 i⟩
  show res_main_v560 (F := Ideal) V0 (ix3 e b c) = out (pP V0) (rowOf (aX V0) b) e.val c
  match e with
  | ⟨0, _⟩ => exact out_0 V0 b c
  | ⟨1, _⟩ => exact out_1 V0 b c
  | ⟨2, _⟩ => exact out_2 V0 b c
  | ⟨3, _⟩ => exact out_3 V0 b c
  | ⟨4, _⟩ => exact out_4 V0 b c
  | ⟨5, _⟩ => exact out_5 V0 b c
  | ⟨6, _⟩ => exact out_6 V0 b c
  | ⟨7, _⟩ => exact out_7 V0 b c
  | ⟨8, _⟩ => exact out_8 V0 b c
  | ⟨9, _⟩ => exact out_9 V0 b c
  | ⟨10, _⟩ => exact out_10 V0 b c
  | ⟨11, _⟩ => exact out_11 V0 b c
  | ⟨12, _⟩ => exact out_12 V0 b c

end Program

end Cert.ReferenceIdeal.RefValue

end
-- ==== Proof.lean ====
/-
  A walk over a fixed seven-node tree: the kernel that keeps the node states on chip against the reference that
  scatters every update back into the batch array.

  Both programs take a batch of 4096 rows, each row seven node states of 256 entries, and walk twelve edges of
  the tree in a fixed order.  An edge (u, v) replaces node u's state by tanh of the update product of node u plus
  the message product of node v plus the two biases, refines it twice by tanh of its update product plus the update
  bias, and reads out the node's class scores; the root is read out once before the walk.  The result is the
  [13, 4096, 128] array of the thirteen readouts (Proof/Spec.lean: one function G of the seven argument arrays,
  defined row by row).

  The kernel (Proof/KernelRows.lean, KernelPieces.lean, KernelBlocks.lean) works on blocks of 1024 rows in two halves
  of 512, adds the two products first and the two biases folded into one row; every row of every stored piece is the
  walk's readout over that row's node states, so each grid point writes back its block of G, and the four blocks cover
  the array.  The reference (Proof/RefValue.lean) slices a node's column out of the [4096, 7, 256] array, multiplies by
  the transposed weight, adds each product's own bias, and writes the new state back into the column by a scatter;
  row by row that is the same walk, and the thirteen readouts concatenated are G.

  The two arrangements of the message step, (a + c) + (d + b) and (a + b) + (c + d), agree by commutativity and
  associativity of addition on the extended reals alone, so the precondition (finite inputs) is never opened.  A change
  of order in the sums of the matrix products does not arise: both sides sum over the contraction coordinate as one
  finite sum.  The frames are the generated ones (the kernel's two frame modules; the reference's run with the result
  dropped), and there is nothing to preserve: the idealization rewrote no operation.
-/
import proofs.«110702_g33526514713098_cont_8to1_b_1745_32_alg».proof.Defs
import proofs.«110702_g33526514713098_cont_8to1_b_1745_32_alg».proof.Proof.Gen.Kernel
import proofs.«110702_g33526514713098_cont_8to1_b_1745_32_alg».proof.Proof.Gen.Kernel.Skeleton
import proofs.«110702_g33526514713098_cont_8to1_b_1745_32_alg».proof.Proof.Gen.Kernel.Launch
import proofs.«110702_g33526514713098_cont_8to1_b_1745_32_alg».proof.Proof.Gen.Kernel.Points
import proofs.«110702_g33526514713098_cont_8to1_b_1745_32_alg».proof.Proof.Gen.Kernel.Frame
import proofs.«110702_g33526514713098_cont_8to1_b_1745_32_alg».proof.Proof.Gen.KernelIdeal
import proofs.«110702_g33526514713098_cont_8to1_b_1745_32_alg».proof.Proof.Gen.KernelIdeal.Skeleton
import proofs.«110702_g33526514713098_cont_8to1_b_1745_32_alg».proof.Proof.Gen.KernelIdeal.Launch
import proofs.«110702_g33526514713098_cont_8to1_b_1745_32_alg».proof.Proof.Gen.KernelIdeal.Points
import proofs.«110702_g33526514713098_cont_8to1_b_1745_32_alg».proof.Proof.Gen.KernelIdeal.Frame
import proofs.«110702_g33526514713098_cont_8to1_b_1745_32_alg».proof.Proof.Gen.ReferenceIdeal
import proofs.«110702_g33526514713098_cont_8to1_b_1745_32_alg».proof.Proof.Gen.KernelIdeal.Value
import proofs.«110702_g33526514713098_cont_8to1_b_1745_32_alg».proof.Proof.Gen.ReferenceIdeal.Run
import proofs.«110702_g33526514713098_cont_8to1_b_1745_32_alg».proof.Proof.Gen.Pre_finite_inputs
import proofs.«110702_g33526514713098_cont_8to1_b_1745_32_alg».proof.Proof.KernelBlocks
import proofs.«110702_g33526514713098_cont_8to1_b_1745_32_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the seven arguments both programs end with the result array at G of the arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_eq_G]
  show Cert.Walk.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
